-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S_ : Shape := ⟨0, ![]⟩
abbrev S4x4096x5 : Shape := ⟨3, ![4, 4096, 5]⟩
abbrev S4x4096x8 : Shape := ⟨3, ![4, 4096, 8]⟩
abbrev S4x8x4096 : Shape := ⟨3, ![4, 8, 4096]⟩
abbrev S1x1 : Shape := ⟨2, ![1, 1]⟩
abbrev S1x4096x8 : Shape := ⟨3, ![1, 4096, 8]⟩
abbrev S1x8x512 : Shape := ⟨3, ![1, 8, 512]⟩
abbrev S4096x1 : Shape := ⟨2, ![4096, 1]⟩
abbrev S4096x8 : Shape := ⟨2, ![4096, 8]⟩
abbrev S8x512 : Shape := ⟨2, ![8, 512]⟩
abbrev S4096x512 : Shape := ⟨2, ![4096, 512]⟩
abbrev S4096 : Shape := ⟨1, ![4096]⟩
abbrev S512 : Shape := ⟨1, ![512]⟩
abbrev S1x512 : Shape := ⟨2, ![1, 512]⟩
abbrev S1x1x512 : Shape := ⟨3, ![1, 1, 512]⟩
abbrev S1 : Shape := ⟨1, ![1]⟩
abbrev S1x1x1 : Shape := ⟨3, ![1, 1, 1]⟩
abbrev S1x4096x1 : Shape := ⟨3, ![1, 4096, 1]⟩

abbrev nBuf : Space → Nat
  | .hbm => 11
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S_, .f32⟩
  | .hbm, ⟨3, _⟩ => ⟨S4x4096x5, .f32⟩
  | .hbm, ⟨4, _⟩ => ⟨S4x4096x8, .f32⟩
  | .hbm, ⟨5, _⟩ => ⟨S_, .f32⟩
  | .hbm, ⟨6, _⟩ => ⟨S4x4096x5, .f32⟩
  | .hbm, ⟨7, _⟩ => ⟨S4x4096x8, .f32⟩
  | .hbm, ⟨8, _⟩ => ⟨S4x8x4096, .f32⟩
  | .hbm, ⟨9, _⟩ => ⟨S1x1, .f32⟩
  | .hbm, ⟨10, _⟩ => ⟨S_, .f32⟩
  | .local _ .vmem, ⟨0, _⟩ => ⟨S1x4096x8, .f32⟩
  | .local _ .vmem, ⟨1, _⟩ => ⟨S1x4096x8, .f32⟩
  | .local _ .vmem, ⟨2, _⟩ => ⟨S1x8x512, .f32⟩
  | .local _ .vmem, ⟨3, _⟩ => ⟨S1x8x512, .f32⟩
  | .local _ .vmem, ⟨4, _⟩ => ⟨S1x1, .f32⟩
  | .local _ .vmem, ⟨5, _⟩ => ⟨S4096x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  bcast_S_S4x4096x5 : S_.BroadcastsInDim S4x4096x5 (![] : Fin 0 → Fin S4x4096x5.rank)
  concatenates_S4x4096x3_S4x4096x5_S4x4096x8_d2 : Shape.Concatenates [S4x4096x3, S4x4096x5] S4x4096x8 2
  transposes_S4x4096x8_S4x8x4096_0_2_1 : S4x4096x8.Transposes [0, 2, 1] S4x8x4096
  inb_S1x4096x8_S1x4096x8_0_0_0 : ∀ a, (![0, 0, 0] : Fin 3 → Nat) a + S1x4096x8.size a ≤ S1x4096x8.size a
  h_S1x4096x8 : 0 < S1x4096x8.numel
  shapeCasts_S1x4096x8_S4096x8 : S1x4096x8.ShapeCasts S4096x8
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  reduces_S4096x8_S4096 : S4096x8.Reduces [1] S4096
  shapeCasts_S4096_S4096x1 : S4096.ShapeCasts S4096x1
  reduces_S8x512_S512 : S8x512.Reduces [0] S512
  shapeCasts_S512_S1x512 : S512.ShapeCasts S1x512
  broadcasts_S4096x1_S4096x512 : S4096x1.Broadcasts S4096x512
  broadcasts_S1x512_S4096x512 : S1x512.Broadcasts S4096x512
  reduces_S4096x512_S4096 : S4096x512.Reduces [1] S4096
  reduces_S4096x512_S512 : S4096x512.Reduces [0] S512
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x1_S1x1_0_0 : ∀ a, (![0, 0] : Fin 2 → Nat) a + S1x1.size a ≤ S1x1.size a
  h_S1x1 : 0 < S1x1.numel
  shapeCasts_S1x512_S1x1x512 : S1x512.ShapeCasts S1x1x512
  reduces_S1x1x512_S1 : S1x1x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S4096x1_S1x4096x1 : S4096x1.ShapeCasts S1x4096x1
  reduces_S1x4096x1_S1 : S1x4096x1.Reduces [1, 2] S1
  shapeCasts_S1x1_S_ : S1x1.ShapeCasts S_
  dot_S4096x8_S8x512_S4096x512_1_0_0_1_n_n_wf : DotDims.WF S4096x8 S8x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x8.size a ≤ S4x4096x8.size a
  hwx0_0 : ∀ i : grid0.Coords, EltTy.bits .f32 = 32 ∨ (Rect.block (s := S4x4096x8) S1x4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S4x8x4096.size a
  hwx0_1 : ∀ i : grid0.Coords, EltTy.bits .f32 = 32 ∨ (Rect.block (s := S4x8x4096) S1x8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S4096x8_S8x512_S4096x512_1_0_0_1_n_n : DotDims S4096x8 S8x512 S4096x512 where
  lhsContracting := [1]
  rhsContracting := [0]
  lhsNonContracting := [0]
  rhsNonContracting := [1]
  lhsBatch := []
  rhsBatch := []
  wf := dot_S4096x8_S8x512_S4096x512_1_0_0_1_n_n_wf

abbrev win0_0 : Pipeline.Window sig grid0 :=
  Pipeline.Window.ofSpec (Memref.whole main_v1) S1x4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_cst_10 : Ref sig .tc := ⟨.hbm, 37, rfl⟩
abbrev main_v24 : Ref sig .tc := ⟨.hbm, 38, rfl⟩
abbrev main_cst_11 : Ref sig .tc := ⟨.hbm, 39, rfl⟩
abbrev main_v25 : Ref sig .tc := ⟨.hbm, 40, rfl⟩
abbrev main_cst_12 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S4_d1 : S4x4096.ReducesTo [1] S4
  bcast_S_S4 : S_.BroadcastsInDim S4 (![] : Fin 0 → Fin S4.rank)
  reducesTo_S4x4096x4096_S4x4096_d1 : S4x4096x4096.ReducesTo [1] S4x4096
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.FrameK.Conds.lean ====
/-
  The kernel body branches four times on the grid coordinates (b, j) of the point t = 8 b + j: on j = 0 (the running
  row minima restart), on j > 0 (they are lowered), on b = 0 ∧ j = 0 (the running loss restarts from zero) and on
  j = 7 (the cloud's row minima are added to the loss). Each condition in closed form over the 32 points, the
  memrefs the body is called with, and the invariant's scratch buffer named.
-/
import proofs.«114504_g48593259987365_cont_8to1c4_620_3_alg».proof.Proof.Gen.Kernel.Launch
import proofs.«114504_g48593259987365_cont_8to1c4_620_3_alg».proof.Proof.Gen.Kernel.Skeleton
import proofs.«114504_g48593259987365_cont_8to1c4_620_3_alg».proof.Proof.Gen.Kernel.Points
import proofs.«114504_g48593259987365_cont_8to1c4_620_3_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- j = 0. -/
abbrev cond1 (i : grid0.Coords) : Prop := (Scalar.cmpi .ne (Scalar.extui (Scalar.cmpi .eq (BitVec.ofNat 32 (i 1).val) 0#32)) 0#32) = 1#1
/-- j > 0. -/
abbrev cond2 (i : grid0.Coords) : Prop := (Scalar.cmpi .ne (Scalar.extui (Scalar.cmpi .sgt (BitVec.ofNat 32 (i 1).val) 0#32)) 0#32) = 1#1
/-- b = 0 and j = 0. -/
abbrev cond3 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- j = 7. -/
abbrev cond4 (i : grid0.Coords) : Prop := (Scalar.cmpi .ne (Scalar.extui (Scalar.cmpi .eq (BitVec.ofNat 32 (i 1).val) 7#32)) 0#32) = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ ¬ t.val % 8 = 0 :=
  (by decide +kernel : ∀ t : Fin grid0.N, cond2 (grid0.coords t) ↔ ¬ t.val % 8 = 0)
theorem hcond3 : ∀ t : Fin cfg0.N, cond3 (grid0.coords t) ↔ t.val = 0 :=
  (by decide +kernel : ∀ t : Fin grid0.N, cond3 (grid0.coords t) ↔ t.val = 0)
theorem hcond4 : ∀ t : Fin cfg0.N, cond4 (grid0.coords t) ↔ t.val % 8 = 7 :=
  (by decide +kernel : ∀ t : Fin grid0.N, cond4 (grid0.coords t) ↔ t.val % 8 = 7)

/-- No window is idle at any point: the body stores into its output at every point. -/
theorem live0 : ∀ (w : Fin 3) (t : Fin cfg0.N), cfg0.idle w (grid0.coords t) = false := by decide +kernel

/-- Each window's current staging memref at point `t`, and its wholeness. -/
abbrev ms0 (t : Fin cfg0.N) : Memref sig .tc .vmem S1x4096x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The scratch operand: the running row minima. -/
abbrev scM : Memref sig .tc .vmem S4096x1 .f32 := Memref.whole cc0_scratch0
/-- Views through which the two carried buffers' contents are stated. -/
abbrev VO : View sig .tc .vmem S1x1 .f32 := (Memref.whole cc0_stg2_0 : Memref sig .tc .vmem S1x1 .f32).view
abbrev VS : View sig .tc .vmem S4096x1 .f32 := scM.view

/-- The region's invariant with the scratch operand as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.FrameK.RunA.lean ====
/-
  The kernel body run symbolically at the first point (b = 0, j = 0): both carried buffers restart. On whole memrefs — the two input blocks, the loss buffer and
  the row-minima scratch at given contents — it runs to the end, hands the inputs back unchanged, and leaves in the
  two carried buffers the stores it made, listed last first.
-/
import proofs.«114504_g48593259987365_cont_8to1c4_620_3_alg».proof.Proof.FrameK.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun_A (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : cond3 i) (hc4 : ¬cond4 i)
    (x0 : Vec F S1x4096x8 .f32) (x1 : Vec F S1x8x512 .f32) (o : Vec F S1x1 .f32) (s : Vec F S4096x1 .f32) :
    Σ' (L4 : List (View.Piece (Elt F) S1x1 .f32)), { L5 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare o ∗ owns (c : Thread nD τ) arg5 fullShare s
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_body i arg2 harg2 arg3 harg3 arg4 harg4 arg5 harg5) K } := by
  refine ⟨?_, ?_, fun E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Body

end
-- ==== Proof.FrameK.RunB.lean ====
/-
  The kernel body run symbolically at a middle tile (0 < j < 7): the row minima are lowered, the loss grows by the tile's term. On whole memrefs — the two input blocks, the loss buffer and
  the row-minima scratch at given contents — it runs to the end, hands the inputs back unchanged, and leaves in the
  two carried buffers the stores it made, listed last first.
-/
import proofs.«114504_g48593259987365_cont_8to1c4_620_3_alg».proof.Proof.FrameK.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun_B (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : ¬cond4 i)
    (x0 : Vec F S1x4096x8 .f32) (x1 : Vec F S1x8x512 .f32) (o : Vec F S1x1 .f32) (s : Vec F S4096x1 .f32) :
    Σ' (L4 : List (View.Piece (Elt F) S1x1 .f32)), { L5 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare o ∗ owns (c : Thread nD τ) arg5 fullShare s
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_body i arg2 harg2 arg3 harg3 arg4 harg4 arg5 harg5) K } := by
  refine ⟨?_, ?_, fun E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Body

end
-- ==== Proof.FrameK.RunC.lean ====
/-
  The kernel body run symbolically at a cloud's last tile (j = 7): as in a middle tile, and the rows' term is added. On whole memrefs — the two input blocks, the loss buffer and
  the row-minima scratch at given contents — it runs to the end, hands the inputs back unchanged, and leaves in the
  two carried buffers the stores it made, listed last first.
-/
import proofs.«114504_g48593259987365_cont_8to1c4_620_3_alg».proof.Proof.FrameK.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun_C (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : cond4 i)
    (x0 : Vec F S1x4096x8 .f32) (x1 : Vec F S1x8x512 .f32) (o : Vec F S1x1 .f32) (s : Vec F S4096x1 .f32) :
    Σ' (L4 : List (View.Piece (Elt F) S1x1 .f32)), { L5 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare o ∗ owns (c : Thread nD τ) arg5 fullShare s
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_body i arg2 harg2 arg3 harg3 arg4 harg4 arg5 harg5) K } := by
  refine ⟨?_, ?_, fun E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Body

end
-- ==== Proof.FrameK.RunD.lean ====
/-
  The kernel body run symbolically at a later cloud's first tile (j = 0, b > 0): the row minima restart, the loss grows by the tile's term. On whole memrefs — the two input blocks, the loss buffer and
  the row-minima scratch at given contents — it runs to the end, hands the inputs back unchanged, and leaves in the
  two carried buffers the stores it made, listed last first.
-/
import proofs.«114504_g48593259987365_cont_8to1c4_620_3_alg».proof.Proof.FrameK.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun_D (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : ¬cond3 i) (hc4 : ¬cond4 i)
    (x0 : Vec F S1x4096x8 .f32) (x1 : Vec F S1x8x512 .f32) (o : Vec F S1x1 .f32) (s : Vec F S4096x1 .f32) :
    Σ' (L4 : List (View.Piece (Elt F) S1x1 .f32)), { L5 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare o ∗ owns (c : Thread nD τ) arg5 fullShare s
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_body i arg2 harg2 arg3 harg3 arg4 harg4 arg5 harg5) K } := by
  refine ⟨?_, ?_, fun E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Body

end
-- ==== Proof.FrameK.Outs.lean ====
/-
  What the four runs of the body leave in the two carried buffers. In every case the last store into a buffer is a
  store of the whole buffer, so the buffer ends at that store's value: the loss buffer at the loss so far plus the
  tile's term (from zero at the first point; plus the rows' term at a cloud's last tile), the scratch at the tile's
  row minima (a cloud's first tile) or at the minimum of those and what it held.
-/
import proofs.«114504_g48593259987365_cont_8to1c4_620_3_alg».proof.Proof.FrameK.RunD
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.Sem

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl

/-! ## the first point (b = 0, j = 0): both carried buffers restart -/

theorem cover_A (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : cond3 i) (hc4 : ¬cond4 i) (x0 : Vec F S1x4096x8 .f32) (x1 : Vec F S1x8x512 .f32) (o : Vec F S1x1 .f32) (s : Vec F S4096x1 .f32) (y : S1x1.Idx) :
    ∃ pc ∈ (kernelRun_A c i arg2 harg2 arg3 harg3 arg4 harg4 arg5 harg5 hc1 hc2 hc3 hc4 x0 x1 o s).1, y ∈ pc.1.set :=
  View.cover_of_tiledL (kernelRun_A c i arg2 harg2 arg3 harg3 arg4 harg4 arg5 harg5 hc1 hc2 hc3 hc4 x0 x1 o s).1 S1x1.size (by sl_kernel_rfl) y

theorem scover_A (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : cond3 i) (hc4 : ¬cond4 i) (x0 : Vec F S1x4096x8 .f32) (x1 : Vec F S1x8x512 .f32) (o : Vec F S1x1 .f32) (s : Vec F S4096x1 .f32) (y : S4096x1.Idx) :
    ∃ pc ∈ (kernelRun_A c i arg2 harg2 arg3 harg3 arg4 harg4 arg5 harg5 hc1 hc2 hc3 hc4 x0 x1 o s).2.1, y ∈ pc.1.set :=
  View.cover_of_tiledL (kernelRun_A c i arg2 harg2 arg3 harg3 arg4 harg4 arg5 harg5 hc1 hc2 hc3 hc4 x0 x1 o s).2.1 S4096x1.size (by sl_kernel_rfl) y

theorem loss_A (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : cond3 i) (hc4 : ¬cond4 i) (x0 : Vec F S1x4096x8 .f32) (x1 : Vec F S1x8x512 .f32) (o : Vec F S1x1 .f32) (s : Vec F S4096x1 .f32) :
    View.canon (kernelRun_A c i arg2 harg2 arg3 harg3 arg4 harg4 arg5 harg5 hc1 hc2 hc3 hc4 x0 x1 o s).1 = k0_pay1 (k0_pay8 x0 x1) (k0_pay7 (F := F)) := by
  unfold kernelRun_A; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

theorem rows_A (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : cond3 i) (hc4 : ¬cond4 i) (x0 : Vec F S1x4096x8 .f32) (x1 : Vec F S1x8x512 .f32) (o : Vec F S1x1 .f32) (s : Vec F S4096x1 .f32) :
    View.canon (kernelRun_A c i arg2 harg2 arg3 harg3 arg4 harg4 arg5 harg5 hc1 hc2 hc3 hc4 x0 x1 o s).2.1 = k0_pay5 x0 x1 := by
  unfold kernelRun_A; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

/-! ## a middle tile (0 < j < 7): the row minima are lowered, the loss grows by the tile's term -/

theorem cover_B (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : ¬cond4 i) (x0 : Vec F S1x4096x8 .f32) (x1 : Vec F S1x8x512 .f32) (o : Vec F S1x1 .f32) (s : Vec F S4096x1 .f32) (y : S1x1.Idx) :
    ∃ pc ∈ (kernelRun_B c i arg2 harg2 arg3 harg3 arg4 harg4 arg5 harg5 hc1 hc2 hc3 hc4 x0 x1 o s).1, y ∈ pc.1.set :=
  View.cover_of_tiledL (kernelRun_B c i arg2 harg2 arg3 harg3 arg4 harg4 arg5 harg5 hc1 hc2 hc3 hc4 x0 x1 o s).1 S1x1.size (by sl_kernel_rfl) y

theorem scover_B (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : ¬cond4 i) (x0 : Vec F S1x4096x8 .f32) (x1 : Vec F S1x8x512 .f32) (o : Vec F S1x1 .f32) (s : Vec F S4096x1 .f32) (y : S4096x1.Idx) :
    ∃ pc ∈ (kernelRun_B c i arg2 harg2 arg3 harg3 arg4 harg4 arg5 harg5 hc1 hc2 hc3 hc4 x0 x1 o s).2.1, y ∈ pc.1.set :=
  View.cover_of_tiledL (kernelRun_B c i arg2 harg2 arg3 harg3 arg4 harg4 arg5 harg5 hc1 hc2 hc3 hc4 x0 x1 o s).2.1 S4096x1.size (by sl_kernel_rfl) y

theorem loss_B (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : ¬cond4 i) (x0 : Vec F S1x4096x8 .f32) (x1 : Vec F S1x8x512 .f32) (o : Vec F S1x1 .f32) (s : Vec F S4096x1 .f32) :
    View.canon (kernelRun_B c i arg2 harg2 arg3 harg3 arg4 harg4 arg5 harg5 hc1 hc2 hc3 hc4 x0 x1 o s).1 = k0_pay1 (k0_pay8 x0 x1) o := by
  unfold kernelRun_B; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

theorem rows_B (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : ¬cond4 i) (x0 : Vec F S1x4096x8 .f32) (x1 : Vec F S1x8x512 .f32) (o : Vec F S1x1 .f32) (s : Vec F S4096x1 .f32) :
    View.canon (kernelRun_B c i arg2 harg2 arg3 harg3 arg4 harg4 arg5 harg5 hc1 hc2 hc3 hc4 x0 x1 o s).2.1 = k0_pay6 x0 x1 s := by
  unfold kernelRun_B; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

/-! ## a cloud's last tile (j = 7): as in a middle tile, and the rows' term is added -/

theorem cover_C (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : cond4 i) (x0 : Vec F S1x4096x8 .f32) (x1 : Vec F S1x8x512 .f32) (o : Vec F S1x1 .f32) (s : Vec F S4096x1 .f32) (y : S1x1.Idx) :
    ∃ pc ∈ (kernelRun_C c i arg2 harg2 arg3 harg3 arg4 harg4 arg5 harg5 hc1 hc2 hc3 hc4 x0 x1 o s).1, y ∈ pc.1.set :=
  View.cover_of_tiledL (kernelRun_C c i arg2 harg2 arg3 harg3 arg4 harg4 arg5 harg5 hc1 hc2 hc3 hc4 x0 x1 o s).1 S1x1.size (by sl_kernel_rfl) y

theorem scover_C (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : cond4 i) (x0 : Vec F S1x4096x8 .f32) (x1 : Vec F S1x8x512 .f32) (o : Vec F S1x1 .f32) (s : Vec F S4096x1 .f32) (y : S4096x1.Idx) :
    ∃ pc ∈ (kernelRun_C c i arg2 harg2 arg3 harg3 arg4 harg4 arg5 harg5 hc1 hc2 hc3 hc4 x0 x1 o s).2.1, y ∈ pc.1.set :=
  View.cover_of_tiledL (kernelRun_C c i arg2 harg2 arg3 harg3 arg4 harg4 arg5 harg5 hc1 hc2 hc3 hc4 x0 x1 o s).2.1 S4096x1.size (by sl_kernel_rfl) y

theorem loss_C (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : cond4 i) (x0 : Vec F S1x4096x8 .f32) (x1 : Vec F S1x8x512 .f32) (o : Vec F S1x1 .f32) (s : Vec F S4096x1 .f32) :
    View.canon (kernelRun_C c i arg2 harg2 arg3 harg3 arg4 harg4 arg5 harg5 hc1 hc2 hc3 hc4 x0 x1 o s).1 = k0_pay2 (k0_pay1 (k0_pay8 x0 x1) o) (k0_pay6 x0 x1 s) := by
  unfold kernelRun_C; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

theorem rows_C (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : cond4 i) (x0 : Vec F S1x4096x8 .f32) (x1 : Vec F S1x8x512 .f32) (o : Vec F S1x1 .f32) (s : Vec F S4096x1 .f32) :
    View.canon (kernelRun_C c i arg2 harg2 arg3 harg3 arg4 harg4 arg5 harg5 hc1 hc2 hc3 hc4 x0 x1 o s).2.1 = k0_pay6 x0 x1 s := by
  unfold kernelRun_C; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

/-! ## a later cloud's first tile (j = 0, b > 0): the row minima restart, the loss grows by the tile's term -/

theorem cover_D (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : ¬cond3 i) (hc4 : ¬cond4 i) (x0 : Vec F S1x4096x8 .f32) (x1 : Vec F S1x8x512 .f32) (o : Vec F S1x1 .f32) (s : Vec F S4096x1 .f32) (y : S1x1.Idx) :
    ∃ pc ∈ (kernelRun_D c i arg2 harg2 arg3 harg3 arg4 harg4 arg5 harg5 hc1 hc2 hc3 hc4 x0 x1 o s).1, y ∈ pc.1.set :=
  View.cover_of_tiledL (kernelRun_D c i arg2 harg2 arg3 harg3 arg4 harg4 arg5 harg5 hc1 hc2 hc3 hc4 x0 x1 o s).1 S1x1.size (by sl_kernel_rfl) y

theorem scover_D (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : ¬cond3 i) (hc4 : ¬cond4 i) (x0 : Vec F S1x4096x8 .f32) (x1 : Vec F S1x8x512 .f32) (o : Vec F S1x1 .f32) (s : Vec F S4096x1 .f32) (y : S4096x1.Idx) :
    ∃ pc ∈ (kernelRun_D c i arg2 harg2 arg3 harg3 arg4 harg4 arg5 harg5 hc1 hc2 hc3 hc4 x0 x1 o s).2.1, y ∈ pc.1.set :=
  View.cover_of_tiledL (kernelRun_D c i arg2 harg2 arg3 harg3 arg4 harg4 arg5 harg5 hc1 hc2 hc3 hc4 x0 x1 o s).2.1 S4096x1.size (by sl_kernel_rfl) y

theorem loss_D (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : ¬cond3 i) (hc4 : ¬cond4 i) (x0 : Vec F S1x4096x8 .f32) (x1 : Vec F S1x8x512 .f32) (o : Vec F S1x1 .f32) (s : Vec F S4096x1 .f32) :
    View.canon (kernelRun_D c i arg2 harg2 arg3 harg3 arg4 harg4 arg5 harg5 hc1 hc2 hc3 hc4 x0 x1 o s).1 = k0_pay1 (k0_pay8 x0 x1) o := by
  unfold kernelRun_D; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

theorem rows_D (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : ¬cond3 i) (hc4 : ¬cond4 i) (x0 : Vec F S1x4096x8 .f32) (x1 : Vec F S1x8x512 .f32) (o : Vec F S1x1 .f32) (s : Vec F S4096x1 .f32) :
    View.canon (kernelRun_D c i arg2 harg2 arg3 harg3 arg4 harg4 arg5 harg5 hc1 hc2 hc3 hc4 x0 x1 o s).2.1 = k0_pay5 x0 x1 := by
  unfold kernelRun_D; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

end Cert.Kernel.Body

end
-- ==== Proof.FrameK.Frame.lean ====
/-
  The frame of the program around its one kernel launch. The kernel carries two buffers from grid point to grid
  point: the loss buffer (its one output block, written back after the last point only) and the row-minima scratch.
  What both hold after each point is defined by recursion on the point, case by case as the body branches; with
  that as the proof data every point's body obligation is the matching run, and the library's launch theorem gives
  the run of the whole program: it ends, faults nowhere, and leaves every array it did not write as it found it.
-/
import proofs.«114504_g48593259987365_cont_8to1c4_620_3_alg».proof.Proof.FrameK.Outs
import Idealize.ShloMosaic.Lib.Pipeline.FrameBody
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two carried buffers, point by point -/

/-- The loss buffer and the row-minima scratch after the body at point `n`: at the first point both restart; at a
    cloud's first tile the scratch restarts; at a cloud's last tile the rows' term is added after the tile's. -/
def stAt (c : Dev nD) : (n : ℕ) → n < cfg0.N → Vec F S1x1 .f32 × Vec F S4096x1 .f32
  | 0, hn => (k0_pay1 (k0_pay8 (iblk m c 0 ⟨0, hn⟩) (iblk m c 1 ⟨0, hn⟩)) (k0_pay7 (F := F)), k0_pay5 (iblk m c 0 ⟨0, hn⟩) (iblk m c 1 ⟨0, hn⟩))
  | n + 1, hn =>
    let p := stAt c n (Nat.lt_of_succ_lt hn)
    let s' : Vec F S4096x1 .f32 :=
      if (n + 1) % 8 = 0 then k0_pay5 (iblk m c 0 ⟨n + 1, hn⟩) (iblk m c 1 ⟨n + 1, hn⟩)
      else k0_pay6 (iblk m c 0 ⟨n + 1, hn⟩) (iblk m c 1 ⟨n + 1, hn⟩) p.2
    let o1 : Vec F S1x1 .f32 := k0_pay1 (k0_pay8 (iblk m c 0 ⟨n + 1, hn⟩) (iblk m c 1 ⟨n + 1, hn⟩)) p.1
    (if (n + 1) % 8 = 7 then k0_pay2 o1 s' else o1, s')

/-- The point before `t`. -/
abbrev prev (t : Fin cfg0.N) : t.val - 1 < cfg0.N := Nat.lt_of_le_of_lt (Nat.sub_le _ _) t.isLt

theorem stAt_A (c : Dev nD) (t : Fin cfg0.N) (hz : t.val = 0) :
    stAt m c t.val t.isLt = (k0_pay1 (k0_pay8 (iblk m c 0 t) (iblk m c 1 t)) (k0_pay7 (F := F)), k0_pay5 (iblk m c 0 t) (iblk m c 1 t)) := by
  obtain ⟨n, hn⟩ := t
  cases n with
  | zero => rfl
  | succ n => exact absurd hz (Nat.succ_ne_zero n)

theorem stAt_D (c : Dev nD) (t : Fin cfg0.N) (hz : ¬t.val = 0) (h8 : t.val % 8 = 0) :
    stAt m c t.val t.isLt = (k0_pay1 (k0_pay8 (iblk m c 0 t) (iblk m c 1 t)) (stAt m c (t.val - 1) (prev t)).1, k0_pay5 (iblk m c 0 t) (iblk m c 1 t)) := by
  obtain ⟨n, hn⟩ := t
  cases n with
  | zero => exact absurd rfl hz
  | succ n =>
    have h7 : ¬(n + 1) % 8 = 7 := by dsimp only at h8; omega
    show (if (n + 1) % 8 = 7 then _ else _, if (n + 1) % 8 = 0 then _ else _) = _
    rw [if_neg h7, if_pos h8]; rfl

theorem stAt_B (c : Dev nD) (t : Fin cfg0.N) (h8 : ¬t.val % 8 = 0) (h7 : ¬t.val % 8 = 7) :
    stAt m c t.val t.isLt = (k0_pay1 (k0_pay8 (iblk m c 0 t) (iblk m c 1 t)) (stAt m c (t.val - 1) (prev t)).1, k0_pay6 (iblk m c 0 t) (iblk m c 1 t) (stAt m c (t.val - 1) (prev t)).2) := by
  obtain ⟨n, hn⟩ := t
  cases n with
  | zero => exact absurd (Nat.zero_mod _) h8
  | succ n =>
    show (if (n + 1) % 8 = 7 then _ else _, if (n + 1) % 8 = 0 then _ else _) = _
    rw [if_neg h7, if_neg h8]; rfl

theorem stAt_C (c : Dev nD) (t : Fin cfg0.N) (h7 : t.val % 8 = 7) :
    stAt m c t.val t.isLt = (k0_pay2 (k0_pay1 (k0_pay8 (iblk m c 0 t) (iblk m c 1 t)) (stAt m c (t.val - 1) (prev t)).1) (k0_pay6 (iblk m c 0 t) (iblk m c 1 t) (stAt m c (t.val - 1) (prev t)).2), k0_pay6 (iblk m c 0 t) (iblk m c 1 t) (stAt m c (t.val - 1) (prev t)).2) := by
  obtain ⟨n, hn⟩ := t
  cases n with
  | zero => exact absurd h7 (by show ¬(0 % 8 = 7); omega)
  | succ n =>
    have h8 : ¬(n + 1) % 8 = 0 := by dsimp only at h7; omega
    show (if (n + 1) % 8 = 7 then _ else _, if (n + 1) % 8 = 0 then _ else _) = _
    rw [if_pos h7, if_neg h8]; rfl

theorem fst_pair {α β : Type} (a : α) (b : β) : (a, b).1 = a := rfl
theorem snd_pair {α β : Type} (a : α) (b : β) : (a, b).2 = b := rfl

theorem stAt_A1 (c : Dev nD) (t : Fin cfg0.N) (hz : t.val = 0) :
    (stAt m c t.val t.isLt).1 = k0_pay1 (k0_pay8 (iblk m c 0 t) (iblk m c 1 t)) (k0_pay7 (F := F)) :=
  (congrArg Prod.fst (stAt_A m c t hz)).trans (fst_pair _ _)
theorem stAt_A2 (c : Dev nD) (t : Fin cfg0.N) (hz : t.val = 0) :
    (stAt m c t.val t.isLt).2 = k0_pay5 (iblk m c 0 t) (iblk m c 1 t) :=
  (congrArg Prod.snd (stAt_A m c t hz)).trans (snd_pair _ _)
theorem stAt_D1 (c : Dev nD) (t : Fin cfg0.N) (hz : ¬t.val = 0) (h8 : t.val % 8 = 0) :
    (stAt m c t.val t.isLt).1 = k0_pay1 (k0_pay8 (iblk m c 0 t) (iblk m c 1 t)) (stAt m c (t.val - 1) (prev t)).1 :=
  (congrArg Prod.fst (stAt_D m c t hz h8)).trans (fst_pair _ _)
theorem stAt_D2 (c : Dev nD) (t : Fin cfg0.N) (hz : ¬t.val = 0) (h8 : t.val % 8 = 0) :
    (stAt m c t.val t.isLt).2 = k0_pay5 (iblk m c 0 t) (iblk m c 1 t) :=
  (congrArg Prod.snd (stAt_D m c t hz h8)).trans (snd_pair _ _)
theorem stAt_B1 (c : Dev nD) (t : Fin cfg0.N) (h8 : ¬t.val % 8 = 0) (h7 : ¬t.val % 8 = 7) :
    (stAt m c t.val t.isLt).1 = k0_pay1 (k0_pay8 (iblk m c 0 t) (iblk m c 1 t)) (stAt m c (t.val - 1) (prev t)).1 :=
  (congrArg Prod.fst (stAt_B m c t h8 h7)).trans (fst_pair _ _)
theorem stAt_B2 (c : Dev nD) (t : Fin cfg0.N) (h8 : ¬t.val % 8 = 0) (h7 : ¬t.val % 8 = 7) :
    (stAt m c t.val t.isLt).2 = k0_pay6 (iblk m c 0 t) (iblk m c 1 t) (stAt m c (t.val - 1) (prev t)).2 :=
  (congrArg Prod.snd (stAt_B m c t h8 h7)).trans (snd_pair _ _)
theorem stAt_C1 (c : Dev nD) (t : Fin cfg0.N) (h7 : t.val % 8 = 7) :
    (stAt m c t.val t.isLt).1 = k0_pay2 (k0_pay1 (k0_pay8 (iblk m c 0 t) (iblk m c 1 t)) (stAt m c (t.val - 1) (prev t)).1) (k0_pay6 (iblk m c 0 t) (iblk m c 1 t) (stAt m c (t.val - 1) (prev t)).2) :=
  (congrArg Prod.fst (stAt_C m c t h7)).trans (fst_pair _ _)
theorem stAt_C2 (c : Dev nD) (t : Fin cfg0.N) (h7 : t.val % 8 = 7) :
    (stAt m c t.val t.isLt).2 = k0_pay6 (iblk m c 0 t) (iblk m c 1 t) (stAt m c (t.val - 1) (prev t)).2 :=
  (congrArg Prod.snd (stAt_C m c t h7)).trans (snd_pair _ _)

/-! ## The invariant and the proof data -/

/-- Before the first point the scratch holds anything; before any later point, what the point before left. -/
def PhiS (c : Dev nD) : (n : ℕ) → n ≤ cfg0.N → sProp 𝕄
  | 0, _ => Pipeline.ΦA spec0 c
  | n + 1, hn => iprop(iprop(owns (c : Thread nD τ) scM fullShare ((stAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((stAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((stAt m c (n - 1) (by omega)).2)) ∗ (∃ r, prngReg c r)) := by
  cases n with
  | zero => exact absurd rfl hz
  | succ n => rfl

/-- The proof data: the arrays as the region finds them; each input's buffer left at its block; the output's at the
    loss so far; the invariant the scratch at the row minima so far; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (stAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The output's buffer is fresh at the first point, -/
theorem before2_zero (c : Dev nD) (t : Fin cfg0.N) (hz : t.val = 0) (d) : (dats m 0 c).before 2 t d = d :=
  (dats m 0 c).before_out_reset 2 rfl t (.inl hz) d

/-- and at every later point holds what the point before left: it is written back after the last point only. -/
theorem before2_pos (c : Dev nD) (t : Fin cfg0.N) (hz : t.val ≠ 0) (d) :
    (dats m 0 c).before 2 t d = (stAt m c (t.val - 1) (prev t)).1 := by
  have hN : t.val < 32 := lt_of_lt_of_eq t.isLt (show cfg0.N = 32 from N_0)
  have hfl : (cfg0.win 2).flush ⟨t.val - 1, prev t⟩ = false := by
    cases h : (cfg0.win 2).flush ⟨t.val - 1, prev t⟩ with
    | false => rfl
    | true => exfalso; have := (flush0_2 ⟨t.val - 1, prev t⟩).mp h; dsimp only at this; omega
  rw [(dats m 0 c).before_out_kept 2 rfl t hz hfl (fun _ => rfl) (fun _ _ => rfl) d]
  exact after0_2 m c ⟨t.val - 1, prev t⟩

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 4800000 in
/-- The body at any point: the inputs' buffers hold their blocks, the output's and the scratch what the point before
    left (anything at the first point); the point's coordinates select the run; what the run leaves is this point's
    entry of the recursion. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, PhiS_castSucc m c t]
  have hN : t.val < 32 := lt_of_lt_of_eq t.isLt (show cfg0.N = 32 from N_0)
  by_cases h8 : t.val % 8 = 0
  · by_cases hz : t.val = 0
    · simp only [before2_zero m c t hz]
      rw [stAt_A1 m c t hz, stAt_A2 m c t hz, PhiS_zero m c _ _ hz, PhiA0_eq]
      iintro ⟨⟨⟨%ds, HS⟩, Hg⟩, Ho, ⟨%d0, H0⟩, ⟨%d1, H1⟩, ⟨%d2, H2⟩⟩
      have hc1 : cond1 (grid0.coords t) := (hcond1 t).mpr h8
      have hc2 : ¬cond2 (grid0.coords t) := fun h => (hcond2 t).mp h h8
      have hc3 : cond3 (grid0.coords t) := (hcond3 t).mpr hz
      have hc4 : ¬cond4 (grid0.coords t) := fun h => by have := (hcond4 t).mp h; omega
      iapply ((kernelRun_A c (grid0.coords t) (ms0 t) (hs0 t) (ms1 t) (hs1 t) (ms2 t) (hs2 t) scM (Memref.isWhole_whole _) hc1 hc2 hc3 hc4 (iblk m c 0 t) (iblk m c 1 t) d2 ds).2.2 Set.univ _)
      isplitl [H0]; · iexact H0
      isplitl [H1]; · iexact H1
      isplitl [H2]; · iexact H2
      isplitl [HS]; · iexact HS
      iintro ⟨H0, H1, ⟨%e4, H4⟩, ⟨%e5, H5⟩⟩
      isplitl [H5 Hg]
      · isplitl [H5]
        · unfold owns; iexists _; isplitr
          swap; · iexact H5
          ipureintro; exact (View.read_writes_eq_canon _ _ _ (scover_A c (grid0.coords t) (ms0 t) (hs0 t) (ms1 t) (hs1 t) (ms2 t) (hs2 t) scM (Memref.isWhole_whole _) hc1 hc2 hc3 hc4 (iblk m c 0 t) (iblk m c 1 t) d2 ds)).trans (rows_A c (grid0.coords t) (ms0 t) (hs0 t) (ms1 t) (hs1 t) (ms2 t) (hs2 t) scM (Memref.isWhole_whole _) hc1 hc2 hc3 hc4 (iblk m c 0 t) (iblk m c 1 t) d2 ds)
        iexact Hg
      isplitl [Ho]; · iexact Ho
      isplitl [H0]; · iexact H0
      isplitl [H1]; · iexact H1
      unfold owns; iexists _; isplitr
      swap; · iexact H4
      ipureintro; exact (View.read_writes_eq_canon _ _ _ (cover_A c (grid0.coords t) (ms0 t) (hs0 t) (ms1 t) (hs1 t) (ms2 t) (hs2 t) scM (Memref.isWhole_whole _) hc1 hc2 hc3 hc4 (iblk m c 0 t) (iblk m c 1 t) d2 ds)).trans (loss_A c (grid0.coords t) (ms0 t) (hs0 t) (ms1 t) (hs1 t) (ms2 t) (hs2 t) scM (Memref.isWhole_whole _) hc1 hc2 hc3 hc4 (iblk m c 0 t) (iblk m c 1 t) d2 ds)
    · simp only [before2_pos m c t hz]
      rw [stAt_D1 m c t hz h8, stAt_D2 m c t hz h8, PhiS_pos m c _ _ hz]
      iintro ⟨⟨HS, Hg⟩, Ho, ⟨%d0, H0⟩, ⟨%d1, H1⟩, ⟨%d2, H2⟩⟩
      have hc1 : cond1 (grid0.coords t) := (hcond1 t).mpr h8
      have hc2 : ¬cond2 (grid0.coords t) := fun h => (hcond2 t).mp h h8
      have hc3 : ¬cond3 (grid0.coords t) := fun h => hz ((hcond3 t).mp h)
      have hc4 : ¬cond4 (grid0.coords t) := fun h => by have := (hcond4 t).mp h; omega
      iapply ((kernelRun_D c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2).2.2 Set.univ _)
      isplitl [H0]; · iexact H0
      isplitl [H1]; · iexact H1
      isplitl [H2]; · iexact H2
      isplitl [HS]; · iexact HS
      iintro ⟨H0, H1, ⟨%e4, H4⟩, ⟨%e5, H5⟩⟩
      isplitl [H5 Hg]
      · isplitl [H5]
        · unfold owns; iexists _; isplitr
          swap; · iexact H5
          ipureintro; exact (View.read_writes_eq_canon _ _ _ (scover_D c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (rows_D c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)
        iexact Hg
      isplitl [Ho]; · iexact Ho
      isplitl [H0]; · iexact H0
      isplitl [H1]; · iexact H1
      unfold owns; iexists _; isplitr
      swap; · iexact H4
      ipureintro; exact (View.read_writes_eq_canon _ _ _ (cover_D c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (loss_D c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)
  · have hz : t.val ≠ 0 := fun h => h8 (by rw [h])
    simp only [before2_pos m c t hz]
    by_cases h7 : t.val % 8 = 7
    · rw [stAt_C1 m c t h7, stAt_C2 m c t h7, PhiS_pos m c _ _ hz]
      iintro ⟨⟨HS, Hg⟩, Ho, ⟨%d0, H0⟩, ⟨%d1, H1⟩, ⟨%d2, H2⟩⟩
      have hc1 : ¬cond1 (grid0.coords t) := fun h => h8 ((hcond1 t).mp h)
      have hc2 : cond2 (grid0.coords t) := (hcond2 t).mpr h8
      have hc3 : ¬cond3 (grid0.coords t) := fun h => hz ((hcond3 t).mp h)
      have hc4 : cond4 (grid0.coords t) := (hcond4 t).mpr h7
      iapply ((kernelRun_C c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2).2.2 Set.univ _)
      isplitl [H0]; · iexact H0
      isplitl [H1]; · iexact H1
      isplitl [H2]; · iexact H2
      isplitl [HS]; · iexact HS
      iintro ⟨H0, H1, ⟨%e4, H4⟩, ⟨%e5, H5⟩⟩
      isplitl [H5 Hg]
      · isplitl [H5]
        · unfold owns; iexists _; isplitr
          swap; · iexact H5
          ipureintro; exact (View.read_writes_eq_canon _ _ _ (scover_C c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (rows_C c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)
        iexact Hg
      isplitl [Ho]; · iexact Ho
      isplitl [H0]; · iexact H0
      isplitl [H1]; · iexact H1
      unfold owns; iexists _; isplitr
      swap; · iexact H4
      ipureintro; exact (View.read_writes_eq_canon _ _ _ (cover_C c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (loss_C c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)
    · rw [stAt_B1 m c t h8 h7, stAt_B2 m c t h8 h7, PhiS_pos m c _ _ hz]
      iintro ⟨⟨HS, Hg⟩, Ho, ⟨%d0, H0⟩, ⟨%d1, H1⟩, ⟨%d2, H2⟩⟩
      have hc1 : ¬cond1 (grid0.coords t) := fun h => h8 ((hcond1 t).mp h)
      have hc2 : cond2 (grid0.coords t) := (hcond2 t).mpr h8
      have hc3 : ¬cond3 (grid0.coords t) := fun h => hz ((hcond3 t).mp h)
      have hc4 : ¬cond4 (grid0.coords t) := fun h => h7 ((hcond4 t).mp h)
      iapply ((kernelRun_B c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2).2.2 Set.univ _)
      isplitl [H0]; · iexact H0
      isplitl [H1]; · iexact H1
      isplitl [H2]; · iexact H2
      isplitl [HS]; · iexact HS
      iintro ⟨H0, H1, ⟨%e4, H4⟩, ⟨%e5, H5⟩⟩
      isplitl [H5 Hg]
      · isplitl [H5]
        · unfold owns; iexists _; isplitr
          swap; · iexact H5
          ipureintro; exact (View.read_writes_eq_canon _ _ _ (scover_B c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (rows_B c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)
        iexact Hg
      isplitl [Ho]; · iexact Ho
      isplitl [H0]; · iexact H0
      isplitl [H1]; · iexact H1
      unfold owns; iexists _; isplitr
      swap; · iexact H4
      ipureintro; exact (View.read_writes_eq_canon _ _ _ (cover_B c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (loss_B c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨HS0, Hg⟩
  isplitl [HS0]
  · iexists _; iexact HS0
  iexact Hg

/-! ## The run and the frame -/

set_option backward.isDefEq.respectTransparency.types false in
/-- From any memory with zero counters every weakly fair execution of the program terminates without a fault, with
    every array of the pipeline at what the proof data computes and every other buffer as the lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.FrameI.Conds.lean ====
/-
  The kernel body branches four times on the grid coordinates (b, j) of the point t = 8 b + j: on j = 0 (the running
  row minima restart), on j > 0 (they are lowered), on b = 0 ∧ j = 0 (the running loss restarts from zero) and on
  j = 7 (the cloud's row minima are added to the loss). Each condition in closed form over the 32 points, the
  memrefs the body is called with, and the invariant's scratch buffer named.
-/
import proofs.«114504_g48593259987365_cont_8to1c4_620_3_alg».proof.Proof.Gen.KernelIdeal.Launch
import proofs.«114504_g48593259987365_cont_8to1c4_620_3_alg».proof.Proof.Gen.KernelIdeal.Skeleton
import proofs.«114504_g48593259987365_cont_8to1c4_620_3_alg».proof.Proof.Gen.KernelIdeal.Points
import proofs.«114504_g48593259987365_cont_8to1c4_620_3_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- j = 0. -/
abbrev cond1 (i : grid0.Coords) : Prop := (Scalar.cmpi .ne (Scalar.extui (Scalar.cmpi .eq (BitVec.ofNat 32 (i 1).val) 0#32)) 0#32) = 1#1
/-- j > 0. -/
abbrev cond2 (i : grid0.Coords) : Prop := (Scalar.cmpi .ne (Scalar.extui (Scalar.cmpi .sgt (BitVec.ofNat 32 (i 1).val) 0#32)) 0#32) = 1#1
/-- b = 0 and j = 0. -/
abbrev cond3 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- j = 7. -/
abbrev cond4 (i : grid0.Coords) : Prop := (Scalar.cmpi .ne (Scalar.extui (Scalar.cmpi .eq (BitVec.ofNat 32 (i 1).val) 7#32)) 0#32) = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ ¬ t.val % 8 = 0 :=
  (by decide +kernel : ∀ t : Fin grid0.N, cond2 (grid0.coords t) ↔ ¬ t.val % 8 = 0)
theorem hcond3 : ∀ t : Fin cfg0.N, cond3 (grid0.coords t) ↔ t.val = 0 :=
  (by decide +kernel : ∀ t : Fin grid0.N, cond3 (grid0.coords t) ↔ t.val = 0)
theorem hcond4 : ∀ t : Fin cfg0.N, cond4 (grid0.coords t) ↔ t.val % 8 = 7 :=
  (by decide +kernel : ∀ t : Fin grid0.N, cond4 (grid0.coords t) ↔ t.val % 8 = 7)

/-- No window is idle at any point: the body stores into its output at every point. -/
theorem live0 : ∀ (w : Fin 3) (t : Fin cfg0.N), cfg0.idle w (grid0.coords t) = false := by decide +kernel

/-- Each window's current staging memref at point `t`, and its wholeness. -/
abbrev ms0 (t : Fin cfg0.N) : Memref sig .tc .vmem S1x4096x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The scratch operand: the running row minima. -/
abbrev scM : Memref sig .tc .vmem S4096x1 .f32 := Memref.whole cc0_scratch0
/-- Views through which the two carried buffers' contents are stated. -/
abbrev VO : View sig .tc .vmem S1x1 .f32 := (Memref.whole cc0_stg2_0 : Memref sig .tc .vmem S1x1 .f32).view
abbrev VS : View sig .tc .vmem S4096x1 .f32 := scM.view

/-- The region's invariant with the scratch operand as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.FrameI.RunA.lean ====
/-
  The kernel body run symbolically at the first point (b = 0, j = 0): both carried buffers restart. On whole memrefs — the two input blocks, the loss buffer and
  the row-minima scratch at given contents — it runs to the end, hands the inputs back unchanged, and leaves in the
  two carried buffers the stores it made, listed last first.
-/
import proofs.«114504_g48593259987365_cont_8to1c4_620_3_alg».proof.Proof.FrameI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun_A (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : cond3 i) (hc4 : ¬cond4 i)
    (x0 : Vec F S1x4096x8 .f32) (x1 : Vec F S1x8x512 .f32) (o : Vec F S1x1 .f32) (s : Vec F S4096x1 .f32) :
    Σ' (L4 : List (View.Piece (Elt F) S1x1 .f32)), { L5 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare o ∗ owns (c : Thread nD τ) arg5 fullShare s
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_body i arg2 harg2 arg3 harg3 arg4 harg4 arg5 harg5) K } := by
  refine ⟨?_, ?_, fun E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Body

end
-- ==== Proof.FrameI.RunB.lean ====
/-
  The kernel body run symbolically at a middle tile (0 < j < 7): the row minima are lowered, the loss grows by the tile's term. On whole memrefs — the two input blocks, the loss buffer and
  the row-minima scratch at given contents — it runs to the end, hands the inputs back unchanged, and leaves in the
  two carried buffers the stores it made, listed last first.
-/
import proofs.«114504_g48593259987365_cont_8to1c4_620_3_alg».proof.Proof.FrameI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun_B (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : ¬cond4 i)
    (x0 : Vec F S1x4096x8 .f32) (x1 : Vec F S1x8x512 .f32) (o : Vec F S1x1 .f32) (s : Vec F S4096x1 .f32) :
    Σ' (L4 : List (View.Piece (Elt F) S1x1 .f32)), { L5 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare o ∗ owns (c : Thread nD τ) arg5 fullShare s
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_body i arg2 harg2 arg3 harg3 arg4 harg4 arg5 harg5) K } := by
  refine ⟨?_, ?_, fun E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Body

end
-- ==== Proof.FrameI.RunC.lean ====
/-
  The kernel body run symbolically at a cloud's last tile (j = 7): as in a middle tile, and the rows' term is added. On whole memrefs — the two input blocks, the loss buffer and
  the row-minima scratch at given contents — it runs to the end, hands the inputs back unchanged, and leaves in the
  two carried buffers the stores it made, listed last first.
-/
import proofs.«114504_g48593259987365_cont_8to1c4_620_3_alg».proof.Proof.FrameI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun_C (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : cond4 i)
    (x0 : Vec F S1x4096x8 .f32) (x1 : Vec F S1x8x512 .f32) (o : Vec F S1x1 .f32) (s : Vec F S4096x1 .f32) :
    Σ' (L4 : List (View.Piece (Elt F) S1x1 .f32)), { L5 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare o ∗ owns (c : Thread nD τ) arg5 fullShare s
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_body i arg2 harg2 arg3 harg3 arg4 harg4 arg5 harg5) K } := by
  refine ⟨?_, ?_, fun E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Body

end
-- ==== Proof.FrameI.RunD.lean ====
/-
  The kernel body run symbolically at a later cloud's first tile (j = 0, b > 0): the row minima restart, the loss grows by the tile's term. On whole memrefs — the two input blocks, the loss buffer and
  the row-minima scratch at given contents — it runs to the end, hands the inputs back unchanged, and leaves in the
  two carried buffers the stores it made, listed last first.
-/
import proofs.«114504_g48593259987365_cont_8to1c4_620_3_alg».proof.Proof.FrameI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun_D (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : ¬cond3 i) (hc4 : ¬cond4 i)
    (x0 : Vec F S1x4096x8 .f32) (x1 : Vec F S1x8x512 .f32) (o : Vec F S1x1 .f32) (s : Vec F S4096x1 .f32) :
    Σ' (L4 : List (View.Piece (Elt F) S1x1 .f32)), { L5 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare o ∗ owns (c : Thread nD τ) arg5 fullShare s
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_body i arg2 harg2 arg3 harg3 arg4 harg4 arg5 harg5) K } := by
  refine ⟨?_, ?_, fun E K => ?run⟩
  case run =>
    simp only [cc0__chamfer_body_eq_skeleton]; unfold cc0__chamfer_body_skel
    simp only [k0_part1_eq_skeleton]
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Body

end
-- ==== Proof.FrameI.Outs.lean ====
/-
  What the four runs of the body leave in the two carried buffers. In every case the last store into a buffer is a
  store of the whole buffer, so the buffer ends at that store's value: the loss buffer at the loss so far plus the
  tile's term (from zero at the first point; plus the rows' term at a cloud's last tile), the scratch at the tile's
  row minima (a cloud's first tile) or at the minimum of those and what it held.
-/
import proofs.«114504_g48593259987365_cont_8to1c4_620_3_alg».proof.Proof.FrameI.RunD
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl

/-! ## the first point (b = 0, j = 0): both carried buffers restart -/

theorem cover_A (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : cond3 i) (hc4 : ¬cond4 i) (x0 : Vec F S1x4096x8 .f32) (x1 : Vec F S1x8x512 .f32) (o : Vec F S1x1 .f32) (s : Vec F S4096x1 .f32) (y : S1x1.Idx) :
    ∃ pc ∈ (kernelRun_A c i arg2 harg2 arg3 harg3 arg4 harg4 arg5 harg5 hc1 hc2 hc3 hc4 x0 x1 o s).1, y ∈ pc.1.set :=
  View.cover_of_tiledL (kernelRun_A c i arg2 harg2 arg3 harg3 arg4 harg4 arg5 harg5 hc1 hc2 hc3 hc4 x0 x1 o s).1 S1x1.size (by sl_kernel_rfl) y

theorem scover_A (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : cond3 i) (hc4 : ¬cond4 i) (x0 : Vec F S1x4096x8 .f32) (x1 : Vec F S1x8x512 .f32) (o : Vec F S1x1 .f32) (s : Vec F S4096x1 .f32) (y : S4096x1.Idx) :
    ∃ pc ∈ (kernelRun_A c i arg2 harg2 arg3 harg3 arg4 harg4 arg5 harg5 hc1 hc2 hc3 hc4 x0 x1 o s).2.1, y ∈ pc.1.set :=
  View.cover_of_tiledL (kernelRun_A c i arg2 harg2 arg3 harg3 arg4 harg4 arg5 harg5 hc1 hc2 hc3 hc4 x0 x1 o s).2.1 S4096x1.size (by sl_kernel_rfl) y

theorem loss_A (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : cond3 i) (hc4 : ¬cond4 i) (x0 : Vec F S1x4096x8 .f32) (x1 : Vec F S1x8x512 .f32) (o : Vec F S1x1 .f32) (s : Vec F S4096x1 .f32) :
    View.canon (kernelRun_A c i arg2 harg2 arg3 harg3 arg4 harg4 arg5 harg5 hc1 hc2 hc3 hc4 x0 x1 o s).1 = k0_pay1 (k0_pay8 x0 x1) (k0_pay7 (F := F)) := by
  unfold kernelRun_A; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

theorem rows_A (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : cond3 i) (hc4 : ¬cond4 i) (x0 : Vec F S1x4096x8 .f32) (x1 : Vec F S1x8x512 .f32) (o : Vec F S1x1 .f32) (s : Vec F S4096x1 .f32) :
    View.canon (kernelRun_A c i arg2 harg2 arg3 harg3 arg4 harg4 arg5 harg5 hc1 hc2 hc3 hc4 x0 x1 o s).2.1 = k0_pay5 x0 x1 := by
  unfold kernelRun_A; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

/-! ## a middle tile (0 < j < 7): the row minima are lowered, the loss grows by the tile's term -/

theorem cover_B (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : ¬cond4 i) (x0 : Vec F S1x4096x8 .f32) (x1 : Vec F S1x8x512 .f32) (o : Vec F S1x1 .f32) (s : Vec F S4096x1 .f32) (y : S1x1.Idx) :
    ∃ pc ∈ (kernelRun_B c i arg2 harg2 arg3 harg3 arg4 harg4 arg5 harg5 hc1 hc2 hc3 hc4 x0 x1 o s).1, y ∈ pc.1.set :=
  View.cover_of_tiledL (kernelRun_B c i arg2 harg2 arg3 harg3 arg4 harg4 arg5 harg5 hc1 hc2 hc3 hc4 x0 x1 o s).1 S1x1.size (by sl_kernel_rfl) y

theorem scover_B (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : ¬cond4 i) (x0 : Vec F S1x4096x8 .f32) (x1 : Vec F S1x8x512 .f32) (o : Vec F S1x1 .f32) (s : Vec F S4096x1 .f32) (y : S4096x1.Idx) :
    ∃ pc ∈ (kernelRun_B c i arg2 harg2 arg3 harg3 arg4 harg4 arg5 harg5 hc1 hc2 hc3 hc4 x0 x1 o s).2.1, y ∈ pc.1.set :=
  View.cover_of_tiledL (kernelRun_B c i arg2 harg2 arg3 harg3 arg4 harg4 arg5 harg5 hc1 hc2 hc3 hc4 x0 x1 o s).2.1 S4096x1.size (by sl_kernel_rfl) y

theorem loss_B (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : ¬cond4 i) (x0 : Vec F S1x4096x8 .f32) (x1 : Vec F S1x8x512 .f32) (o : Vec F S1x1 .f32) (s : Vec F S4096x1 .f32) :
    View.canon (kernelRun_B c i arg2 harg2 arg3 harg3 arg4 harg4 arg5 harg5 hc1 hc2 hc3 hc4 x0 x1 o s).1 = k0_pay1 (k0_pay8 x0 x1) o := by
  unfold kernelRun_B; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

theorem rows_B (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : ¬cond4 i) (x0 : Vec F S1x4096x8 .f32) (x1 : Vec F S1x8x512 .f32) (o : Vec F S1x1 .f32) (s : Vec F S4096x1 .f32) :
    View.canon (kernelRun_B c i arg2 harg2 arg3 harg3 arg4 harg4 arg5 harg5 hc1 hc2 hc3 hc4 x0 x1 o s).2.1 = k0_pay6 x0 x1 s := by
  unfold kernelRun_B; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

/-! ## a cloud's last tile (j = 7): as in a middle tile, and the rows' term is added -/

theorem cover_C (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : cond4 i) (x0 : Vec F S1x4096x8 .f32) (x1 : Vec F S1x8x512 .f32) (o : Vec F S1x1 .f32) (s : Vec F S4096x1 .f32) (y : S1x1.Idx) :
    ∃ pc ∈ (kernelRun_C c i arg2 harg2 arg3 harg3 arg4 harg4 arg5 harg5 hc1 hc2 hc3 hc4 x0 x1 o s).1, y ∈ pc.1.set :=
  View.cover_of_tiledL (kernelRun_C c i arg2 harg2 arg3 harg3 arg4 harg4 arg5 harg5 hc1 hc2 hc3 hc4 x0 x1 o s).1 S1x1.size (by sl_kernel_rfl) y

theorem scover_C (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : cond4 i) (x0 : Vec F S1x4096x8 .f32) (x1 : Vec F S1x8x512 .f32) (o : Vec F S1x1 .f32) (s : Vec F S4096x1 .f32) (y : S4096x1.Idx) :
    ∃ pc ∈ (kernelRun_C c i arg2 harg2 arg3 harg3 arg4 harg4 arg5 harg5 hc1 hc2 hc3 hc4 x0 x1 o s).2.1, y ∈ pc.1.set :=
  View.cover_of_tiledL (kernelRun_C c i arg2 harg2 arg3 harg3 arg4 harg4 arg5 harg5 hc1 hc2 hc3 hc4 x0 x1 o s).2.1 S4096x1.size (by sl_kernel_rfl) y

theorem loss_C (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : cond4 i) (x0 : Vec F S1x4096x8 .f32) (x1 : Vec F S1x8x512 .f32) (o : Vec F S1x1 .f32) (s : Vec F S4096x1 .f32) :
    View.canon (kernelRun_C c i arg2 harg2 arg3 harg3 arg4 harg4 arg5 harg5 hc1 hc2 hc3 hc4 x0 x1 o s).1 = k0_pay2 (k0_pay1 (k0_pay8 x0 x1) o) (k0_pay6 x0 x1 s) := by
  unfold kernelRun_C; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

theorem rows_C (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : ¬cond1 i) (hc2 : cond2 i) (hc3 : ¬cond3 i) (hc4 : cond4 i) (x0 : Vec F S1x4096x8 .f32) (x1 : Vec F S1x8x512 .f32) (o : Vec F S1x1 .f32) (s : Vec F S4096x1 .f32) :
    View.canon (kernelRun_C c i arg2 harg2 arg3 harg3 arg4 harg4 arg5 harg5 hc1 hc2 hc3 hc4 x0 x1 o s).2.1 = k0_pay6 x0 x1 s := by
  unfold kernelRun_C; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

/-! ## a later cloud's first tile (j = 0, b > 0): the row minima restart, the loss grows by the tile's term -/

theorem cover_D (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : ¬cond3 i) (hc4 : ¬cond4 i) (x0 : Vec F S1x4096x8 .f32) (x1 : Vec F S1x8x512 .f32) (o : Vec F S1x1 .f32) (s : Vec F S4096x1 .f32) (y : S1x1.Idx) :
    ∃ pc ∈ (kernelRun_D c i arg2 harg2 arg3 harg3 arg4 harg4 arg5 harg5 hc1 hc2 hc3 hc4 x0 x1 o s).1, y ∈ pc.1.set :=
  View.cover_of_tiledL (kernelRun_D c i arg2 harg2 arg3 harg3 arg4 harg4 arg5 harg5 hc1 hc2 hc3 hc4 x0 x1 o s).1 S1x1.size (by sl_kernel_rfl) y

theorem scover_D (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : ¬cond3 i) (hc4 : ¬cond4 i) (x0 : Vec F S1x4096x8 .f32) (x1 : Vec F S1x8x512 .f32) (o : Vec F S1x1 .f32) (s : Vec F S4096x1 .f32) (y : S4096x1.Idx) :
    ∃ pc ∈ (kernelRun_D c i arg2 harg2 arg3 harg3 arg4 harg4 arg5 harg5 hc1 hc2 hc3 hc4 x0 x1 o s).2.1, y ∈ pc.1.set :=
  View.cover_of_tiledL (kernelRun_D c i arg2 harg2 arg3 harg3 arg4 harg4 arg5 harg5 hc1 hc2 hc3 hc4 x0 x1 o s).2.1 S4096x1.size (by sl_kernel_rfl) y

theorem loss_D (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : ¬cond3 i) (hc4 : ¬cond4 i) (x0 : Vec F S1x4096x8 .f32) (x1 : Vec F S1x8x512 .f32) (o : Vec F S1x1 .f32) (s : Vec F S4096x1 .f32) :
    View.canon (kernelRun_D c i arg2 harg2 arg3 harg3 arg4 harg4 arg5 harg5 hc1 hc2 hc3 hc4 x0 x1 o s).1 = k0_pay1 (k0_pay8 x0 x1) o := by
  unfold kernelRun_D; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

theorem rows_D (c : Dev nD) (i : grid0.Coords) (arg2 : Memref sig .tc .vmem S1x4096x8 .f32) (harg2 : arg2.IsWhole) (arg3 : Memref sig .tc .vmem S1x8x512 .f32) (harg3 : arg3.IsWhole) (arg4 : Memref sig .tc .vmem S1x1 .f32) (harg4 : arg4.IsWhole) (arg5 : Memref sig .tc .vmem S4096x1 .f32) (harg5 : arg5.IsWhole) (hc1 : cond1 i) (hc2 : ¬cond2 i) (hc3 : ¬cond3 i) (hc4 : ¬cond4 i) (x0 : Vec F S1x4096x8 .f32) (x1 : Vec F S1x8x512 .f32) (o : Vec F S1x1 .f32) (s : Vec F S4096x1 .f32) :
    View.canon (kernelRun_D c i arg2 harg2 arg3 harg3 arg4 harg4 arg5 harg5 hc1 hc2 hc3 hc4 x0 x1 o s).2.1 = k0_pay5 x0 x1 := by
  unfold kernelRun_D; dsimp only; sl_unfold_words
  rw [View.canon_cons_unit_zero hz2]
  simp only [View.readAt_eq_ld, harg2.read_unread, harg3.read_unread, harg4.read_unread, harg5.read_unread, View.ld_unit_zero (S := S1x4096x8) hz3, View.ld_unit_zero (S := S1x8x512) hz3, View.ld_unit_zero (S := S1x1) hz2, View.ld_unit_zero (S := S4096x1) hz2, View.readCov_unit_zero (S := S1x1) _ hz2, View.readCov_unit_zero (S := S4096x1) _ hz2]

end Cert.KernelIdeal.Body

end
-- ==== Proof.FrameI.Frame.lean ====
/-
  The frame of the program around its one kernel launch. The kernel carries two buffers from grid point to grid
  point: the loss buffer (its one output block, written back after the last point only) and the row-minima scratch.
  What both hold after each point is defined by recursion on the point, case by case as the body branches; with
  that as the proof data every point's body obligation is the matching run, and the library's launch theorem gives
  the run of the whole program: it ends, faults nowhere, and leaves every array it did not write as it found it.
-/
import proofs.«114504_g48593259987365_cont_8to1c4_620_3_alg».proof.Proof.FrameI.Outs
import Idealize.ShloMosaic.Lib.Pipeline.FrameBody
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two carried buffers, point by point -/

/-- The loss buffer and the row-minima scratch after the body at point `n`: at the first point both restart; at a
    cloud's first tile the scratch restarts; at a cloud's last tile the rows' term is added after the tile's. -/
def stAt (c : Dev nD) : (n : ℕ) → n < cfg0.N → Vec F S1x1 .f32 × Vec F S4096x1 .f32
  | 0, hn => (k0_pay1 (k0_pay8 (iblk m c 0 ⟨0, hn⟩) (iblk m c 1 ⟨0, hn⟩)) (k0_pay7 (F := F)), k0_pay5 (iblk m c 0 ⟨0, hn⟩) (iblk m c 1 ⟨0, hn⟩))
  | n + 1, hn =>
    let p := stAt c n (Nat.lt_of_succ_lt hn)
    let s' : Vec F S4096x1 .f32 :=
      if (n + 1) % 8 = 0 then k0_pay5 (iblk m c 0 ⟨n + 1, hn⟩) (iblk m c 1 ⟨n + 1, hn⟩)
      else k0_pay6 (iblk m c 0 ⟨n + 1, hn⟩) (iblk m c 1 ⟨n + 1, hn⟩) p.2
    let o1 : Vec F S1x1 .f32 := k0_pay1 (k0_pay8 (iblk m c 0 ⟨n + 1, hn⟩) (iblk m c 1 ⟨n + 1, hn⟩)) p.1
    (if (n + 1) % 8 = 7 then k0_pay2 o1 s' else o1, s')

/-- The point before `t`. -/
abbrev prev (t : Fin cfg0.N) : t.val - 1 < cfg0.N := Nat.lt_of_le_of_lt (Nat.sub_le _ _) t.isLt

theorem stAt_A (c : Dev nD) (t : Fin cfg0.N) (hz : t.val = 0) :
    stAt m c t.val t.isLt = (k0_pay1 (k0_pay8 (iblk m c 0 t) (iblk m c 1 t)) (k0_pay7 (F := F)), k0_pay5 (iblk m c 0 t) (iblk m c 1 t)) := by
  obtain ⟨n, hn⟩ := t
  cases n with
  | zero => rfl
  | succ n => exact absurd hz (Nat.succ_ne_zero n)

theorem stAt_D (c : Dev nD) (t : Fin cfg0.N) (hz : ¬t.val = 0) (h8 : t.val % 8 = 0) :
    stAt m c t.val t.isLt = (k0_pay1 (k0_pay8 (iblk m c 0 t) (iblk m c 1 t)) (stAt m c (t.val - 1) (prev t)).1, k0_pay5 (iblk m c 0 t) (iblk m c 1 t)) := by
  obtain ⟨n, hn⟩ := t
  cases n with
  | zero => exact absurd rfl hz
  | succ n =>
    have h7 : ¬(n + 1) % 8 = 7 := by dsimp only at h8; omega
    show (if (n + 1) % 8 = 7 then _ else _, if (n + 1) % 8 = 0 then _ else _) = _
    rw [if_neg h7, if_pos h8]; rfl

theorem stAt_B (c : Dev nD) (t : Fin cfg0.N) (h8 : ¬t.val % 8 = 0) (h7 : ¬t.val % 8 = 7) :
    stAt m c t.val t.isLt = (k0_pay1 (k0_pay8 (iblk m c 0 t) (iblk m c 1 t)) (stAt m c (t.val - 1) (prev t)).1, k0_pay6 (iblk m c 0 t) (iblk m c 1 t) (stAt m c (t.val - 1) (prev t)).2) := by
  obtain ⟨n, hn⟩ := t
  cases n with
  | zero => exact absurd (Nat.zero_mod _) h8
  | succ n =>
    show (if (n + 1) % 8 = 7 then _ else _, if (n + 1) % 8 = 0 then _ else _) = _
    rw [if_neg h7, if_neg h8]; rfl

theorem stAt_C (c : Dev nD) (t : Fin cfg0.N) (h7 : t.val % 8 = 7) :
    stAt m c t.val t.isLt = (k0_pay2 (k0_pay1 (k0_pay8 (iblk m c 0 t) (iblk m c 1 t)) (stAt m c (t.val - 1) (prev t)).1) (k0_pay6 (iblk m c 0 t) (iblk m c 1 t) (stAt m c (t.val - 1) (prev t)).2), k0_pay6 (iblk m c 0 t) (iblk m c 1 t) (stAt m c (t.val - 1) (prev t)).2) := by
  obtain ⟨n, hn⟩ := t
  cases n with
  | zero => exact absurd h7 (by show ¬(0 % 8 = 7); omega)
  | succ n =>
    have h8 : ¬(n + 1) % 8 = 0 := by dsimp only at h7; omega
    show (if (n + 1) % 8 = 7 then _ else _, if (n + 1) % 8 = 0 then _ else _) = _
    rw [if_pos h7, if_neg h8]; rfl

theorem fst_pair {α β : Type} (a : α) (b : β) : (a, b).1 = a := rfl
theorem snd_pair {α β : Type} (a : α) (b : β) : (a, b).2 = b := rfl

theorem stAt_A1 (c : Dev nD) (t : Fin cfg0.N) (hz : t.val = 0) :
    (stAt m c t.val t.isLt).1 = k0_pay1 (k0_pay8 (iblk m c 0 t) (iblk m c 1 t)) (k0_pay7 (F := F)) :=
  (congrArg Prod.fst (stAt_A m c t hz)).trans (fst_pair _ _)
theorem stAt_A2 (c : Dev nD) (t : Fin cfg0.N) (hz : t.val = 0) :
    (stAt m c t.val t.isLt).2 = k0_pay5 (iblk m c 0 t) (iblk m c 1 t) :=
  (congrArg Prod.snd (stAt_A m c t hz)).trans (snd_pair _ _)
theorem stAt_D1 (c : Dev nD) (t : Fin cfg0.N) (hz : ¬t.val = 0) (h8 : t.val % 8 = 0) :
    (stAt m c t.val t.isLt).1 = k0_pay1 (k0_pay8 (iblk m c 0 t) (iblk m c 1 t)) (stAt m c (t.val - 1) (prev t)).1 :=
  (congrArg Prod.fst (stAt_D m c t hz h8)).trans (fst_pair _ _)
theorem stAt_D2 (c : Dev nD) (t : Fin cfg0.N) (hz : ¬t.val = 0) (h8 : t.val % 8 = 0) :
    (stAt m c t.val t.isLt).2 = k0_pay5 (iblk m c 0 t) (iblk m c 1 t) :=
  (congrArg Prod.snd (stAt_D m c t hz h8)).trans (snd_pair _ _)
theorem stAt_B1 (c : Dev nD) (t : Fin cfg0.N) (h8 : ¬t.val % 8 = 0) (h7 : ¬t.val % 8 = 7) :
    (stAt m c t.val t.isLt).1 = k0_pay1 (k0_pay8 (iblk m c 0 t) (iblk m c 1 t)) (stAt m c (t.val - 1) (prev t)).1 :=
  (congrArg Prod.fst (stAt_B m c t h8 h7)).trans (fst_pair _ _)
theorem stAt_B2 (c : Dev nD) (t : Fin cfg0.N) (h8 : ¬t.val % 8 = 0) (h7 : ¬t.val % 8 = 7) :
    (stAt m c t.val t.isLt).2 = k0_pay6 (iblk m c 0 t) (iblk m c 1 t) (stAt m c (t.val - 1) (prev t)).2 :=
  (congrArg Prod.snd (stAt_B m c t h8 h7)).trans (snd_pair _ _)
theorem stAt_C1 (c : Dev nD) (t : Fin cfg0.N) (h7 : t.val % 8 = 7) :
    (stAt m c t.val t.isLt).1 = k0_pay2 (k0_pay1 (k0_pay8 (iblk m c 0 t) (iblk m c 1 t)) (stAt m c (t.val - 1) (prev t)).1) (k0_pay6 (iblk m c 0 t) (iblk m c 1 t) (stAt m c (t.val - 1) (prev t)).2) :=
  (congrArg Prod.fst (stAt_C m c t h7)).trans (fst_pair _ _)
theorem stAt_C2 (c : Dev nD) (t : Fin cfg0.N) (h7 : t.val % 8 = 7) :
    (stAt m c t.val t.isLt).2 = k0_pay6 (iblk m c 0 t) (iblk m c 1 t) (stAt m c (t.val - 1) (prev t)).2 :=
  (congrArg Prod.snd (stAt_C m c t h7)).trans (snd_pair _ _)

/-! ## The invariant and the proof data -/

/-- Before the first point the scratch holds anything; before any later point, what the point before left. -/
def PhiS (c : Dev nD) : (n : ℕ) → n ≤ cfg0.N → sProp 𝕄
  | 0, _ => Pipeline.ΦA spec0 c
  | n + 1, hn => iprop(iprop(owns (c : Thread nD τ) scM fullShare ((stAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((stAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((stAt m c (n - 1) (by omega)).2)) ∗ (∃ r, prngReg c r)) := by
  cases n with
  | zero => exact absurd rfl hz
  | succ n => rfl

/-- The proof data: the arrays as the region finds them; each input's buffer left at its block; the output's at the
    loss so far; the invariant the scratch at the row minima so far; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (stAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The output's buffer is fresh at the first point, -/
theorem before2_zero (c : Dev nD) (t : Fin cfg0.N) (hz : t.val = 0) (d) : (dats m 0 c).before 2 t d = d :=
  (dats m 0 c).before_out_reset 2 rfl t (.inl hz) d

/-- and at every later point holds what the point before left: it is written back after the last point only. -/
theorem before2_pos (c : Dev nD) (t : Fin cfg0.N) (hz : t.val ≠ 0) (d) :
    (dats m 0 c).before 2 t d = (stAt m c (t.val - 1) (prev t)).1 := by
  have hN : t.val < 32 := lt_of_lt_of_eq t.isLt (show cfg0.N = 32 from N_0)
  have hfl : (cfg0.win 2).flush ⟨t.val - 1, prev t⟩ = false := by
    cases h : (cfg0.win 2).flush ⟨t.val - 1, prev t⟩ with
    | false => rfl
    | true => exfalso; have := (flush0_2 ⟨t.val - 1, prev t⟩).mp h; dsimp only at this; omega
  rw [(dats m 0 c).before_out_kept 2 rfl t hz hfl (fun _ => rfl) (fun _ _ => rfl) d]
  exact after0_2 m c ⟨t.val - 1, prev t⟩

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 4800000 in
/-- The body at any point: the inputs' buffers hold their blocks, the output's and the scratch what the point before
    left (anything at the first point); the point's coordinates select the run; what the run leaves is this point's
    entry of the recursion. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, PhiS_castSucc m c t]
  have hN : t.val < 32 := lt_of_lt_of_eq t.isLt (show cfg0.N = 32 from N_0)
  by_cases h8 : t.val % 8 = 0
  · by_cases hz : t.val = 0
    · simp only [before2_zero m c t hz]
      rw [stAt_A1 m c t hz, stAt_A2 m c t hz, PhiS_zero m c _ _ hz, PhiA0_eq]
      iintro ⟨⟨⟨%ds, HS⟩, Hg⟩, Ho, ⟨%d0, H0⟩, ⟨%d1, H1⟩, ⟨%d2, H2⟩⟩
      have hc1 : cond1 (grid0.coords t) := (hcond1 t).mpr h8
      have hc2 : ¬cond2 (grid0.coords t) := fun h => (hcond2 t).mp h h8
      have hc3 : cond3 (grid0.coords t) := (hcond3 t).mpr hz
      have hc4 : ¬cond4 (grid0.coords t) := fun h => by have := (hcond4 t).mp h; omega
      iapply ((kernelRun_A c (grid0.coords t) (ms0 t) (hs0 t) (ms1 t) (hs1 t) (ms2 t) (hs2 t) scM (Memref.isWhole_whole _) hc1 hc2 hc3 hc4 (iblk m c 0 t) (iblk m c 1 t) d2 ds).2.2 Set.univ _)
      isplitl [H0]; · iexact H0
      isplitl [H1]; · iexact H1
      isplitl [H2]; · iexact H2
      isplitl [HS]; · iexact HS
      iintro ⟨H0, H1, ⟨%e4, H4⟩, ⟨%e5, H5⟩⟩
      isplitl [H5 Hg]
      · isplitl [H5]
        · unfold owns; iexists _; isplitr
          swap; · iexact H5
          ipureintro; exact (View.read_writes_eq_canon _ _ _ (scover_A c (grid0.coords t) (ms0 t) (hs0 t) (ms1 t) (hs1 t) (ms2 t) (hs2 t) scM (Memref.isWhole_whole _) hc1 hc2 hc3 hc4 (iblk m c 0 t) (iblk m c 1 t) d2 ds)).trans (rows_A c (grid0.coords t) (ms0 t) (hs0 t) (ms1 t) (hs1 t) (ms2 t) (hs2 t) scM (Memref.isWhole_whole _) hc1 hc2 hc3 hc4 (iblk m c 0 t) (iblk m c 1 t) d2 ds)
        iexact Hg
      isplitl [Ho]; · iexact Ho
      isplitl [H0]; · iexact H0
      isplitl [H1]; · iexact H1
      unfold owns; iexists _; isplitr
      swap; · iexact H4
      ipureintro; exact (View.read_writes_eq_canon _ _ _ (cover_A c (grid0.coords t) (ms0 t) (hs0 t) (ms1 t) (hs1 t) (ms2 t) (hs2 t) scM (Memref.isWhole_whole _) hc1 hc2 hc3 hc4 (iblk m c 0 t) (iblk m c 1 t) d2 ds)).trans (loss_A c (grid0.coords t) (ms0 t) (hs0 t) (ms1 t) (hs1 t) (ms2 t) (hs2 t) scM (Memref.isWhole_whole _) hc1 hc2 hc3 hc4 (iblk m c 0 t) (iblk m c 1 t) d2 ds)
    · simp only [before2_pos m c t hz]
      rw [stAt_D1 m c t hz h8, stAt_D2 m c t hz h8, PhiS_pos m c _ _ hz]
      iintro ⟨⟨HS, Hg⟩, Ho, ⟨%d0, H0⟩, ⟨%d1, H1⟩, ⟨%d2, H2⟩⟩
      have hc1 : cond1 (grid0.coords t) := (hcond1 t).mpr h8
      have hc2 : ¬cond2 (grid0.coords t) := fun h => (hcond2 t).mp h h8
      have hc3 : ¬cond3 (grid0.coords t) := fun h => hz ((hcond3 t).mp h)
      have hc4 : ¬cond4 (grid0.coords t) := fun h => by have := (hcond4 t).mp h; omega
      iapply ((kernelRun_D c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2).2.2 Set.univ _)
      isplitl [H0]; · iexact H0
      isplitl [H1]; · iexact H1
      isplitl [H2]; · iexact H2
      isplitl [HS]; · iexact HS
      iintro ⟨H0, H1, ⟨%e4, H4⟩, ⟨%e5, H5⟩⟩
      isplitl [H5 Hg]
      · isplitl [H5]
        · unfold owns; iexists _; isplitr
          swap; · iexact H5
          ipureintro; exact (View.read_writes_eq_canon _ _ _ (scover_D c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (rows_D c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)
        iexact Hg
      isplitl [Ho]; · iexact Ho
      isplitl [H0]; · iexact H0
      isplitl [H1]; · iexact H1
      unfold owns; iexists _; isplitr
      swap; · iexact H4
      ipureintro; exact (View.read_writes_eq_canon _ _ _ (cover_D c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (loss_D c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)
  · have hz : t.val ≠ 0 := fun h => h8 (by rw [h])
    simp only [before2_pos m c t hz]
    by_cases h7 : t.val % 8 = 7
    · rw [stAt_C1 m c t h7, stAt_C2 m c t h7, PhiS_pos m c _ _ hz]
      iintro ⟨⟨HS, Hg⟩, Ho, ⟨%d0, H0⟩, ⟨%d1, H1⟩, ⟨%d2, H2⟩⟩
      have hc1 : ¬cond1 (grid0.coords t) := fun h => h8 ((hcond1 t).mp h)
      have hc2 : cond2 (grid0.coords t) := (hcond2 t).mpr h8
      have hc3 : ¬cond3 (grid0.coords t) := fun h => hz ((hcond3 t).mp h)
      have hc4 : cond4 (grid0.coords t) := (hcond4 t).mpr h7
      iapply ((kernelRun_C c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2).2.2 Set.univ _)
      isplitl [H0]; · iexact H0
      isplitl [H1]; · iexact H1
      isplitl [H2]; · iexact H2
      isplitl [HS]; · iexact HS
      iintro ⟨H0, H1, ⟨%e4, H4⟩, ⟨%e5, H5⟩⟩
      isplitl [H5 Hg]
      · isplitl [H5]
        · unfold owns; iexists _; isplitr
          swap; · iexact H5
          ipureintro; exact (View.read_writes_eq_canon _ _ _ (scover_C c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (rows_C c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)
        iexact Hg
      isplitl [Ho]; · iexact Ho
      isplitl [H0]; · iexact H0
      isplitl [H1]; · iexact H1
      unfold owns; iexists _; isplitr
      swap; · iexact H4
      ipureintro; exact (View.read_writes_eq_canon _ _ _ (cover_C c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (loss_C c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)
    · rw [stAt_B1 m c t h8 h7, stAt_B2 m c t h8 h7, PhiS_pos m c _ _ hz]
      iintro ⟨⟨HS, Hg⟩, Ho, ⟨%d0, H0⟩, ⟨%d1, H1⟩, ⟨%d2, H2⟩⟩
      have hc1 : ¬cond1 (grid0.coords t) := fun h => h8 ((hcond1 t).mp h)
      have hc2 : cond2 (grid0.coords t) := (hcond2 t).mpr h8
      have hc3 : ¬cond3 (grid0.coords t) := fun h => hz ((hcond3 t).mp h)
      have hc4 : ¬cond4 (grid0.coords t) := fun h => h7 ((hcond4 t).mp h)
      iapply ((kernelRun_B c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2).2.2 Set.univ _)
      isplitl [H0]; · iexact H0
      isplitl [H1]; · iexact H1
      isplitl [H2]; · iexact H2
      isplitl [HS]; · iexact HS
      iintro ⟨H0, H1, ⟨%e4, H4⟩, ⟨%e5, H5⟩⟩
      isplitl [H5 Hg]
      · isplitl [H5]
        · unfold owns; iexists _; isplitr
          swap; · iexact H5
          ipureintro; exact (View.read_writes_eq_canon _ _ _ (scover_B c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (rows_B c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)
        iexact Hg
      isplitl [Ho]; · iexact Ho
      isplitl [H0]; · iexact H0
      isplitl [H1]; · iexact H1
      unfold owns; iexists _; isplitr
      swap; · iexact H4
      ipureintro; exact (View.read_writes_eq_canon _ _ _ (cover_B c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)).trans (loss_B c (grid0.coords t) (ms0 t) (hs0 t) (ms1 t) (hs1 t) (ms2 t) (hs2 t) scM (Memref.isWhole_whole _) hc1 hc2 hc3 hc4 (iblk m c 0 t) (iblk m c 1 t) (stAt m c (t.val - 1) (prev t)).1 (stAt m c (t.val - 1) (prev t)).2)

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨HS0, Hg⟩
  isplitl [HS0]
  · iexists _; iexact HS0
  iexact Hg

/-! ## The run and the frame -/

set_option backward.isDefEq.respectTransparency.types false in
/-- From any memory with zero counters every weakly fair execution of the program terminates without a fault, with
    every array of the pipeline at what the proof data computes and every other buffer as the lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The chamfer loss between two batches of point clouds, written twice: as the reference computes it (all squared
  distances, clamped at zero, the nearest neighbour in each direction, two means) and as the kernel accumulates it
  (tile by tile over 4 × 8 grid points, a running row minimum, a running sum scaled by 2^-14).
-/
import Idealize.ShloMosaic.PureOps.Ideal
import Idealize.ShloMosaic.Lib.ValueIdx

noncomputable section

namespace Cert.Chamfer

open Idealize.ShloMosaic Idealize.ShloMosaic.ValueIdx

/-- Four clouds of 4096 points with three coordinates each. -/
abbrev Cloud : Shape := ⟨3, ![4, 4096, 3]⟩
/-- Their coordinates as extended reals. -/
abbrev Pts : Type := Cloud.Idx → EReal

/-- The float words the two programs spell: 2, 2^-14, 4096, 4. -/
abbrev two : EReal := Ideal.ofBits .f32 0x40000000#32
abbrev scale : EReal := Ideal.ofBits .f32 0x38800000#32
abbrev n4096 : EReal := Ideal.ofBits .f32 0x45800000#32
abbrev n4 : EReal := Ideal.ofBits .f32 0x40800000#32

/-- The squared distance between point `n` of `x` and point `k` of `y` in cloud `b`, by the quadratic expansion
    |x_n|² + |y_k|² − 2 x_n·y_k. -/
def sqd (x y : Pts) (b : Fin 4) (n k : Fin 4096) : EReal :=
  ((∑ d : Fin 3, x (ix3 b n d) * x (ix3 b n d)) + (∑ d : Fin 3, y (ix3 b k d) * y (ix3 b k d)))
    - two * (∑ d : Fin 3, x (ix3 b n d) * y (ix3 b k d))

/-! ## As the reference computes it -/

/-- Point `n` of `x`: the clamped squared distance to its nearest point of `y`. -/
def nearX (x y : Pts) (b : Fin 4) (n : Fin 4096) : EReal := Finset.univ.inf fun k : Fin 4096 => max (sqd x y b n k) 0
/-- Point `k` of `y`: the clamped squared distance to its nearest point of `x`. -/
def nearY (x y : Pts) (b : Fin 4) (k : Fin 4096) : EReal := Finset.univ.inf fun n : Fin 4096 => max (sqd x y b n k) 0

/-- The loss: the mean over clouds of the mean over points, in both directions. -/
def loss (x y : Pts) : EReal :=
  Ideal.div (∑ b : Fin 4, Ideal.div (∑ n : Fin 4096, nearX x y b n) n4096) n4
    + Ideal.div (∑ b : Fin 4, Ideal.div (∑ k : Fin 4096, nearY x y b k) n4096) n4

/-! ## As the kernel accumulates it -/

/-- Column `q` of tile `j`: point 512 j + q of `y`. -/
def col (j : Fin 8) (q : Fin 512) : Fin 4096 := ⟨512 * j.val + q.val, by omega⟩

/-- Row `n`'s minimum over the columns of tile `j` (unclamped). -/
def tileRowMin (x y : Pts) (b : Fin 4) (j : Fin 8) (n : Fin 4096) : EReal :=
  Finset.univ.inf fun q : Fin 512 => sqd x y b n (col j q)
/-- Column `k`'s minimum over all rows (unclamped). -/
def colMin (x y : Pts) (b : Fin 4) (k : Fin 4096) : EReal := Finset.univ.inf fun n : Fin 4096 => sqd x y b n k
/-- What tile `(b, j)` adds for the direction y → x: its columns' clamped minima, summed and scaled. -/
def tileTerm (x y : Pts) (b : Fin 4) (j : Fin 8) : EReal := (∑ q : Fin 512, max (colMin x y b (col j q)) 0) * scale

/-- The cloud and the tile of grid point `t` = 8 b + j. -/
def bOf (t : ℕ) (ht : t < 32) : Fin 4 := ⟨t / 8, by omega⟩
def jOf (t : ℕ) : Fin 8 := ⟨t % 8, Nat.mod_lt _ (by norm_num)⟩

/-- The kernel's two carried values after grid point `t`: the running loss and the running row minima. A cloud's first
    tile restarts the row minima, the later ones lower them; every tile adds its term, and a cloud's last tile also adds
    the rows' clamped minima, summed and scaled. -/
def kstate (x y : Pts) : (t : ℕ) → t < 32 → EReal × (Fin 4096 → EReal)
  | 0, _ => (0 + tileTerm x y 0 0, tileRowMin x y 0 0)
  | t + 1, h =>
    let prev := kstate x y t (Nat.lt_of_succ_lt h)
    let r : Fin 4096 → EReal :=
      if (t + 1) % 8 = 0 then tileRowMin x y (bOf (t + 1) h) (jOf (t + 1))
      else fun n => min (prev.2 n) (tileRowMin x y (bOf (t + 1) h) (jOf (t + 1)) n)
    let a := prev.1 + tileTerm x y (bOf (t + 1) h) (jOf (t + 1))
    (if (t + 1) % 8 = 7 then a + (∑ n : Fin 4096, max (r n) 0) * scale else a, r)

/-- What the kernel returns. -/
def kernelLoss (x y : Pts) : EReal := (kstate x y 31 (by norm_num)).1

end Cert.Chamfer

end
-- ==== Proof.Blocks.lean ====
/-
  What the kernel region's two input windows hold at a grid point, in terms of the two argument clouds. Before the
  region each cloud [4, 4096, 3] is padded with five zero lanes to [4, 4096, 8], and the second padded cloud has its last
  two axes swapped to [4, 8, 4096]. At grid point t = 8 b + j the first window's block is cloud b of the first padded
  array, whole ([1, 4096, 8]); the second window's block is columns 512 j … 512 j + 511 of cloud b of the swapped array
  ([1, 8, 512]). So the first block reads x(b, n, d) for d < 3 and zero for d ≥ 3, and the second reads
  y(b, 512 j + q, d) for d < 3 and zero for d ≥ 3.
-/
import proofs.«114504_g48593259987365_cont_8to1c4_620_3_alg».proof.Proof.Gen.KernelIdeal.Frame
import proofs.«114504_g48593259987365_cont_8to1c4_620_3_alg».proof.Proof.Spec
import Idealize.ShloMosaic.Lib.Pipeline.Value
import Idealize.ShloMosaic.Lib.ValueLayout
import Idealize.ShloMosaic.Lib.IdealHost
import Idealize.ShloMosaic.Lib.StableHlo.Run

noncomputable section

namespace Cert.Blocks

open Cert.KernelIdeal Cert.KernelIdeal.Gen Idealize.ShloMosaic Idealize.ShloMosaic.TcCoe Idealize.SL.Sem
open Idealize.ShloMosaic.ValueIdx

/-! ## A cloud padded with five zero lanes, and the padded cloud transposed, read at an index -/

/-- The padded cloud at (b, n, d): coordinate d of point n of cloud b for d < 3, zero on the five lanes after. -/
theorem pad_apply (x : S4x4096x3.Idx → EReal) (hc : Shape.Concatenates [S4x4096x3, S4x4096x5] S4x4096x8 2)
    (hb : S_.BroadcastsInDim S4x4096x5 (![] : Fin 0 → Fin S4x4096x5.rank)) (b : Fin 4) (n : Fin 4096) (d : Fin 8) :
    concatenate S4x4096x8 2 [⟨S4x4096x3, x⟩, ⟨S4x4096x5, broadcastInDim S4x4096x5 ![] hb (constant (F := Ideal) S_ .f32 0x00000000#32)⟩] hc (ix3 b n d)
      = if h : d.val < 3 then x (ix3 b n ⟨d.val, h⟩) else 0 := by
  by_cases hd : d.val < 3
  · rw [dif_pos hd]
    exact concatenate_pair_apply_left 2 _ _ hc _ rfl (ix3 b n ⟨d.val, hd⟩)
      (fun a => match a with | ⟨0, _⟩ => rfl | ⟨1, _⟩ => rfl | ⟨2, _⟩ => rfl)
  · rw [dif_neg hd]
    refine (concatenate_pair_apply_right 2 _ _ hc _ rfl rfl (ix3 b n ⟨d.val - 3, by omega⟩) ?_ ?_).trans ?_
    · intro a ha
      match a with
      | ⟨0, _⟩ => rfl
      | ⟨1, _⟩ => rfl
      | ⟨2, _⟩ => exact absurd rfl ha
    · show d.val - 3 + 3 = d.val
      omega
    · rw [broadcastInDim_scalar_apply]
      exact Ideal.ofBits_zero_f32

/-- The padded cloud with its last two axes swapped, at (b, d, k). -/
theorem padT_apply (y : S4x4096x3.Idx → EReal) (hc : Shape.Concatenates [S4x4096x3, S4x4096x5] S4x4096x8 2)
    (hb : S_.BroadcastsInDim S4x4096x5 (![] : Fin 0 → Fin S4x4096x5.rank)) (ht : S4x4096x8.Transposes [0, 2, 1] S4x8x4096)
    (b : Fin 4) (d : Fin 8) (k : Fin 4096) :
    transpose S4x8x4096 [0, 2, 1]
        (concatenate S4x4096x8 2 [⟨S4x4096x3, y⟩, ⟨S4x4096x5, broadcastInDim S4x4096x5 ![] hb (constant (F := Ideal) S_ .f32 0x00000000#32)⟩] hc) ht
        (ix3 b d k)
      = if h : d.val < 3 then y (ix3 b k ⟨d.val, h⟩) else 0 := by
  rw [transpose_ix3_021_apply]
  exact pad_apply y hc hb b k d

/-! ## The two staged arrays as the region finds them -/

variable (m : (ℓ : Loc nD τ sig) → Buf (Elt Ideal) ℓ)

/-- The first window's array is the first cloud padded. -/
theorem V_main_v1 (c : Dev nD) : (Gen.V m c main_v1 : S4x4096x8.Idx → EReal) =
    concatenate S4x4096x8 2 [⟨S4x4096x3, (m ((c : Thread nD τ).loc main_arg0) : S4x4096x3.Idx → EReal)⟩,
      ⟨S4x4096x5, broadcastInDim S4x4096x5 ![] Gen.bcast_S_S4x4096x5 (constant (F := Ideal) S_ .f32 0x00000000#32)⟩]
      Gen.concatenates_S4x4096x3_S4x4096x5_S4x4096x8_d2 := by
  show StableHlo.after hostOps0 (fun b => m (c, b)) (Proc.devRef .tc main_v1) = _
  after_results

/-- The second window's array is the second cloud padded, its last two axes swapped. -/
theorem V_main_v4 (c : Dev nD) : (Gen.V m c main_v4 : S4x8x4096.Idx → EReal) =
    transpose S4x8x4096 [0, 2, 1]
      (concatenate S4x4096x8 2 [⟨S4x4096x3, (m ((c : Thread nD τ).loc main_arg1) : S4x4096x3.Idx → EReal)⟩,
        ⟨S4x4096x5, broadcastInDim S4x4096x5 ![] Gen.bcast_S_S4x4096x5 (constant (F := Ideal) S_ .f32 0x00000000#32)⟩]
        Gen.concatenates_S4x4096x3_S4x4096x5_S4x4096x8_d2)
      Gen.transposes_S4x4096x8_S4x8x4096_0_2_1 := by
  show StableHlo.after hostOps0 (fun b => m (c, b)) (Proc.devRef .tc main_v4) = _
  after_results

/-! ## The windows' blocks at a grid point -/

/-- The index maps over the grid: point t = 8 b + j takes block (b, 0, 0) of the first array and block (b, 0, j) of the
    second. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = t.val % 8 :=
  (by decide +kernel : ∀ t : Fin grid0.N, _)

/-- The first window's block at point t, at an index, is its array at the index moved to cloud t / 8. -/
theorem iblk0_arr (c : Dev nD) (t : Fin cfg0.N) (x : S1x4096x8.Idx) (k : S4x4096x8.Idx)
    (h0 : (k 0).val = t.val / 8) (h1 : (k 1).val = (x 1).val) (h2 : (k 2).val = (x 2).val) :
    (Gen.iblk m c 0 t : S1x4096x8.Idx → EReal) x = (Gen.V m c main_v1 : S4x4096x8.Idx → EReal) k := by
  obtain ⟨e0, e1, e2, -, -, -⟩ := idx_facts t
  unfold Gen.iblk
  rw [View.read_apply]
  show Gen.V m c main_v1 _ = Gen.V m c main_v1 _
  congr 1
  funext a
  apply Fin.ext
  have hx0 : (x 0).val < 1 := (x 0).isLt
  match a with
  | ⟨0, _⟩ => show win0_0.index t (0 : Fin 3) * 1 + 1 * (x 0).val = (k 0).val; rw [e0, h0]; omega
  | ⟨1, _⟩ => show win0_0.index t (1 : Fin 3) * 4096 + 1 * (x 1).val = (k 1).val; rw [e1, h1]; omega
  | ⟨2, _⟩ => show win0_0.index t (2 : Fin 3) * 8 + 1 * (x 2).val = (k 2).val; rw [e2, h2]; omega

/-- The second window's block at point t, at an index, is its array at the index moved to cloud t / 8 and column tile
    t % 8. -/
theorem iblk1_arr (c : Dev nD) (t : Fin cfg0.N) (x : S1x8x512.Idx) (k : S4x8x4096.Idx)
    (h0 : (k 0).val = t.val / 8) (h1 : (k 1).val = (x 1).val) (h2 : (k 2).val = 512 * (t.val % 8) + (x 2).val) :
    (Gen.iblk m c 1 t : S1x8x512.Idx → EReal) x = (Gen.V m c main_v4 : S4x8x4096.Idx → EReal) k := by
  obtain ⟨-, -, -, e0, e1, e2⟩ := idx_facts t
  unfold Gen.iblk
  rw [View.read_apply]
  show Gen.V m c main_v4 _ = Gen.V m c main_v4 _
  congr 1
  funext a
  apply Fin.ext
  have hx0 : (x 0).val < 1 := (x 0).isLt
  match a with
  | ⟨0, _⟩ => show win0_1.index t (0 : Fin 3) * 1 + 1 * (x 0).val = (k 0).val; rw [e0, h0]; omega
  | ⟨1, _⟩ => show win0_1.index t (1 : Fin 3) * 8 + 1 * (x 1).val = (k 1).val; rw [e1, h1]; omega
  | ⟨2, _⟩ => show win0_1.index t (2 : Fin 3) * 512 + 1 * (x 2).val = (k 2).val; rw [e2, h2]; omega

/-! ## The blocks in terms of the two clouds -/

/-- A grid point's number is below 32. -/
theorem t_lt (t : Fin cfg0.N) : t.val < 32 := lt_of_lt_of_eq t.isLt Gen.N_0

/-- The first window's block at point t holds cloud t / 8 of the first argument: its points' three coordinates, then
    five zero lanes. -/
theorem iblk0_apply (c : Dev nD) (t : Fin cfg0.N) (n : Fin 4096) (d : Fin 8) :
    (Gen.iblk m c 0 t : S1x4096x8.Idx → EReal) (ix3 0 n d)
      = (if h : d.val < 3 then (Gen.V m c main_arg0 : Cert.Chamfer.Pts) (ix3 (Cert.Chamfer.bOf t.val (t_lt t)) n ⟨d.val, h⟩)
        else 0 : EReal) := by
  refine (iblk0_arr m c t (ix3 0 n d) (ix3 (Cert.Chamfer.bOf t.val (t_lt t)) n d) rfl rfl rfl).trans ?_
  refine (congrFun (V_main_v1 m c) _).trans ?_
  rw [Gen.V_main_arg0]
  exact pad_apply _ _ _ _ n d

/-- The second window's block at point t holds column tile t % 8 of cloud t / 8 of the second argument, coordinates
    down the rows: three rows of coordinates, then five zero rows. -/
theorem iblk1_apply (c : Dev nD) (t : Fin cfg0.N) (d : Fin 8) (q : Fin 512) :
    (Gen.iblk m c 1 t : S1x8x512.Idx → EReal) (ix3 0 d q)
      = (if h : d.val < 3 then
          (Gen.V m c main_arg1 : Cert.Chamfer.Pts)
            (ix3 (Cert.Chamfer.bOf t.val (t_lt t)) (Cert.Chamfer.col (Cert.Chamfer.jOf t.val) q) ⟨d.val, h⟩)
        else 0 : EReal) := by
  refine (iblk1_arr m c t (ix3 0 d q)
    (ix3 (Cert.Chamfer.bOf t.val (t_lt t)) d (Cert.Chamfer.col (Cert.Chamfer.jOf t.val) q)) rfl rfl rfl).trans ?_
  refine (congrFun (V_main_v4 m c) _).trans ?_
  rw [Gen.V_main_arg1]
  exact padT_apply _ _ _ _ _ d _

end Cert.Blocks

end
-- ==== Proof.LibFinite.lean ====
import Idealize.ShloMosaic.PureOps.Ideal
import Idealize.ShloMosaic.PureOps.Ideal.Laws

/-!
# Finiteness of extended reals

General facts about the extended reals `EReal` used as idealized float values.

* `IsReal x` says that `x` is neither `⊤` nor `⊥`, that is, `x` is (the coercion of) a real number.
  It is closed under addition, subtraction, multiplication, negation, `max`, `min`, the absolute
  value `max x (-x)`, integer roundings extended to the infinities, finite sums, and suprema and
  infima over a nonempty finite type.  The sign of any extended real is real, clamping any extended
  real between two real bounds is real, and a quotient of reals by a nonzero real is real (and
  positive when both are positive).
* `a + (b - a) = b` for a real `a` and an arbitrary extended real `b`.
* The sign function written with two comparisons and two selections.
* The extended reals denoted by a few single-precision words.
* Folding `max` from `⊥` (resp. `min` from `⊤`) over a finite set is its supremum (resp. infimum).
-/

noncomputable section
namespace LibFinite
open Idealize.ShloMosaic

/-! ## Real (finite) extended reals -/

/-- An extended real is *real* when it is neither of the two infinities. -/
def IsReal (x : EReal) : Prop := x ≠ ⊤ ∧ x ≠ ⊥

/-- The coercion of a real number is real. -/
theorem IsReal.coe (r : ℝ) : IsReal (r : EReal) := ⟨EReal.coe_ne_top r, EReal.coe_ne_bot r⟩

theorem IsReal.zero : IsReal (0 : EReal) := by
  rw [← EReal.coe_zero]; exact IsReal.coe 0

theorem IsReal.one : IsReal (1 : EReal) := by
  rw [← EReal.coe_one]; exact IsReal.coe 1

/-- A real extended real is the coercion of some real number. -/
theorem IsReal.exists {x : EReal} (h : IsReal x) : ∃ r : ℝ, x = (r : EReal) := by
  induction x using EReal.rec with
  | bot => exact absurd rfl h.2
  | top => exact absurd rfl h.1
  | coe r => exact ⟨r, rfl⟩

theorem IsReal.add {x y : EReal} (hx : IsReal x) (hy : IsReal y) : IsReal (x + y) := by
  obtain ⟨a, rfl⟩ := hx.exists
  obtain ⟨b, rfl⟩ := hy.exists
  rw [← EReal.coe_add]; exact IsReal.coe _

theorem IsReal.sub {x y : EReal} (hx : IsReal x) (hy : IsReal y) : IsReal (x - y) := by
  obtain ⟨a, rfl⟩ := hx.exists
  obtain ⟨b, rfl⟩ := hy.exists
  rw [← EReal.coe_sub]; exact IsReal.coe _

theorem IsReal.mul {x y : EReal} (hx : IsReal x) (hy : IsReal y) : IsReal (x * y) := by
  obtain ⟨a, rfl⟩ := hx.exists
  obtain ⟨b, rfl⟩ := hy.exists
  rw [← EReal.coe_mul]; exact IsReal.coe _

theorem IsReal.neg {x : EReal} (hx : IsReal x) : IsReal (-x) := by
  obtain ⟨a, rfl⟩ := hx.exists
  rw [← EReal.coe_neg]; exact IsReal.coe _

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- The absolute value `max x (-x)` of a real is real. -/
theorem IsReal.abs {x : EReal} (hx : IsReal x) : IsReal (Max.max x (-x)) :=
  IsReal.max hx hx.neg

/-- A rounding to the integers, extended by fixing the infinities, keeps reals real. -/
theorem IsReal.liftRound (f : ℝ → ℤ) {x : EReal} (hx : IsReal x) : IsReal (Ideal.liftRound f x) := by
  obtain ⟨a, rfl⟩ := hx.exists
  rw [Ideal.liftRound_coe]; exact IsReal.coe _

/-- The sign of any extended real is one of `-1`, `0`, `1`, hence real. -/
theorem IsReal.sign (x : EReal) : IsReal (Ideal.sign x) := by
  induction x using EReal.rec with
  | bot => rw [Ideal.sign_bot]; exact IsReal.one.neg
  | top => rw [Ideal.sign_top]; exact IsReal.one
  | coe r => rw [Ideal.sign_coe]; exact IsReal.coe _

/-- Clamping any extended real (an infinite one too) between two real bounds gives a real: the
    result is at most `hi`, and at least `min hi lo`. -/
theorem IsReal.clamp {lo hi : EReal} (x : EReal) (hlo : IsReal lo) (hhi : IsReal hi) :
    IsReal (Min.min hi (Max.max lo x)) := by
  refine ⟨ne_top_of_le_ne_top hhi.1 (min_le_left _ _), ?_⟩
  exact ne_bot_of_le_ne_bot (IsReal.min hhi hlo).2 (min_le_min_left hi (le_max_left lo x))

/-- The quotient of a real by a nonzero real is real. -/
theorem IsReal.div {x y : EReal} (hx : IsReal x) (hy : IsReal y) (h0 : y ≠ 0) :
    IsReal (Ideal.div x y) := by
  obtain ⟨b, rfl⟩ := hy.exists
  have hb : b ≠ 0 := fun h => h0 (by rw [h, EReal.coe_zero])
  rw [Ideal.div_coe hb]
  exact IsReal.mul hx (IsReal.coe _)

/-- The quotient of two positive reals is a positive real. -/
theorem IsReal.div_pos {x y : EReal} (hx : IsReal x) (hy : IsReal y) (hx0 : 0 < x) (hy0 : 0 < y) :
    IsReal (Ideal.div x y) ∧ 0 < Ideal.div x y := by
  refine ⟨IsReal.div hx hy hy0.ne', ?_⟩
  obtain ⟨a, rfl⟩ := hx.exists
  obtain ⟨b, rfl⟩ := hy.exists
  have ha : 0 < a := EReal.coe_pos.mp hx0
  have hb : 0 < b := EReal.coe_pos.mp hy0
  rw [Ideal.div_coe hb.ne', ← EReal.coe_mul]
  exact EReal.coe_pos.mpr (by positivity)

/-- A finite sum of reals is real. -/
theorem IsReal.sum {ι : Type} (s : Finset ι) (f : ι → EReal) (h : ∀ i ∈ s, IsReal (f i)) :
    IsReal (∑ i ∈ s, f i) :=
  Finset.sum_induction f IsReal (fun _ _ => IsReal.add) IsReal.zero h

/-- The supremum of finitely many reals (at least one) is one of them, hence real. -/
theorem IsReal.sup_univ {ι : Type} [Fintype ι] [Nonempty ι] (f : ι → EReal) (h : ∀ i, IsReal (f i)) :
    IsReal (Finset.univ.sup f) := by
  obtain ⟨i, -, hi⟩ := Finset.exists_mem_eq_sup Finset.univ Finset.univ_nonempty f
  rw [hi]; exact h i

/-- The infimum of finitely many reals (at least one) is one of them, hence real. -/
theorem IsReal.inf_univ {ι : Type} [Fintype ι] [Nonempty ι] (f : ι → EReal) (h : ∀ i, IsReal (f i)) :
    IsReal (Finset.univ.inf f) := by
  obtain ⟨i, -, hi⟩ := Finset.exists_mem_eq_inf Finset.univ Finset.univ_nonempty f
  rw [hi]; exact h i

/-! ## Cancelling a real -/

/-- Adding back a real `a` that was subtracted from an arbitrary extended real `b` returns `b`:
    for `b = ⊤` both sides are `⊤`, for `b = ⊥` both are `⊥`, and for real `b` it is the
    identity of the reals. -/
theorem add_sub_cancel_of_real {a : EReal} (b : EReal) (ha : IsReal a) : a + (b - a) = b := by
  obtain ⟨r, rfl⟩ := ha.exists
  induction b using EReal.rec with
  | bot => rw [EReal.bot_sub, EReal.add_bot]
  | top => rw [EReal.top_sub_coe, EReal.coe_add_top]
  | coe s => rw [← EReal.coe_sub, ← EReal.coe_add, add_sub_cancel]

/-! ## Single-precision words as extended reals -/

/-- The word with all exponent bits set and a zero significand denotes `⊤`. -/
theorem ofBits_pinf : Ideal.ofBits .f32 0x7F800000#32 = ⊤ := by simp [Ideal.ofBits, Ideal.ieee]

/-- The same word with the sign bit set denotes `⊥`. -/
theorem ofBits_ninf : Ideal.ofBits .f32 0xFF800000#32 = ⊥ := by simp [Ideal.ofBits, Ideal.ieee]

/-- `2 ^ 23 * 2 ^ (127 - 127 - 23) = 1`. -/
theorem ofBits_one : Ideal.ofBits .f32 0x3F800000#32 = 1 := by
  simp [Ideal.ofBits, Ideal.ieee, -EReal.coe_mul]; norm_num

theorem ofBits_neg_one : Ideal.ofBits .f32 0xBF800000#32 = -1 := by
  simp [Ideal.ofBits, Ideal.ieee, -EReal.coe_mul]; norm_num

/-- `(2 ^ 23 + 0x7E0000) * 2 ^ (133 - 127 - 23) = 127`. -/
theorem ofBits_127 : Ideal.ofBits .f32 0x42FE0000#32 = ((127 : ℝ) : EReal) := by
  simp [Ideal.ofBits, Ideal.ieee, -EReal.coe_mul]; norm_num

theorem ofBits_255 : Ideal.ofBits .f32 0x437F0000#32 = ((255 : ℝ) : EReal) := by
  simp [Ideal.ofBits, Ideal.ieee, -EReal.coe_mul]; norm_num

theorem ofBits_neg_128 : Ideal.ofBits .f32 0xC3000000#32 = ((-128 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-! A word whose exponent field is neither all zeros nor all ones denotes
    `± (2 ^ 23 + T) * 2 ^ (E - 150)`, the coercion of a real number; its exact value is not needed. -/

theorem isReal_322BCC77 : IsReal (Ideal.ofBits .f32 0x322BCC77#32) := by
  have h : ∃ r : ℝ, Ideal.ofBits .f32 0x322BCC77#32 = (r : EReal) := by
    simp [Ideal.ofBits, Ideal.ieee, -EReal.coe_mul]
  obtain ⟨r, hr⟩ := h
  rw [hr]; exact IsReal.coe r

theorem isReal_3F3504F3 : IsReal (Ideal.ofBits .f32 0x3F3504F3#32) := by
  have h : ∃ r : ℝ, Ideal.ofBits .f32 0x3F3504F3#32 = (r : EReal) := by
    simp [Ideal.ofBits, Ideal.ieee, -EReal.coe_mul]
  obtain ⟨r, hr⟩ := h
  rw [hr]; exact IsReal.coe r

theorem isReal_3FE26E98 : IsReal (Ideal.ofBits .f32 0x3FE26E98#32) := by
  have h : ∃ r : ℝ, Ideal.ofBits .f32 0x3FE26E98#32 = (r : EReal) := by
    simp [Ideal.ofBits, Ideal.ieee, -EReal.coe_mul]
  obtain ⟨r, hr⟩ := h
  rw [hr]; exact IsReal.coe r

theorem isReal_BFE26E98 : IsReal (Ideal.ofBits .f32 0xBFE26E98#32) := by
  have h : ∃ r : ℝ, Ideal.ofBits .f32 0xBFE26E98#32 = (r : EReal) := by
    simp [Ideal.ofBits, Ideal.ieee, -EReal.coe_mul]
    exact ⟨_, (EReal.coe_neg _).symm⟩
  obtain ⟨r, hr⟩ := h
  rw [hr]; exact IsReal.coe r

theorem isReal_BE93DD98 : IsReal (Ideal.ofBits .f32 0xBE93DD98#32) := by
  have h : ∃ r : ℝ, Ideal.ofBits .f32 0xBE93DD98#32 = (r : EReal) := by
    simp [Ideal.ofBits, Ideal.ieee, -EReal.coe_mul]
    exact ⟨_, (EReal.coe_neg _).symm⟩
  obtain ⟨r, hr⟩ := h
  rw [hr]; exact IsReal.coe r

/-- The word `0x322BCC77` (about `1e-8`) has a clear sign bit and a nonzero exponent field, so it
    denotes a product of positive reals. -/
theorem pos_322BCC77 : 0 < Ideal.ofBits .f32 0x322BCC77#32 := by
  simp [Ideal.ofBits, Ideal.ieee, -EReal.coe_mul]

/-! ## The sign function from comparisons -/

/-- Selecting `-1` or `1` by `t < 0` where `0 < |t|`, and `t` itself otherwise, is the sign of `t`,
    for every extended real: below zero (`⊥` included) `|t| > 0` and the value is `-1`; above zero
    (`⊤` included) `|t| > 0` and the value is `1`; at zero `|t| = 0` and the value is `t = 0`. -/
theorem sign_eq_select (t : EReal) :
    Scalar.select (Ideal.cmp .ogt (max t (-t)) 0)
        (Scalar.select (Ideal.cmp .olt t 0) (-1 : EReal) 1) t = Ideal.sign t := by
  simp only [Scalar.select, Ideal.cmp]
  rcases lt_trichotomy t 0 with hlt | h0 | hgt
  · have habs : 0 < max t (-t) := (Ideal.zero_lt_max_neg_iff t).mpr hlt.ne
    simp [hlt, habs, Ideal.sign_of_neg hlt]
  · subst h0
    simp [Ideal.sign_zero]
  · have habs : 0 < max t (-t) := (Ideal.zero_lt_max_neg_iff t).mpr hgt.ne'
    simp [hgt, not_lt.mpr hgt.le, habs, Ideal.sign_of_pos hgt]

/-! ## Folds of `max` and `min` as suprema and infima -/

/-- Folding `max` over a finite set from `⊥` is the supremum over the set. -/
theorem fold_max_bot {ι : Type} (s : Finset ι) (f : ι → EReal) : s.fold max ⊥ f = s.sup f := rfl

/-- Folding `min` over a finite set from `⊤` is the infimum over the set. -/
theorem fold_min_top {ι : Type} (s : Finset ι) (f : ι → EReal) : s.fold min ⊤ f = s.inf f := rfl

end LibFinite
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.LibCols.lean ====
/-
  Columns of a matrix read at an index, over the extended reals. The maximum down a matrix's columns, as a kernel takes
  it (a reduction over axis 0 folded from an accumulator word) and as a host reduction takes it (folded from an initial
  value), is at column `j` the fold of `max` over that column's entries. A column cut out of an array as a unit-width
  slice reads the array at that column, and four such columns joined side by side read, at (i, k), column k at row i.
  A vector laid out as one row and spread
  down the rows of a matrix reads, at (p, c), the vector's entry c. The float word for −∞ is the bottom element of the
  extended reals, so a fold of `max` that starts from it is the supremum.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Mathlib.Data.Finset.Lattice.Fold

noncomputable section

namespace Cert.LibCols

open Idealize.ShloMosaic Idealize.ShloMosaic.ValueIdx

variable {α : Type}

/-- An `[b]` vector laid out as the row `[1, b]` and spread down the rows of an `[a, b]` matrix reads, at `(p, c)`,
    its entry `c`. -/
theorem row_spread_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- Column `k` of an `[n, m]` array taken as a unit-width slice with the unit axis dropped reads, at `i`, the array at
    `(i, k)`. -/
theorem sliceCol_apply {n m : ℕ} (k : Fin m) (X : (⟨2, ![n, m]⟩ : Shape).Idx → α)
    (hs : (⟨2, ![n, m]⟩ : Shape).Slices ![0, k.val] ⟨2, ![n, 1]⟩)
    (hc : (⟨2, ![n, 1]⟩ : Shape).ShapeCasts ⟨1, ![n]⟩) (i : Fin n) :
    shapeCast ⟨1, ![n]⟩ (extractStridedSlice ⟨2, ![n, 1]⟩ ![0, k.val] X hs) hc (ix1 i) = X (ix2 i k) := by
  refine (shapeCast_apply _ hc (ix1 i) (ix2 i (0 : Fin 1)) ?_).trans ?_
  · rw [Shape.rowMajor_val_two, Shape.rowMajor_val_one]
    show i.val * 1 + 0 = i.val
    omega
  · exact extractStridedSlice_apply ![0, k.val] X hs (ix2 i (0 : Fin 1)) (ix2 i k) (fun a => match a with
      | ⟨0, _⟩ => by show i.val = 0 + i.val; omega
      | ⟨1, _⟩ => by show k.val = k.val + 0; omega)

/-- Four `[n, 1]` columns joined side by side read, at `(i, k)`, column `k` at row `i`. -/
theorem concat4_apply {n : ℕ} (c : Fin 4 → (⟨2, ![n, 1]⟩ : Shape).Idx → α)
    (h : Shape.Concatenates
      (([⟨⟨2, ![n, 1]⟩, c 0⟩, ⟨⟨2, ![n, 1]⟩, c 1⟩, ⟨⟨2, ![n, 1]⟩, c 2⟩, ⟨⟨2, ![n, 1]⟩, c 3⟩] :
        List ((s : Shape) × (s.Idx → α))).map (·.1)) ⟨2, ![n, 4]⟩ 1)
    (i : Fin n) (k : Fin 4) :
    concatenate ⟨2, ![n, 4]⟩ 1 [⟨⟨2, ![n, 1]⟩, c 0⟩, ⟨⟨2, ![n, 1]⟩, c 1⟩, ⟨⟨2, ![n, 1]⟩, c 2⟩, ⟨⟨2, ![n, 1]⟩, c 3⟩] h (ix2 i k)
      = c k (ix2 i (0 : Fin 1)) := by
  have hi : ∀ b : Fin (⟨2, ![n, 1]⟩ : Shape).rank, b.cast (rfl : (⟨2, ![n, 1]⟩ : Shape).rank = (⟨2, ![n, 4]⟩ : Shape).rank) ≠ 1 →
      ((ix2 i (0 : Fin 1) : (⟨2, ![n, 1]⟩ : Shape).Idx) b).val = ((ix2 i k : (⟨2, ![n, 4]⟩ : Shape).Idx) (b.cast rfl)).val := by
    intro b hb
    match b with
    | ⟨0, _⟩ => rfl
    | ⟨1, _⟩ => exact absurd rfl hb
  match k with
  | ⟨0, _⟩ => exact concatenate_apply_piece 1 _ h (ix2 i _) 0 (by show 0 < 4; omega) _ (c 0) rfl rfl 0 rfl (ix2 i 0) hi rfl
  | ⟨1, _⟩ => exact concatenate_apply_piece 1 _ h (ix2 i _) 1 (by show 1 < 4; omega) _ (c 1) rfl rfl 1 rfl (ix2 i 0) hi rfl
  | ⟨2, _⟩ => exact concatenate_apply_piece 1 _ h (ix2 i _) 2 (by show 2 < 4; omega) _ (c 2) rfl rfl 2 rfl (ix2 i 0) hi rfl
  | ⟨3, _⟩ => exact concatenate_apply_piece 1 _ h (ix2 i _) 3 (by show 3 < 4; omega) _ (c 3) rfl rfl 3 rfl (ix2 i 0) hi rfl

/-- Column `j` of a matrix with the row coordinate `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The maximum down a matrix's columns, folded from the accumulator's word: at column `j`, the fold of `max` over the
    column. -/
theorem colMax_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] ⟨1, ![b]⟩ X acc h hφ hacc (ix1 j)
      = (Finset.univ : Finset (Fin a)).fold max (Ideal.ofBits .f32 acc) (fun k => X (ix2 k j)) := by
  refine (Ideal.multiReduction_maximumf_single X acc h hφ hacc (ix1 j)).trans ?_
  have hf : (X ∘ h.lift (ix1 j)) = fun k : Fin a => X (ix2 k j) := funext fun k => congrArg X (lift_col h j k)
  exact congrArg (fun f => Finset.fold max (Ideal.ofBits .f32 acc) f (Finset.univ : Finset (Fin a))) hf

/-- A host reduction by `max` down a matrix's columns: at column `j`, the fold of `max` from the initial value over the
    column. -/
theorem hostColMax_apply {a b : ℕ} {u : Shape} (X : FVec Ideal ⟨2, ![a, b]⟩ .f32) (init : u.Idx → Ideal .f32)
    (h' : (⟨2, ![a, b]⟩ : Shape).ReducesTo [0] (⟨1, ![b]⟩ : Shape))
    (h : (⟨2, ![a, b]⟩ : Shape).Reduces [0] (⟨1, ![b]⟩ : Shape)) (hu : 0 < u.numel) (j : Fin b) :
    Host.reduce FloatOps.maximumf X init h' hu (ix1 j)
      = (Finset.univ : Finset (Fin a)).fold max (init (Shape.Idx.first hu)) (fun k => X (ix2 k j)) := by
  refine (Host.reduce_eq_fold_single FloatOps.maximumf X init h' h hu (ix1 j)).trans ?_
  have hf : (X ∘ h.lift (ix1 j)) = fun k : Fin a => X (ix2 k j) := funext fun k => congrArg X (lift_col h j k)
  exact congrArg (fun f => Finset.fold max (init (Shape.Idx.first hu)) f (Finset.univ : Finset (Fin a))) hf

/-- The f32 word of −∞ is the bottom element of the extended reals. -/
theorem ninf_eq_bot : Ideal.ofBits .f32 0xFF800000#32 = (⊥ : EReal) := by
  simp [Ideal.ofBits, Ideal.ieee]

/-- A fold of `max` that starts from −∞ is the supremum. -/
theorem fold_max_ninf {ι : Type*} (s : Finset ι) (f : ι → Ideal .f32) :
    s.fold max (Ideal.ofBits .f32 0xFF800000#32) f = s.sup f := by
  rw [ninf_eq_bot]; rfl

end Cert.LibCols

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.PayIdeal.lean ====
/-
  The kernel body's arithmetic read at an index, over the extended reals. The two input blocks are a cloud of the
  first argument padded with five zero lanes and a tile of 512 points of the second, padded likewise and transposed.
  The squared-distance tile is  |x_n|² + |y_k|² − 2 x_n·y_k  with each sum over the eight lanes, of which the five
  padding lanes contribute 0·0 = 0; its minimum along a row is the row's minimum over the tile's columns.
-/
import proofs.«114504_g48593259987365_cont_8to1c4_620_3_alg».proof.Proof.Spec
import proofs.«114504_g48593259987365_cont_8to1c4_620_3_alg».proof.Proof.Gen.KernelIdeal.Skeleton
import proofs.«114504_g48593259987365_cont_8to1c4_620_3_alg».proof.Proof.LibFinite
import proofs.«114504_g48593259987365_cont_8to1c4_620_3_alg».proof.Proof.LibRows
import proofs.«114504_g48593259987365_cont_8to1c4_620_3_alg».proof.Proof.LibCols
import proofs.«114504_g48593259987365_cont_8to1c4_620_3_alg».proof.Proof.LibDense

noncomputable section

namespace Cert.Pay

open Idealize.ShloMosaic Idealize.ShloMosaic.ValueIdx Cert.KernelIdeal Cert.KernelIdeal.Gen Cert.Chamfer

/-! ## General forms -/

/-- A sum over eight lanes of products of two vectors that vanish from lane 3 on is the sum over the first three. -/
theorem sum_pad8 (u v : Fin 3 → EReal) :
    ∑ k : Fin 8, (if h : k.val < 3 then u ⟨k.val, h⟩ else 0) * (if h : k.val < 3 then v ⟨k.val, h⟩ else 0)
      = ∑ d : Fin 3, u d * v d := by
  rw [Fin.sum_univ_eight, Fin.sum_univ_three]
  simp

/-- The sum down a matrix's columns: at column `j`, the sum over the column. -/
theorem colSum_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (j : Fin b) :
    multiReduction .add [0] ⟨1, ![b]⟩ X acc h hφ hacc (ix1 j) = ∑ k : Fin a, X (ix2 k j) := by
  refine (Ideal.multiReduction_add_single X acc h hφ hacc (ix1 j)).trans ?_
  exact Finset.sum_congr rfl fun k _ => congrArg X (LibCols.lift_col h j k)

/-- A minimum over one axis, folded from the accumulator's word: the fold of `min` over that axis's coordinates. -/
theorem minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along a matrix's rows from the word of +∞: at row `i`, the infimum over the row. -/
theorem rowMin_apply {a b : ℕ} (X : FVec Ideal ⟨2, ![a, b]⟩ .f32)
    (h : (⟨2, ![a, b]⟩ : Shape).Reduces [1] (⟨1, ![a]⟩ : Shape)) (hφ : FKind.Formats .f32)
    (hacc : (0x7F800000#32 : BitVec 32) = FKind.minimumf.neutral .f32 hφ) (i : Fin a) :
    multiReduction .minimumf [1] ⟨1, ![a]⟩ X 0x7F800000#32 h hφ hacc (ix1 i)
      = (Finset.univ : Finset (Fin b)).inf (fun k => X (ix2 i k)) := by
  refine (minimumf_single X _ h hφ hacc (ix1 i)).trans ?_
  have hf : (X ∘ h.lift (ix1 i)) = fun k : Fin b => X (ix2 i k) := funext fun k => congrArg X (LibRows.lift_row h i k)
  show (Finset.univ : Finset (Fin b)).fold min (Ideal.ofBits .f32 0x7F800000#32) (X ∘ h.lift (ix1 i)) = _
  rw [hf, LibFinite.ofBits_pinf]
  rfl

/-- The minimum down a matrix's columns from the word of +∞: at column `j`, the infimum over the column. -/
theorem colMin_apply {a b : ℕ} (X : FVec Ideal ⟨2, ![a, b]⟩ .f32)
    (h : (⟨2, ![a, b]⟩ : Shape).Reduces [0] (⟨1, ![b]⟩ : Shape)) (hφ : FKind.Formats .f32)
    (hacc : (0x7F800000#32 : BitVec 32) = FKind.minimumf.neutral .f32 hφ) (j : Fin b) :
    multiReduction .minimumf [0] ⟨1, ![b]⟩ X 0x7F800000#32 h hφ hacc (ix1 j)
      = (Finset.univ : Finset (Fin a)).inf (fun k => X (ix2 k j)) := by
  refine (minimumf_single X _ h hφ hacc (ix1 j)).trans ?_
  have hf : (X ∘ h.lift (ix1 j)) = fun k : Fin a => X (ix2 k j) := funext fun k => congrArg X (LibCols.lift_col h j k)
  show (Finset.univ : Finset (Fin a)).fold min (Ideal.ofBits .f32 0x7F800000#32) (X ∘ h.lift (ix1 j)) = _
  rw [hf, LibFinite.ofBits_pinf]
  rfl

/-- Each row's sum of squares over `c` lanes, laid out as a column and spread over `b` columns. -/
theorem rowSq_spread {a c b : ℕ} (v : FVec Ideal ⟨2, ![a, c]⟩ .f32) (acc : BitVec 32)
    (h : (⟨2, ![a, c]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ (mulf v v) acc h hφ hacc) h1) h2 (ix2 p q)
      = ∑ k : Fin c, v (ix2 p k) * v (ix2 p k) :=
  (LibRows.column_spread_apply _ h1 h2 p q).trans (LibRows.rowSum_apply (mulf v v) acc h hφ hacc p)

/-- Each column's sum of squares over `c` lanes, laid out as a row and spread down `a` rows. -/
theorem colSq_spread {a c b : ℕ} (v : FVec Ideal ⟨2, ![c, b]⟩ .f32) (acc : BitVec 32)
    (h : (⟨2, ![c, b]⟩ : Shape).Reduces [0] (⟨1, ![b]⟩ : Shape)) (hφ : FKind.Formats .f32)
    (hacc : acc = FKind.add.neutral .f32 hφ) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ (multiReduction .add [0] ⟨1, ![b]⟩ (mulf v v) acc h hφ hacc) h1) h2 (ix2 p q)
      = ∑ k : Fin c, v (ix2 k q) * v (ix2 k q) :=
  (LibCols.row_spread_apply _ h1 h2 p q).trans (colSum_apply (mulf v v) acc h hφ hacc q)

/-! ## The squared-distance tile -/

section Tile

variable (x y : Pts) (b : Fin 4) (j : Fin 8)
  (x0 : Vec Ideal S1x4096x8 .f32)
  (h0 : ∀ (n : Fin 4096) (d : Fin 8), x0 (ix3 0 n d) = if h : d.val < 3 then x (ix3 b n ⟨d.val, h⟩) else 0)
  (x1 : Vec Ideal S1x8x512 .f32)
  (h1 : ∀ (d : Fin 8) (q : Fin 512), x1 (ix3 0 d q) = if h : d.val < 3 then y (ix3 b (col j q) ⟨d.val, h⟩) else 0)

include h0 h1

/-- The tile at row `n` and column `q`: the squared distance between point `n` of `x` and point `512 j + q` of `y`. -/
theorem pay3_apply (n : Fin 4096) (q : Fin 512) :
    k0_pay3 (F := Ideal) x0 x1 (ix2 n q) = sqd x y b n (col j q) := by
  have s1 : ∀ k : Fin 8, shapeCast S4096x8 x0 shapeCasts_S1x4096x8_S4096x8 (ix2 n k)
      = if h : k.val < 3 then x (ix3 b n ⟨k.val, h⟩) else 0 :=
    fun k => (shapeCast_1ab_ab_apply x0 _ n k).trans (h0 n k)
  have s3 : ∀ k : Fin 8, shapeCast S8x512 x1 shapeCasts_S1x8x512_S8x512 (ix2 k q)
      = if h : k.val < 3 then y (ix3 b (col j q) ⟨k.val, h⟩) else 0 :=
    fun k => (shapeCast_1ab_ab_apply x1 _ k q).trans (h1 k q)
  unfold k0_pay3
  simp only [subf_apply, addf_apply, mulf_apply, broadcast_apply]
  refine (congrArg₂ (· - ·)
    (congrArg₂ (· + ·)
      (rowSq_spread (shapeCast S4096x8 x0 shapeCasts_S1x4096x8_S4096x8) 0x00000000#32 reduces_S4096x8_S4096 (.inl rfl) rfl
        shapeCasts_S4096_S4096x1 broadcasts_S4096x1_S4096x512 n q)
      (colSq_spread (shapeCast S8x512 x1 shapeCasts_S1x8x512_S8x512) 0x00000000#32 reduces_S8x512_S512 (.inl rfl) rfl
        shapeCasts_S512_S1x512 broadcasts_S1x512_S4096x512 n q))
    (congrArg (FloatOps.ofBits (F := Ideal) .f32 0x40000000#32 * ·)
      (LibDense.matmul_zero_plain (φ₁ := .f32) (φ₂ := .f32) dot_S4096x8_S8x512_S4096x512_1_0_0_1_n_n_wf none
        (shapeCast S4096x8 x0 shapeCasts_S1x4096x8_S4096x8) (shapeCast S8x512 x1 shapeCasts_S1x8x512_S8x512) n q))).trans ?_
  simp only [s1, s3]
  rw [sum_pad8 (fun d => x (ix3 b n d)) (fun d => x (ix3 b n d)),
    sum_pad8 (fun d => y (ix3 b (col j q) d)) (fun d => y (ix3 b (col j q) d)),
    sum_pad8 (fun d => x (ix3 b n d)) (fun d => y (ix3 b (col j q) d))]
  rfl

/-- The tile's minimum along row `n`. -/
theorem pay4_apply (n : Fin 4096) : k0_pay4 (F := Ideal) x0 x1 (ix2 n 0) = tileRowMin x y b j n := by
  unfold k0_pay4
  refine (LibRows.shapeCast_a_a1_apply _ shapeCasts_S4096_S4096x1 n 0).trans ?_
  refine (rowMin_apply (k0_pay3 (F := Ideal) x0 x1) reduces_S4096x512_S4096 (.inl rfl) rfl n).trans ?_
  exact congrArg (Finset.univ : Finset (Fin 512)).inf (funext fun q => pay3_apply x y b j x0 h0 x1 h1 n q)

/-- A cloud's first tile stores the row minima as they are. -/
theorem pay5_apply (n : Fin 4096) : k0_pay5 (F := Ideal) x0 x1 (ix2 n 0) = tileRowMin x y b j n := by
  unfold k0_pay5
  rw [shapeCast_self]
  exact pay4_apply x y b j x0 h0 x1 h1 n

/-- A later tile lowers the stored row minima. -/
theorem pay6_apply (s : Vec Ideal S4096x1 .f32) (n : Fin 4096) :
    k0_pay6 (F := Ideal) x0 x1 s (ix2 n 0) = min (s (ix2 n 0)) (tileRowMin x y b j n) := by
  unfold k0_pay6
  rw [shapeCast_self]
  exact congrArg (min (s (ix2 n 0))) (pay4_apply x y b j x0 h0 x1 h1 n)

end Tile

end Cert.Pay

end
-- ==== Proof.PayIdeal2.lean ====
/-
  The kernel body's two accumulations read at their one index, over the extended reals. A tile adds to the running
  loss the sum over its 512 columns of each column's minimum over all 4096 rows, clamped at zero, times 2^-14; a
  cloud's last tile also adds the sum over the rows of the stored row minima, clamped at zero, times 2^-14. Both sums
  are taken as a reduction over the last two axes of a three-axis array with a leading unit axis, whose index set is
  in bijection with the one non-unit axis.
-/
import proofs.«114504_g48593259987365_cont_8to1c4_620_3_alg».proof.Proof.PayIdeal

noncomputable section

namespace Cert.Pay

open Idealize.ShloMosaic Idealize.ShloMosaic.ValueIdx Cert.KernelIdeal Cert.KernelIdeal.Gen Cert.Chamfer

/-! ## Index sets with unit axes -/

/-- Every index of a one-by-one array is (0, 0). -/
theorem eq_ix2_00 (i : S1x1.Idx) : i = ix2 0 0 :=
  funext fun a => match a with
    | ⟨0, _⟩ => Fin.ext (Nat.lt_one_iff.mp (i 0).isLt)
    | ⟨1, _⟩ => Fin.ext (Nat.lt_one_iff.mp (i 1).isLt)

/-- Every index of a column is (its row, 0). -/
theorem eq_ix2_n0 (i : S4096x1.Idx) : i = ix2 (i 0) 0 :=
  funext fun a => match a with
    | ⟨0, _⟩ => rfl
    | ⟨1, _⟩ => Fin.ext (Nat.lt_one_iff.mp (i 1).isLt)

/-- The indices of a `[1, 1, c]` array are its last coordinates. -/
def idxEquiv11c (c : ℕ) : Fin c ≃ (⟨3, ![1, 1, c]⟩ : Shape).Idx where
  toFun q := ix3 0 0 q
  invFun i := i 2
  left_inv _ := rfl
  right_inv i := funext fun a => match a with
    | ⟨0, _⟩ => Fin.ext (Nat.lt_one_iff.mp (i 0).isLt).symm
    | ⟨1, _⟩ => Fin.ext (Nat.lt_one_iff.mp (i 1).isLt).symm
    | ⟨2, _⟩ => rfl

/-- The indices of a `[1, a, 1]` array are its middle coordinates. -/
def idxEquiv1a1 (a : ℕ) : Fin a ≃ (⟨3, ![1, a, 1]⟩ : Shape).Idx where
  toFun n := ix3 0 n 0
  invFun i := i 1
  left_inv _ := rfl
  right_inv i := funext fun a => match a with
    | ⟨0, _⟩ => Fin.ext (Nat.lt_one_iff.mp (i 0).isLt).symm
    | ⟨1, _⟩ => rfl
    | ⟨2, _⟩ => Fin.ext (Nat.lt_one_iff.mp (i 2).isLt).symm

/-- A sum over all indices of a `[1, 1, c]` array is the sum over its last coordinate. -/
theorem sum_idx_11c {c : ℕ} (f : (⟨3, ![1, 1, c]⟩ : Shape).Idx → EReal) : ∑ i, f i = ∑ q : Fin c, f (ix3 0 0 q) :=
  (Equiv.sum_comp (idxEquiv11c c) f).symm

/-- A sum over all indices of a `[1, a, 1]` array is the sum over its middle coordinate. -/
theorem sum_idx_1a1 {a : ℕ} (f : (⟨3, ![1, a, 1]⟩ : Shape).Idx → EReal) : ∑ i, f i = ∑ n : Fin a, f (ix3 0 n 0) :=
  (Equiv.sum_comp (idxEquiv1a1 a) f).symm

/-- A sum into the one-entry vector, laid out as `[1, 1, 1]` and read at its entry: the sum over every source index. -/
theorem total_extract {s : Shape} (axes : List (Fin s.rank)) (src : FVec Ideal s .f32) (h : s.Reduces axes S1)
    (hφ : FKind.Formats .f32) (hacc : (0x00000000#32 : BitVec 32) = FKind.add.neutral .f32 hφ)
    (hc : S1.ShapeCasts S1x1x1) (hp : ∀ a, (![0, 0, 0] : Fin 3 → Nat) a < S1x1x1.size a) :
    extractAt ![0, 0, 0] (shapeCast S1x1x1 (multiReduction .add axes S1 src 0x00000000#32 h hφ hacc) hc) hp
      = ∑ i : s.Idx, src i := by
  unfold extractAt shapeCast
  exact Ideal.multiReduction_add_total src _ h (by decide) hφ hacc _

/-- The shared tail of the two accumulations: the stored value plus the total sum times a float word. -/
theorem acc_tail {s : Shape} (axes : List (Fin s.rank)) (src : FVec Ideal s .f32) (h : s.Reduces axes S1)
    (hφ : FKind.Formats .f32) (hacc : (0x00000000#32 : BitVec 32) = FKind.add.neutral .f32 hφ)
    (hc : S1.ShapeCasts S1x1x1) (hp : ∀ a, (![0, 0, 0] : Fin 3 → Nat) a < S1x1x1.size a)
    (o : Vec Ideal S1x1 .f32) (ho : S1x1.ShapeCasts S1x1) (w : BitVec 32) (i : S1x1.Idx) :
    addf (φ := .f32) (shapeCast S1x1 o ho)
        (mulf (broadcast S1x1 (extractAt ![0, 0, 0]
            (shapeCast S1x1x1 (multiReduction .add axes S1 src 0x00000000#32 h hφ hacc) hc) hp))
          (broadcast S1x1 (FloatOps.ofBits (F := Ideal) .f32 w))) i
      = o i + (∑ k : s.Idx, src k) * Ideal.ofBits .f32 w := by
  rw [addf_apply, mulf_apply, broadcast_apply, broadcast_apply, shapeCast_self, total_extract]
  rfl

/-! ## The two accumulations -/

/-- The loss starts at zero. -/
theorem pay7_apply : k0_pay7 (F := Ideal) (ix2 0 0) = 0 := by
  show Ideal.ofBits .f32 0x00000000#32 = 0
  exact Ideal.ofBits_zero_f32

/-- A cloud's last tile adds the stored row minima, clamped at zero, summed and scaled. -/
theorem pay2_apply (v48 : Vec Ideal S1x1 .f32) (v50 : Vec Ideal S4096x1 .f32) :
    k0_pay2 (F := Ideal) v48 v50 (ix2 0 0) = v48 (ix2 0 0) + (∑ n : Fin 4096, max (v50 (ix2 n 0)) 0) * scale := by
  unfold k0_pay2
  refine (acc_tail [1, 2]
    (shapeCast S1x4096x1 (maximumf v50 (broadcast S4096x1 (FloatOps.ofBits (F := Ideal) .f32 0x00000000#32)))
      shapeCasts_S4096x1_S1x4096x1)
    reduces_S1x4096x1_S1 (.inl rfl) rfl shapeCasts_S1_S1x1x1 inpos_S1x1x1_p0_0_0 v48 shapeCasts_S1x1_S1x1
    0x38800000#32 (ix2 0 0)).trans ?_
  rw [sum_idx_1a1]
  refine congrArg (fun t => v48 (ix2 0 0) + t * scale) (Finset.sum_congr rfl fun n _ => ?_)
  refine (shapeCast_ab_1ab_apply _ shapeCasts_S4096x1_S1x4096x1 0 n 0).trans ?_
  rw [maximumf_apply, broadcast_apply]
  show max (v50 (ix2 n 0)) (Ideal.ofBits .f32 0x00000000#32) = _
  rw [Ideal.ofBits_zero_f32]

section Tile

variable (x y : Pts) (b : Fin 4) (j : Fin 8)
  (x0 : Vec Ideal S1x4096x8 .f32)
  (h0 : ∀ (n : Fin 4096) (d : Fin 8), x0 (ix3 0 n d) = if h : d.val < 3 then x (ix3 b n ⟨d.val, h⟩) else 0)
  (x1 : Vec Ideal S1x8x512 .f32)
  (h1 : ∀ (d : Fin 8) (q : Fin 512), x1 (ix3 0 d q) = if h : d.val < 3 then y (ix3 b (col j q) ⟨d.val, h⟩) else 0)

include h0 h1

/-- The tile's clamped column minima: at column `q`, the minimum over all 4096 rows of the squared distance to
    point `512 j + q` of `y`, clamped at zero. -/
theorem pay8_apply (q : Fin 512) : k0_pay8 (F := Ideal) x0 x1 (ix3 0 0 q) = max (colMin x y b (col j q)) 0 := by
  unfold k0_pay8
  refine (shapeCast_ab_1ab_apply _ shapeCasts_S1x512_S1x1x512 0 0 q).trans ?_
  rw [maximumf_apply, broadcast_apply]
  show max _ (Ideal.ofBits .f32 0x00000000#32) = _
  rw [Ideal.ofBits_zero_f32]
  refine congrArg (max · 0) ?_
  refine (shapeCast_a_1a_apply _ shapeCasts_S512_S1x512 0 q).trans ?_
  refine (colMin_apply (k0_pay3 (F := Ideal) x0 x1) reduces_S4096x512_S512 (.inl rfl) rfl q).trans ?_
  exact congrArg (Finset.univ : Finset (Fin 4096)).inf (funext fun n => pay3_apply x y b j x0 h0 x1 h1 n q)

/-- Every tile adds its columns' clamped minima, summed and scaled. -/
theorem pay8_sum (o : Vec Ideal S1x1 .f32) :
    k0_pay1 (F := Ideal) (k0_pay8 (F := Ideal) x0 x1) o (ix2 0 0) = o (ix2 0 0) + tileTerm x y b j := by
  unfold k0_pay1
  refine (acc_tail [1, 2] (k0_pay8 (F := Ideal) x0 x1) reduces_S1x1x512_S1 (.inl rfl) rfl shapeCasts_S1_S1x1x1
    inpos_S1x1x1_p0_0_0 o shapeCasts_S1x1_S1x1 0x38800000#32 (ix2 0 0)).trans ?_
  rw [sum_idx_11c]
  exact congrArg (fun t => o (ix2 0 0) + t * scale)
    (Finset.sum_congr rfl fun q _ => pay8_apply x y b j x0 h0 x1 h1 q)

end Tile

end Cert.Pay

end
-- ==== Proof.KernelValue.lean ====
/-
  What the idealized kernel's two carried buffers hold, point by point. At the ideal instance, after grid point
  t = 8 b + j the loss buffer holds the specification's running loss and the scratch its running row minima: the
  body's values are read at an index (the tile's squared distances, its row and column minima, the two scaled
  sums), the input blocks are the clouds padded with zero lanes, and the recursion over the points is the
  specification's.
-/
import proofs.«114504_g48593259987365_cont_8to1c4_620_3_alg».proof.Proof.FrameI.Frame
import proofs.«114504_g48593259987365_cont_8to1c4_620_3_alg».proof.Proof.Blocks
import proofs.«114504_g48593259987365_cont_8to1c4_620_3_alg».proof.Proof.PayIdeal
import proofs.«114504_g48593259987365_cont_8to1c4_620_3_alg».proof.Proof.PayIdeal2
import proofs.«114504_g48593259987365_cont_8to1c4_620_3_alg».proof.Proof.Spec

set_option maxRecDepth 16384

noncomputable section

namespace Cert.KernelIdeal.KValue

open Cert.KernelIdeal Cert.KernelIdeal.Gen Cert.KernelIdeal.Body Cert.Chamfer
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The two clouds as the region finds them. -/
abbrev X (c : Dev nD) : Pts := (V m c main_arg0 : Pts)
abbrev Y (c : Dev nD) : Pts := (V m c main_arg1 : Pts)

theorem N32 : cfg0.N = 32 := N_0

/-! ## One point's values, read at an index -/

section Point
variable (c : Dev nD) (t : ℕ) (h : t < cfg0.N) (h' : t < 32)

theorem rows_first (n : Fin 4096) :
    k0_pay5 (F := Ideal) (iblk m c 0 ⟨t, h⟩) (iblk m c 1 ⟨t, h⟩) (ix2 n 0)
      = tileRowMin (X m c) (Y m c) (bOf t h') (jOf t) n :=
  Cert.Pay.pay5_apply (X m c) (Y m c) (bOf t h') (jOf t) (iblk m c 0 ⟨t, h⟩)
    (fun n d => Cert.Blocks.iblk0_apply m c ⟨t, h⟩ n d) (iblk m c 1 ⟨t, h⟩) (fun d q => Cert.Blocks.iblk1_apply m c ⟨t, h⟩ d q) n

theorem rows_later (s : Vec Ideal S4096x1 .f32) (n : Fin 4096) :
    k0_pay6 (F := Ideal) (iblk m c 0 ⟨t, h⟩) (iblk m c 1 ⟨t, h⟩) s (ix2 n 0)
      = min (s (ix2 n 0)) (tileRowMin (X m c) (Y m c) (bOf t h') (jOf t) n) :=
  Cert.Pay.pay6_apply (X m c) (Y m c) (bOf t h') (jOf t) (iblk m c 0 ⟨t, h⟩)
    (fun n d => Cert.Blocks.iblk0_apply m c ⟨t, h⟩ n d) (iblk m c 1 ⟨t, h⟩) (fun d q => Cert.Blocks.iblk1_apply m c ⟨t, h⟩ d q) s n

theorem loss_tile (o : Vec Ideal S1x1 .f32) :
    k0_pay1 (F := Ideal) (k0_pay8 (F := Ideal) (iblk m c 0 ⟨t, h⟩) (iblk m c 1 ⟨t, h⟩)) o (ix2 0 0)
      = o (ix2 0 0) + tileTerm (X m c) (Y m c) (bOf t h') (jOf t) :=
  Cert.Pay.pay8_sum (X m c) (Y m c) (bOf t h') (jOf t) (iblk m c 0 ⟨t, h⟩)
    (fun n d => Cert.Blocks.iblk0_apply m c ⟨t, h⟩ n d) (iblk m c 1 ⟨t, h⟩) (fun d q => Cert.Blocks.iblk1_apply m c ⟨t, h⟩ d q) o

end Point

/-! ## The specification's recursion, equation by equation -/

theorem bOf_zero (h : 0 < 32) : bOf 0 h = 0 := rfl
theorem jOf_zero : jOf 0 = 0 := rfl

theorem kstate_zero_fst (x y : Pts) (h : 0 < 32) : (kstate x y 0 h).1 = 0 + tileTerm x y 0 0 := rfl
theorem kstate_zero_snd (x y : Pts) (h : 0 < 32) : (kstate x y 0 h).2 = tileRowMin x y 0 0 := rfl

theorem kstate_succ_snd (x y : Pts) (t : ℕ) (h : t + 1 < 32) :
    (kstate x y (t + 1) h).2 =
      if (t + 1) % 8 = 0 then tileRowMin x y (bOf (t + 1) h) (jOf (t + 1))
      else fun n => min ((kstate x y t (Nat.lt_of_succ_lt h)).2 n) (tileRowMin x y (bOf (t + 1) h) (jOf (t + 1)) n) := rfl

theorem kstate_succ_fst (x y : Pts) (t : ℕ) (h : t + 1 < 32) :
    (kstate x y (t + 1) h).1 =
      if (t + 1) % 8 = 7 then
        ((kstate x y t (Nat.lt_of_succ_lt h)).1 + tileTerm x y (bOf (t + 1) h) (jOf (t + 1)))
          + (∑ n : Fin 4096, max ((kstate x y (t + 1) h).2 n) 0) * scale
      else (kstate x y t (Nat.lt_of_succ_lt h)).1 + tileTerm x y (bOf (t + 1) h) (jOf (t + 1)) := rfl

/-! ## The kernel's recursion is the specification's -/

theorem stAt_prev (c : Dev nD) (t : ℕ) (h : t + 1 < cfg0.N) :
    stAt m c ((⟨t + 1, h⟩ : Fin cfg0.N).val - 1) (prev ⟨t + 1, h⟩) = stAt m c t (Nat.lt_of_succ_lt h) := rfl

/-- The base: the first point. -/
theorem stAt_eq_zero (c : Dev nD) (h : 0 < cfg0.N) (h' : 0 < 32) :
    (stAt m c 0 h).1 (ix2 0 0) = (kstate (X m c) (Y m c) 0 h').1
      ∧ ∀ n : Fin 4096, (stAt m c 0 h).2 (ix2 n 0) = (kstate (X m c) (Y m c) 0 h').2 n := by
  refine ⟨?_, fun n => ?_⟩
  · rw [stAt_A1 m c ⟨0, h⟩ rfl, loss_tile m c 0 h h', Cert.Pay.pay7_apply, kstate_zero_fst, bOf_zero, jOf_zero]
  · rw [stAt_A2 m c ⟨0, h⟩ rfl, rows_first m c 0 h h' n, kstate_zero_snd, bOf_zero, jOf_zero]

/-- The step: a later point, from the point before. -/
theorem stAt_eq_succ (c : Dev nD) (t : ℕ) (h : t + 1 < cfg0.N) (h' : t + 1 < 32)
    (ih1 : (stAt m c t (Nat.lt_of_succ_lt h)).1 (ix2 0 0) = (kstate (X m c) (Y m c) t (Nat.lt_of_succ_lt h')).1)
    (ih2 : ∀ n : Fin 4096, (stAt m c t (Nat.lt_of_succ_lt h)).2 (ix2 n 0) = (kstate (X m c) (Y m c) t (Nat.lt_of_succ_lt h')).2 n) :
    (stAt m c (t + 1) h).1 (ix2 0 0) = (kstate (X m c) (Y m c) (t + 1) h').1
      ∧ ∀ n : Fin 4096, (stAt m c (t + 1) h).2 (ix2 n 0) = (kstate (X m c) (Y m c) (t + 1) h').2 n := by
  have hz : ¬(⟨t + 1, h⟩ : Fin cfg0.N).val = 0 := Nat.succ_ne_zero t
  by_cases h8 : (t + 1) % 8 = 0
  · have h7 : ¬(t + 1) % 8 = 7 := by omega
    have hr : ∀ n : Fin 4096, (stAt m c (t + 1) h).2 (ix2 n 0) = (kstate (X m c) (Y m c) (t + 1) h').2 n := fun n => by
      rw [stAt_D2 m c ⟨t + 1, h⟩ hz h8, rows_first m c (t + 1) h h' n, kstate_succ_snd, if_pos h8]
    refine ⟨?_, hr⟩
    rw [stAt_D1 m c ⟨t + 1, h⟩ hz h8, stAt_prev m c t h, loss_tile m c (t + 1) h h', ih1, kstate_succ_fst, if_neg h7]
  · by_cases h7 : (t + 1) % 8 = 7
    · have hr : ∀ n : Fin 4096, (stAt m c (t + 1) h).2 (ix2 n 0) = (kstate (X m c) (Y m c) (t + 1) h').2 n := fun n => by
        rw [stAt_C2 m c ⟨t + 1, h⟩ h7, stAt_prev m c t h, rows_later m c (t + 1) h h' _ n, ih2 n, kstate_succ_snd, if_neg h8]
      refine ⟨?_, hr⟩
      rw [stAt_C1 m c ⟨t + 1, h⟩ h7, stAt_prev m c t h, Cert.Pay.pay2_apply, loss_tile m c (t + 1) h h', ih1, kstate_succ_fst, if_pos h7]
      refine congrArg (fun s => _ + s * scale) (Finset.sum_congr rfl fun n _ => ?_)
      have e := hr n
      rw [stAt_C2 m c ⟨t + 1, h⟩ h7, stAt_prev m c t h] at e
      rw [e]
    · have hr : ∀ n : Fin 4096, (stAt m c (t + 1) h).2 (ix2 n 0) = (kstate (X m c) (Y m c) (t + 1) h').2 n := fun n => by
        rw [stAt_B2 m c ⟨t + 1, h⟩ h8 h7, stAt_prev m c t h, rows_later m c (t + 1) h h' _ n, ih2 n, kstate_succ_snd, if_neg h8]
      refine ⟨?_, hr⟩
      rw [stAt_B1 m c ⟨t + 1, h⟩ h8 h7, stAt_prev m c t h, loss_tile m c (t + 1) h h', ih1, kstate_succ_fst, if_neg h7]

/-- After every point the loss buffer holds the specification's running loss and the scratch its running row minima. -/
theorem stAt_eq (c : Dev nD) : ∀ (t : ℕ) (h : t < cfg0.N) (h' : t < 32),
    (stAt m c t h).1 (ix2 0 0) = (kstate (X m c) (Y m c) t h').1
      ∧ ∀ n : Fin 4096, (stAt m c t h).2 (ix2 n 0) = (kstate (X m c) (Y m c) t h').2 n := by
  intro t
  induction t with
  | zero => exact fun h h' => stAt_eq_zero m c h h'
  | succ t ih =>
    intro h h'
    exact stAt_eq_succ m c t h h' (ih (Nat.lt_of_succ_lt h) (Nat.lt_of_succ_lt h')).1 (ih (Nat.lt_of_succ_lt h) (Nat.lt_of_succ_lt h')).2

end Cert.KernelIdeal.KValue

end
-- ==== Proof.KernelRun.lean ====
/-
  What the idealized kernel returns: the one output block is the whole [1,1] array, written back after the last
  grid point, and the program's last line reshapes it to the scalar result — the specification's kernel loss of the
  two clouds.
-/
import proofs.«114504_g48593259987365_cont_8to1c4_620_3_alg».proof.Proof.KernelValue
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body Cert.Chamfer
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem h31 : 31 < cfg0.N := by rw [N32]; norm_num

/-- The last grid point. -/
def tLast : Fin cfg0.N := ⟨31, h31⟩

/-- The output's one block is the whole array: its block index is (0, 0) at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Writing the whole block back and reading the whole array's one block are the same re-indexing. -/
theorem cut_read (f : Vec Ideal S1x1 .f32) (t : Fin cfg0.N) :
    (cfg0.win 2).cut (grid0.coords t) f = ((cfg0.win 2).blk t).view.read (Elt Ideal) (fun i => f i) := by
  obtain ⟨e0, e1⟩ := idx2 t
  funext j
  show f j = f (((cfg0.win 2).blk t).view.emb j)
  refine congrArg f ?_
  funext a; apply Fin.ext
  match a with
  | ⟨0, _⟩ => show (j 0).val = win0_2.index t (0 : Fin 2) * 1 + 1 * (j 0).val; omega
  | ⟨1, _⟩ => show (j 1).val = win0_2.index t (1 : Fin 2) * 1 + 1 * (j 1).val; omega

/-- What the last point writes back is the loss buffer after it. -/
theorem flushed_eq (c : Dev nD) (t : Fin cfg0.N) (hf : (cfg0.win 2).flush t = true) :
    (dats m 0 c).flushed 2 t = ((cfg0.win 2).blk t).view.read (Elt Ideal) (fun i => (stAt m c tLast.val tLast.isLt).1 i) := by
  have ht : t = tLast := Fin.ext (by
    have h1 := (flush0_2 t).mp hf
    have h2 := Cert.Blocks.t_lt t
    show t.val = 31
    omega)
  subst ht
  show (cfg0.win 2).cut (grid0.coords tLast) ((dats m 0 c).after 2 tLast) = _
  rw [after0_2]
  exact cut_read _ tLast

/-- Every index of the [1,1] array is in the last point's block. -/
theorem cover (i : S1x1.Idx) :
    ∃ t : Fin cfg0.N, (cfg0.win 2).flush t = true ∧ i ∈ ((cfg0.win 2).blk t).view.set := by
  refine ⟨⟨31, h31⟩, (flush0_2 ⟨31, h31⟩).mpr (by norm_num), ?_⟩
  obtain ⟨e0, e1⟩ := idx2 ⟨31, h31⟩
  show i ∈ ((View.whole main_v5).slice (win0_2.rect ⟨31, h31⟩)).set
  rw [View.set_slice_whole, Rect.mem_set_unit]
  intro a
  match a with
  | ⟨0, _⟩ =>
    show win0_2.index ⟨31, h31⟩ (0 : Fin 2) * 1 ≤ (i 0).val ∧ (i 0).val < win0_2.index ⟨31, h31⟩ (0 : Fin 2) * 1 + 1
    have hi : (i 0).val < 1 := (i 0).isLt
    omega
  | ⟨1, _⟩ =>
    show win0_2.index ⟨31, h31⟩ (1 : Fin 2) * 1 ≤ (i 1).val ∧ (i 1).val < win0_2.index ⟨31, h31⟩ (1 : Fin 2) * 1 + 1
    have hi : (i 1).val < 1 := (i 1).isLt
    omega

/-- The output array after the run: the loss buffer after the last point. -/
theorem final (c : Dev nD) : (dats m 0 c).arrAt 2 cfg0.N = fun i => (stAt m c tLast.val tLast.isLt).1 i :=
  (dats m 0 c).arrAt_eq_of_cover 2 _ (fun t hf => flushed_eq m c t hf) (fun i => cover i)

/-- The program's last line reshapes the [1,1] output array to the scalar result. -/
theorem tail_eq (c : Dev nD) :
    Pipeline.afterTail₀ cfgs (dats m) 0 (V0 m) [hostOps1] c main_v6 = fun _ => (stAt m c tLast.val tLast.isLt).1 (ix2 0 0) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5)
      = fun i => (stAt m c tLast.val tLast.isLt).1 i :=
    (Pipeline.withArrays_arr spec0 launch0.win.arr_inj c (V0 m c) (fun w => (dats m 0 c).arrAt w (cfgs 0).N) 2).trans (final m c)
  funext i
  show shapeCast S_ (Pipeline.withArrays (cfgs 0).spec c (V0 m c) (fun w => (dats m 0 c).arrAt w (cfgs 0).N) (Proc.tc.devRef main_v5)) shapeCasts_S1x1_S_ i = _
  rw [e]
  exact shapeCast_apply (fun i => (stAt m c tLast.val tLast.isLt).1 i) shapeCasts_S1x1_S_ i (ix2 0 0) rfl

/-- The loss buffer after the last point is the specification's kernel loss. -/
theorem last_eq (c : Dev nD) : (stAt m c tLast.val tLast.isLt).1 (ix2 0 0) = kernelLoss (X m c) (Y m c) :=
  (stAt_eq m c tLast.val tLast.isLt (by show 31 < 32; norm_num)).1

/-- The run of the idealized kernel: it ends with its result at the kernel loss of the two clouds, the clouds unchanged. -/
theorem run : θ_run defs (onTc (τ := τ) (main (F := Ideal))) ⟨m, fun _ => 0, ρ⟩ (fun r => ∀ c : Dev nD,
      r.2.mem ((c.tc : Thread nD τ).loc main_v6)
          = (fun _ => kernelLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((h c).2 main_v6 (Pipeline.mem_restRefs_of main_v6 (by decide) (by decide))).trans (tail_eq m c)).trans
        (funext fun _ => (last_eq m c).trans (by rw [X, Y, V_main_arg0 m c, V_main_arg1 m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefSide.lean ====
/-
  The reference program's result, read back stage by stage, is the chamfer loss of the specification: the clamped
  squared-distance tensor at an index, its two minima along the point axes as infima, the two means.
-/
import proofs.«114504_g48593259987365_cont_8to1c4_620_3_alg».proof.Proof.Spec
import proofs.«114504_g48593259987365_cont_8to1c4_620_3_alg».proof.Proof.Gen.ReferenceIdeal.Run
import proofs.«114504_g48593259987365_cont_8to1c4_620_3_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx
open Cert.Chamfer

/-- Row `n` of cloud `b`, read through the two broadcasts of the row norms. -/
theorem idx_x (b : Fin 4) (n k : Fin 4096) (d : Fin 3) :
    idx_main_v1 (idx_main_v5 (idx_main_v7 (ix3 b n k))) d = ix3 b n d :=
  funext fun a => Fin.ext (by match a with | ⟨0, _⟩ => rfl | ⟨1, _⟩ => rfl | ⟨2, _⟩ => rfl)

/-- Row `k` of cloud `b`, read through the two broadcasts of the column norms. -/
theorem idx_y (b : Fin 4) (n k : Fin 4096) (d : Fin 3) :
    idx_main_v3 (idx_main_v6 (idx_main_v8 (ix3 b n k))) d = ix3 b k d :=
  funext fun a => Fin.ext (by match a with | ⟨0, _⟩ => rfl | ⟨1, _⟩ => rfl | ⟨2, _⟩ => rfl)

/-- The left operand of the contraction at (b, n, k). -/
theorem idx_l (b : Fin 4) (n k : Fin 4096) (d : Fin 3) : lidx_main_v4 (ix3 b n k) d = ix3 b n d :=
  funext fun a => Fin.ext (by match a with | ⟨0, _⟩ => rfl | ⟨1, _⟩ => rfl | ⟨2, _⟩ => rfl)

/-- The right operand of the contraction at (b, n, k). -/
theorem idx_r (b : Fin 4) (n k : Fin 4096) (d : Fin 3) : ridx_main_v4 (ix3 b n k) d = ix3 b k d :=
  funext fun a => Fin.ext (by match a with | ⟨0, _⟩ => rfl | ⟨1, _⟩ => rfl | ⟨2, _⟩ => rfl)

/-- The clamped squared-distance tensor at (b, n, k). -/
theorem d2_at (a0 a1 : FVec Ideal S4x4096x3 .f32) (b : Fin 4) (n k : Fin 4096) :
    val_main_v14 (F := Ideal) a0 a1 (ix3 b n k) = max (sqd a0 a1 b n k) 0 := by
  rw [val_main_v14_apply, val_main_v12_apply, val_main_v13_apply, val_main_cst_2_apply, val_main_v9_apply,
    val_main_v11_apply, val_main_v10_apply, val_main_cst_1_apply, val_main_v4_apply, val_main_v7_apply,
    val_main_v8_apply, val_main_v5_apply, val_main_v6_apply, val_main_v1_apply, val_main_v3_apply,
    val_main_cst_apply, val_main_cst_0_apply]
  simp only [val_main_v0_apply, val_main_v2_apply, idx_x, idx_y, idx_l, idx_r, Ideal.maximumf_def, Ideal.subf_def,
    Ideal.addf_def, Ideal.mulf_def, Ideal.ofBits_def, Ideal.ofBits_zero_f32, zero_add]
  rfl

/-- The float word of +∞ is the top of the extended reals. -/
theorem ofBits_top : Ideal.ofBits .f32 0x7F800000#32 = (⊤ : EReal) := by simp [Ideal.ofBits, Ideal.ieee]

/-- A minimum accumulated from the top element is the infimum. -/
theorem fold_min_top {ι : Type} (s : Finset ι) (f : ι → EReal) : s.fold min ⊤ f = s.inf f := rfl

theorem red_last : S4x4096x4096.Reduces [2] S4x4096 := by decide
theorem red_mid : S4x4096x4096.Reduces [1] S4x4096 := by decide

/-- The minimum along the last axis: point `n` of the first cloud against every point of the second. -/
theorem min_x (a0 a1 : FVec Ideal S4x4096x3 .f32) (b : Fin 4) (n : Fin 4096) :
    val_main_v15 (F := Ideal) a0 a1 (ix2 b n) = nearX a0 a1 b n := by
  unfold val_main_v15
  rw [Host.reduce_eq_fold_single (FloatOps.minimumf (F := Ideal) (φ := .f32)) _ _ reducesTo_S4x4096x4096_S4x4096_d2
    red_last h_S_ (ix2 b n)]
  rw [val_main_cst_3_apply, Ideal.ofBits_def, ofBits_top]
  have e : (val_main_v14 (F := Ideal) a0 a1 ∘ red_last.lift (ix2 b n)) = fun k : Fin 4096 => max (sqd a0 a1 b n k) 0 := by
    funext k
    refine Eq.trans ?_ (d2_at a0 a1 b n k)
    exact congrArg (val_main_v14 (F := Ideal) a0 a1)
      (funext fun a => Fin.ext (by match a with | ⟨0, _⟩ => rfl | ⟨1, _⟩ => rfl | ⟨2, _⟩ => rfl))
  rw [e]
  exact fold_min_top _ _

/-- The minimum along the middle axis: point `k` of the second cloud against every point of the first. -/
theorem min_y (a0 a1 : FVec Ideal S4x4096x3 .f32) (b : Fin 4) (k : Fin 4096) :
    val_main_v19 (F := Ideal) a0 a1 (ix2 b k) = nearY a0 a1 b k := by
  unfold val_main_v19
  rw [Host.reduce_eq_fold_single (FloatOps.minimumf (F := Ideal) (φ := .f32)) _ _ reducesTo_S4x4096x4096_S4x4096_d1
    red_mid h_S_ (ix2 b k)]
  rw [val_main_cst_6_apply, Ideal.ofBits_def, ofBits_top]
  have e : (val_main_v14 (F := Ideal) a0 a1 ∘ red_mid.lift (ix2 b k)) = fun n : Fin 4096 => max (sqd a0 a1 b n k) 0 := by
    funext n
    refine Eq.trans ?_ (d2_at a0 a1 b n k)
    exact congrArg (val_main_v14 (F := Ideal) a0 a1)
      (funext fun a => Fin.ext (by match a with | ⟨0, _⟩ => rfl | ⟨1, _⟩ => rfl | ⟨2, _⟩ => rfl))
  rw [e]
  exact fold_min_top _ _

/-- A rank-one index is its one coordinate, so a sum over such indices is the sum over the coordinate. -/
theorem sum_idx1 {n : Nat} (f : (⟨1, ![n]⟩ : Shape).Idx → EReal) : ∑ j, f j = ∑ b : Fin n, f (ix1 b) :=
  (Equiv.sum_comp (⟨fun b => ix1 b, fun j => j 0, fun _ => rfl, fun j => (eq_ix1 j).symm⟩ :
    Fin n ≃ (⟨1, ![n]⟩ : Shape).Idx) f).symm

/-- The mean over the points of the first cloud of their nearest clamped squared distances. -/
theorem mean_x (a0 a1 : FVec Ideal S4x4096x3 .f32) (b : Fin 4) :
    val_main_v18 (F := Ideal) a0 a1 (ix1 b) = Ideal.div (∑ n : Fin 4096, nearX a0 a1 b n) n4096 := by
  rw [val_main_v18_apply, val_main_v16_apply, val_main_v17_apply, val_main_cst_5_apply, val_main_cst_4_apply]
  have e : ∀ k : Fin 4096, idx_main_v16 (ix1 b) k = ix2 b k := fun k =>
    funext fun a => Fin.ext (by match a with | ⟨0, _⟩ => rfl | ⟨1, _⟩ => rfl)
  simp only [e, min_x, Ideal.hostDivf_def, Ideal.ofBits_def, Ideal.ofBits_zero_f32, zero_add]

/-- The mean over the points of the second cloud of their nearest clamped squared distances. -/
theorem mean_y (a0 a1 : FVec Ideal S4x4096x3 .f32) (b : Fin 4) :
    val_main_v22 (F := Ideal) a0 a1 (ix1 b) = Ideal.div (∑ k : Fin 4096, nearY a0 a1 b k) n4096 := by
  rw [val_main_v22_apply, val_main_v20_apply, val_main_v21_apply, val_main_cst_8_apply, val_main_cst_7_apply]
  have e : ∀ k : Fin 4096, idx_main_v20 (ix1 b) k = ix2 b k := fun k =>
    funext fun a => Fin.ext (by match a with | ⟨0, _⟩ => rfl | ⟨1, _⟩ => rfl)
  simp only [e, min_y, Ideal.hostDivf_def, Ideal.ofBits_def, Ideal.ofBits_zero_f32, zero_add]

/-- The reference's last stage is the loss. -/
theorem result_eq (a0 a1 : FVec Ideal S4x4096x3 .f32) :
    val_main_v27 (F := Ideal) a0 a1 = fun _ => loss a0 a1 := by
  funext i
  rw [val_main_v27_apply, val_main_v24_apply, val_main_v26_apply, val_main_v23_apply, val_main_v25_apply,
    val_main_cst_9_apply, val_main_cst_10_apply, val_main_cst_11_apply, val_main_cst_12_apply, sum_idx1, sum_idx1]
  simp only [mean_x, mean_y, Ideal.hostDivf_def, Ideal.addf_def, Ideal.ofBits_def, Ideal.ofBits_zero_f32, zero_add]
  rfl

/-- The term the reference's run ends at, as a function of the two clouds, is the loss at every (empty) index. -/
theorem run_term_eq (x0 x1 : FVec Ideal S4x4096x3 .f32) :
    addf (Host.divf (Host.reduceAdd (Host.divf (Host.reduceAdd (Host.reduce FloatOps.minimumf (maximumf (subf (addf (broadcastInDim S4x4096x4096 ![0, 1, 2] bcast_S4x4096x1_S4x4096x4096_0_1_2 (broadcastInDim S4x4096x1 ![0, 1] bcast_S4x4096_S4x4096x1_0_1 (Host.reduceAdd (mulf (x0) (x0)) (constant S_ .f32 0x00000000#32) reducesTo_S4x4096x3_S4x4096_d2 h_S_))) (broadcastInDim S4x4096x4096 ![0, 1, 2] bcast_S4x1x4096_S4x4096x4096_0_1_2 (broadcastInDim S4x1x4096 ![0, 2] bcast_S4x4096_S4x1x4096_0_2 (Host.reduceAdd (mulf (x1) (x1)) (constant S_ .f32 0x00000000#32) reducesTo_S4x4096x3_S4x4096_d2 h_S_)))) (mulf (broadcastInDim S4x4096x4096 ![] bcast_S_S4x4096x4096 (constant S_ .f32 0x40000000#32)) (Host.dotGeneral dot_S4x4096x3_S4x4096x3_S4x4096x4096_2_2_1_1_0_0 none (x0) (x1)))) (broadcastInDim S4x4096x4096 ![] bcast_S_S4x4096x4096 (constant S_ .f32 0x00000000#32))) (constant S_ .f32 0x7F800000#32) reducesTo_S4x4096x4096_S4x4096_d2 h_S_) (constant S_ .f32 0x00000000#32) reducesTo_S4x4096_S4_d1 h_S_) (broadcastInDim S4 ![] bcast_S_S4 (constant S_ .f32 0x45800000#32))) (constant S_ .f32 0x00000000#32) reducesTo_S4_S_d0 h_S_) (constant S_ .f32 0x40800000#32)) (Host.divf (Host.reduceAdd (Host.divf (Host.reduceAdd (Host.reduce FloatOps.minimumf (maximumf (subf (addf (broadcastInDim S4x4096x4096 ![0, 1, 2] bcast_S4x4096x1_S4x4096x4096_0_1_2 (broadcastInDim S4x4096x1 ![0, 1] bcast_S4x4096_S4x4096x1_0_1 (Host.reduceAdd (mulf (x0) (x0)) (constant S_ .f32 0x00000000#32) reducesTo_S4x4096x3_S4x4096_d2 h_S_))) (broadcastInDim S4x4096x4096 ![0, 1, 2] bcast_S4x1x4096_S4x4096x4096_0_1_2 (broadcastInDim S4x1x4096 ![0, 2] bcast_S4x4096_S4x1x4096_0_2 (Host.reduceAdd (mulf (x1) (x1)) (constant S_ .f32 0x00000000#32) reducesTo_S4x4096x3_S4x4096_d2 h_S_)))) (mulf (broadcastInDim S4x4096x4096 ![] bcast_S_S4x4096x4096 (constant S_ .f32 0x40000000#32)) (Host.dotGeneral dot_S4x4096x3_S4x4096x3_S4x4096x4096_2_2_1_1_0_0 none (x0) (x1)))) (broadcastInDim S4x4096x4096 ![] bcast_S_S4x4096x4096 (constant S_ .f32 0x00000000#32))) (constant S_ .f32 0x7F800000#32) reducesTo_S4x4096x4096_S4x4096_d1 h_S_) (constant S_ .f32 0x00000000#32) reducesTo_S4x4096_S4_d1 h_S_) (broadcastInDim S4 ![] bcast_S_S4 (constant S_ .f32 0x45800000#32))) (constant S_ .f32 0x00000000#32) reducesTo_S4_S_d0 h_S_) (constant S_ .f32 0x40800000#32))
      = fun _ => loss x0 x1 :=
  (val_main_v27_eq (F := Ideal) x0 x1).trans (result_eq x0 x1)

end Cert.ReferenceIdeal.RefValue

end
-- ==== Proof.Law1.lean ====
/-
  The chamfer loss, part 1: the four float words as real numbers, the coercion of a finite sum of reals, clamping at
  zero commutes with a finite minimum, and the columns 512 j + q (j < 8, q < 512) enumerate all 4096 columns — for
  minima and for sums.
-/
import Mathlib
import proofs.«114504_g48593259987365_cont_8to1c4_620_3_alg».proof.Proof.Spec
import proofs.«114504_g48593259987365_cont_8to1c4_620_3_alg».proof.Proof.LibFinite

noncomputable section

namespace Cert.Chamfer

open Idealize.ShloMosaic Idealize.ShloMosaic.ValueIdx LibFinite

/-! ## The float words -/

/-- (2^23 + 0) · 2^(128 − 127 − 23) = 2. -/
theorem two_eq : two = ((2 : ℝ) : EReal) := by
  simp [two, Ideal.ofBits, Ideal.ieee, -EReal.coe_mul]; norm_num

/-- (2^23 + 0) · 2^(113 − 127 − 23) = 2^-14. -/
theorem scale_eq : scale = ((1 / 16384 : ℝ) : EReal) := by
  simp [scale, Ideal.ofBits, Ideal.ieee, -EReal.coe_mul]; norm_num

/-- (2^23 + 0) · 2^(139 − 127 − 23) = 4096. -/
theorem n4096_eq : n4096 = ((4096 : ℝ) : EReal) := by
  simp [n4096, Ideal.ofBits, Ideal.ieee, -EReal.coe_mul]; norm_num

/-- (2^23 + 0) · 2^(129 − 127 − 23) = 4. -/
theorem n4_eq : n4 = ((4 : ℝ) : EReal) := by
  simp [n4, Ideal.ofBits, Ideal.ieee, -EReal.coe_mul]; norm_num

/-! ## Finite sums of reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Clamping and minima -/

/-- Clamping at zero is monotone, so it commutes with the minimum of a nonempty finite family. -/
theorem max_inf_zero {ι : Type*} [Fintype ι] [Nonempty ι] (f : ι → EReal) :
    max (Finset.univ.inf f) 0 = Finset.univ.inf fun i => max (f i) 0 := by
  apply le_antisymm
  · exact Finset.le_inf fun i _ => max_le_max (Finset.inf_le (Finset.mem_univ i)) le_rfl
  · obtain ⟨i, -, hi⟩ := Finset.exists_mem_eq_inf Finset.univ Finset.univ_nonempty f
    rw [hi]
    exact Finset.inf_le (f := fun i => max (f i) 0) (Finset.mem_univ i)

/-- The minimum over a range of naturals is the minimum over the corresponding finite type. -/
theorem inf_range_eq {α : Type*} [SemilatticeInf α] [OrderTop α] (m : ℕ) (g : ℕ → α) :
    (Finset.range m).inf g = Finset.univ.inf fun i : Fin m => g i.val := by
  apply le_antisymm
  · exact Finset.le_inf fun i _ => Finset.inf_le (Finset.mem_range.2 i.isLt)
  · exact Finset.le_inf fun i hi =>
      Finset.inf_le (f := fun i : Fin m => g i.val) (Finset.mem_univ ⟨i, Finset.mem_range.1 hi⟩)

/-! ## The tiles' columns enumerate all columns -/

/-- Every column is column k % 512 of tile k / 512. -/
theorem col_div_mod (k : Fin 4096) :
    col ⟨k.val / 512, by have := k.isLt; omega⟩ ⟨k.val % 512, Nat.mod_lt _ (by norm_num)⟩ = k := by
  apply Fin.ext
  simp only [col]
  omega

/-- The minimum over the tiles of the minimum over a tile's columns is the minimum over all columns. -/
theorem inf_col {α : Type*} [SemilatticeInf α] [OrderTop α] (f : Fin 4096 → α) :
    (Finset.univ.inf fun j : Fin 8 => Finset.univ.inf fun q : Fin 512 => f (col j q)) = Finset.univ.inf f := by
  apply le_antisymm
  · apply Finset.le_inf
    intro k _
    have h1 := Finset.inf_le (f := fun j : Fin 8 => Finset.univ.inf fun q : Fin 512 => f (col j q))
      (Finset.mem_univ (⟨k.val / 512, by have := k.isLt; omega⟩ : Fin 8))
    have h2 := Finset.inf_le (f := fun q : Fin 512 => f (col ⟨k.val / 512, by have := k.isLt; omega⟩ q))
      (Finset.mem_univ (⟨k.val % 512, Nat.mod_lt _ (by norm_num)⟩ : Fin 512))
    rw [col_div_mod k] at h2
    exact le_trans h1 h2
  · exact Finset.le_inf fun j _ => Finset.le_inf fun q _ => Finset.inf_le (Finset.mem_univ _)

/-- The sum over the tiles of the sum over a tile's columns is the sum over all columns. -/
theorem sum_col {M : Type*} [AddCommMonoid M] (f : Fin 4096 → M) :
    ∑ j : Fin 8, ∑ q : Fin 512, f (col j q) = ∑ k : Fin 4096, f k := by
  rw [← Fintype.sum_prod_type (f := fun p : Fin 8 × Fin 512 => f (col p.1 p.2))]
  refine Fintype.sum_equiv (finProdFinEquiv (m := 8) (n := 512)) _ _ fun p => ?_
  congr 1
  apply Fin.ext
  obtain ⟨j, q⟩ := p
  simp only [col, finProdFinEquiv, Equiv.coe_fn_mk]
  omega

end Cert.Chamfer

end
-- ==== Proof.Law2.lean ====
/-
  The chamfer loss, part 2: a closed form for the kernel's two carried values after every grid point. After point t
  the running loss is the sum of the tile terms of the points 0 … t plus the row terms of the clouds finished by t,
  and the running row minimum is the minimum over the tiles of the current cloud seen so far.
-/
import Mathlib
import proofs.«114504_g48593259987365_cont_8to1c4_620_3_alg».proof.Proof.Spec

noncomputable section

namespace Cert.Chamfer

open Idealize.ShloMosaic Idealize.ShloMosaic.ValueIdx

/-- The cloud of grid point t, for every natural t (reduced modulo 4 so that it is total). -/
def bN (t : ℕ) : Fin 4 := ⟨(t / 8) % 4, Nat.mod_lt _ (by norm_num)⟩

theorem bOf_eq (t : ℕ) (h : t < 32) : bOf t h = bN t := by
  apply Fin.ext
  simp only [bOf, bN]
  omega

/-- The tile term of grid point s. -/
def TT (x y : Pts) (s : ℕ) : EReal := tileTerm x y (bN s) (jOf s)

/-- The row minima of the tile of grid point s. -/
def RM (x y : Pts) (s : ℕ) (n : Fin 4096) : EReal := tileRowMin x y (bN s) (jOf s) n

/-- The running row minimum after grid point t: the minimum over the tiles 8 (t / 8) + i, i ≤ t % 8. -/
def runMin (x y : Pts) (t : ℕ) (n : Fin 4096) : EReal :=
  (Finset.range (t % 8 + 1)).inf fun i => RM x y (8 * (t / 8) + i) n

/-- The row term of cloud c: the rows' clamped minima over the cloud's 8 tiles, summed and scaled. -/
def RS (x y : Pts) (c : ℕ) : EReal :=
  (∑ n : Fin 4096, max ((Finset.range 8).inf fun i => RM x y (8 * c + i) n) 0) * scale

/-- The running loss after grid point t. -/
def runLoss (x y : Pts) (t : ℕ) : EReal :=
  ∑ s ∈ Finset.range (t + 1), TT x y s + ∑ c ∈ Finset.range ((t + 1) / 8), RS x y c

/-- A cloud's first tile restarts the running minimum. -/
theorem runMin_first (x y : Pts) (t : ℕ) (h : (t + 1) % 8 = 0) (n : Fin 4096) :
    runMin x y (t + 1) n = RM x y (t + 1) n := by
  have e : 8 * ((t + 1) / 8) + 0 = t + 1 := by omega
  rw [runMin, h, zero_add, Finset.range_one, Finset.inf_singleton, e]

/-- A later tile lowers the running minimum. -/
theorem runMin_later (x y : Pts) (t : ℕ) (h : ¬ (t + 1) % 8 = 0) (n : Fin 4096) :
    runMin x y (t + 1) n = min (runMin x y t n) (RM x y (t + 1) n) := by
  have h1 : (t + 1) % 8 = t % 8 + 1 := by omega
  have h2 : (t + 1) / 8 = t / 8 := by omega
  have e : 8 * (t / 8) + (t % 8 + 1) = t + 1 := by omega
  rw [runMin, runMin, h1, h2, Finset.range_add_one (n := t % 8 + 1), Finset.inf_insert, e, min_comm]

/-- After a cloud's last tile the running minimum is the minimum over the cloud's 8 tiles. -/
theorem runMin_last (x y : Pts) (t : ℕ) (h : t % 8 = 7) (n : Fin 4096) :
    runMin x y t n = (Finset.range 8).inf fun i => RM x y (8 * (t / 8) + i) n := by
  rw [runMin, h]

/-- The running loss at a point that is not a cloud's last. -/
theorem runLoss_succ (x y : Pts) (t : ℕ) (h : ¬ (t + 1) % 8 = 7) :
    runLoss x y (t + 1) = runLoss x y t + TT x y (t + 1) := by
  have h2 : (t + 1 + 1) / 8 = (t + 1) / 8 := by omega
  rw [runLoss, runLoss, h2, Finset.sum_range_succ _ (t + 1)]
  abel

/-- The running loss at a cloud's last point. -/
theorem runLoss_succ_last (x y : Pts) (t : ℕ) (h : (t + 1) % 8 = 7) :
    runLoss x y (t + 1)
      = runLoss x y t + TT x y (t + 1) + (∑ n : Fin 4096, max (runMin x y (t + 1) n) 0) * scale := by
  have h2 : (t + 1 + 1) / 8 = (t + 1) / 8 + 1 := by omega
  have h3 : (∑ n : Fin 4096, max (runMin x y (t + 1) n) 0) * scale = RS x y ((t + 1) / 8) := by
    rw [RS]
    congr 1
    refine Finset.sum_congr rfl fun n _ => ?_
    rw [runMin_last x y (t + 1) h n]
  rw [runLoss, runLoss, h2, Finset.sum_range_succ _ (t + 1), Finset.sum_range_succ _ ((t + 1) / 8), h3]
  abel

/-- The closed form of the kernel's carried values. -/
theorem kstate_closed (x y : Pts) : ∀ (t : ℕ) (h : t < 32), kstate x y t h = (runLoss x y t, runMin x y t) := by
  intro t
  induction t with
  | zero =>
    intro h
    have e1 : runLoss x y 0 = 0 + tileTerm x y 0 0 := by
      simp [runLoss, TT, bN, jOf]
    have e2 : runMin x y 0 = tileRowMin x y 0 0 := by
      funext n
      simp [runMin, RM, bN, jOf]
    rw [e1, e2]
    rfl
  | succ t ih =>
    intro h
    have ht : t < 32 := Nat.lt_of_succ_lt h
    rw [kstate]
    simp only [ih ht, bOf_eq]
    have hr : (if (t + 1) % 8 = 0 then tileRowMin x y (bN (t + 1)) (jOf (t + 1))
        else fun n => min (runMin x y t n) (tileRowMin x y (bN (t + 1)) (jOf (t + 1)) n)) = runMin x y (t + 1) := by
      funext n
      by_cases h0 : (t + 1) % 8 = 0
      · rw [if_pos h0, runMin_first x y t h0 n]; rfl
      · rw [if_neg h0, runMin_later x y t h0 n]; rfl
    rw [hr]
    by_cases h7 : (t + 1) % 8 = 7
    · rw [if_pos h7, runLoss_succ_last x y t h7]; rfl
    · rw [if_neg h7, runLoss_succ x y t h7]; rfl

/-- What the kernel returns, in closed form. -/
theorem kernelLoss_closed (x y : Pts) :
    kernelLoss x y = ∑ s ∈ Finset.range 32, TT x y s + ∑ c ∈ Finset.range 4, RS x y c := by
  rw [kernelLoss, kstate_closed x y 31 (by norm_num)]
  rfl

end Cert.Chamfer

end
-- ==== Proof.LibTileSum.lean ====
/-
  General lemmas about a sum accumulated tile by tile.
  * `sum_fin_mul`: a sum over i < a of sums over j < b of h (i·b + j) is the sum of h over all n < a·b.
  * `acc_closed`: an accumulator that restarts from zero every K-th step and otherwise adds the step's term holds,
    at step K·p + k (k < K), the sum of the terms of steps K·p … K·p + k.
-/
import Mathlib

namespace Cert.Lib.TileSum

open Finset

/-- A double sum over a grid of a·b cells, row by row, is the sum over the flattened cell number. -/
theorem sum_fin_mul {M : Type*} [AddCommMonoid M] (a b : ℕ) (h : ℕ → M) :
    ∑ i : Fin a, ∑ j : Fin b, h (i.val * b + j.val) = ∑ n : Fin (a * b), h n.val := by
  rw [← Fintype.sum_prod_type (f := fun q : Fin a × Fin b => h (q.1.val * b + q.2.val))]
  rw [← Equiv.sum_comp finProdFinEquiv (fun n : Fin (a * b) => h n.val)]
  refine Finset.sum_congr rfl fun q _ => ?_
  obtain ⟨x, y⟩ := q
  show h (x.val * b + y.val) = h (finProdFinEquiv (x, y)).val
  congr 1
  simp [finProdFinEquiv]
  ring

/-- An accumulator restarted every K steps: its value inside period p. -/
theorem acc_closed {M : Type*} [AddCommMonoid M] (K : ℕ) (hK : 0 < K) (f : ℕ → M) (acc : ℕ → M)
    (h0 : acc 0 = 0 + f 0)
    (hs : ∀ n, acc (n + 1) = if (n + 1) % K = 0 then 0 + f (n + 1) else acc n + f (n + 1))
    (p k : ℕ) (hk : k < K) : acc (K * p + k) = ∑ j ∈ Finset.range (k + 1), f (K * p + j) := by
  induction k with
  | zero =>
    rw [Finset.sum_range_one, Nat.add_zero]
    cases hp : K * p with
    | zero => rw [h0, zero_add]
    | succ m =>
      have hm : (m + 1) % K = 0 := by rw [← hp]; exact Nat.mul_mod_right K p
      rw [hs m, if_pos hm, zero_add]
  | succ k ih =>
    have e : K * p + (k + 1) = (K * p + k) + 1 := by ring
    have hne : ¬ ((K * p + k) + 1) % K = 0 := by
      have : ((K * p + k) + 1) % K = k + 1 := by
        rw [Nat.add_assoc, Nat.mul_add_mod, Nat.mod_eq_of_lt hk]
      omega
    rw [e, hs, if_neg hne, ih (by omega), Finset.sum_range_succ (fun j => f (K * p + j)) (k + 1)]
    rfl

end Cert.Lib.TileSum
-- ==== Proof.Law3.lean ====
/-
  The chamfer loss, part 3: with real inputs every squared distance is a real number, so both directions' clamped
  nearest distances are real; the kernel's column and row minima, clamped, are the reference's nearest distances; the
  32 grid points are the 4 × 8 tiles; and the reference's two means, of a real family, are one real number.
-/
import Mathlib
import proofs.«114504_g48593259987365_cont_8to1c4_620_3_alg».proof.Proof.Spec
import proofs.«114504_g48593259987365_cont_8to1c4_620_3_alg».proof.Proof.LibFinite
import proofs.«114504_g48593259987365_cont_8to1c4_620_3_alg».proof.Proof.LibTileSum
import proofs.«114504_g48593259987365_cont_8to1c4_620_3_alg».proof.Proof.Law1
import proofs.«114504_g48593259987365_cont_8to1c4_620_3_alg».proof.Proof.Law2

noncomputable section

namespace Cert.Chamfer

open Idealize.ShloMosaic Idealize.ShloMosaic.ValueIdx LibFinite

/-! ## Everything is real -/

theorem isReal_of_exists {v : EReal} (h : ∃ r : ℝ, v = (r : EReal)) : IsReal v := by
  obtain ⟨r, rfl⟩ := h
  exact IsReal.coe r

theorem isReal_two : IsReal two := by
  rw [two_eq]
  exact IsReal.coe _

/-- With real coordinates every squared distance is real. -/
theorem sqd_real (x y : Pts) (hx : ∀ i, ∃ r : ℝ, x i = (r : EReal)) (hy : ∀ i, ∃ r : ℝ, y i = (r : EReal))
    (b : Fin 4) (n k : Fin 4096) : IsReal (sqd x y b n k) := by
  have rx : ∀ i, IsReal (x i) := fun i => isReal_of_exists (hx i)
  have ry : ∀ i, IsReal (y i) := fun i => isReal_of_exists (hy i)
  unfold sqd
  exact IsReal.sub
    (IsReal.add (IsReal.sum _ _ fun d _ => IsReal.mul (rx _) (rx _)) (IsReal.sum _ _ fun d _ => IsReal.mul (ry _) (ry _)))
    (IsReal.mul isReal_two (IsReal.sum _ _ fun d _ => IsReal.mul (rx _) (ry _)))

theorem nearX_real (x y : Pts) (hx : ∀ i, ∃ r : ℝ, x i = (r : EReal)) (hy : ∀ i, ∃ r : ℝ, y i = (r : EReal))
    (b : Fin 4) (n : Fin 4096) : IsReal (nearX x y b n) :=
  IsReal.inf_univ _ fun k => IsReal.max (sqd_real x y hx hy b n k) IsReal.zero

theorem nearY_real (x y : Pts) (hx : ∀ i, ∃ r : ℝ, x i = (r : EReal)) (hy : ∀ i, ∃ r : ℝ, y i = (r : EReal))
    (b : Fin 4) (k : Fin 4096) : IsReal (nearY x y b k) :=
  IsReal.inf_univ _ fun n => IsReal.max (sqd_real x y hx hy b n k) IsReal.zero

/-! ## The kernel's minima are the reference's -/

/-- A column's clamped minimum over all rows is the clamped distance from that point of y to its nearest point of x. -/
theorem nearY_eq (x y : Pts) (b : Fin 4) (k : Fin 4096) : nearY x y b k = max (colMin x y b k) 0 := by
  rw [nearY, colMin, max_inf_zero]

/-- A row's clamped minimum over the 8 tiles is the clamped distance from that point of x to its nearest point of y. -/
theorem nearX_eq (x y : Pts) (b : Fin 4) (n : Fin 4096) :
    nearX x y b n = max (Finset.univ.inf fun j : Fin 8 => tileRowMin x y b j n) 0 := by
  have h : (Finset.univ.inf fun j : Fin 8 => tileRowMin x y b j n) = Finset.univ.inf fun k => sqd x y b n k := by
    simp only [tileRowMin]
    exact inf_col fun k => sqd x y b n k
  rw [h, nearX, max_inf_zero]

/-! ## Grid points and tiles -/

theorem bN_tile (b : Fin 4) (j : Fin 8) : bN (8 * b.val + j.val) = b := by
  apply Fin.ext
  simp only [bN]
  omega

theorem jOf_tile (b : Fin 4) (j : Fin 8) : jOf (8 * b.val + j.val) = j := by
  apply Fin.ext
  simp only [jOf]
  omega

/-- The tile terms of the 32 grid points are the tile terms of the 4 × 8 tiles. -/
theorem sum_TT (x y : Pts) :
    ∑ s ∈ Finset.range 32, TT x y s = ∑ b : Fin 4, ∑ j : Fin 8, tileTerm x y b j := by
  rw [Finset.sum_range]
  refine (Cert.Lib.TileSum.sum_fin_mul 4 8 (TT x y)).symm.trans ?_
  refine Finset.sum_congr rfl fun b _ => Finset.sum_congr rfl fun j _ => ?_
  have e : b.val * 8 + j.val = 8 * b.val + j.val := by omega
  rw [e, TT, bN_tile, jOf_tile]

/-- The row term of a cloud is the sum of the reference's clamped nearest distances, scaled. -/
theorem RS_eq (x y : Pts) (b : Fin 4) : RS x y b.val = (∑ n : Fin 4096, nearX x y b n) * scale := by
  rw [RS]
  congr 1
  refine Finset.sum_congr rfl fun n _ => ?_
  rw [nearX_eq, inf_range_eq]
  congr 1
  refine Finset.inf_congr rfl fun j _ => ?_
  rw [RM, bN_tile, jOf_tile]

/-! ## The two means -/

/-- The mean over 4 clouds of the mean over 4096 points of a real family, as one real number. -/
theorem mean_mean (g : Fin 4 → Fin 4096 → EReal) (f : Fin 4 → Fin 4096 → ℝ) (h : ∀ b n, g b n = (f b n : EReal)) :
    Ideal.div (∑ b : Fin 4, Ideal.div (∑ n : Fin 4096, g b n) n4096) n4
      = (((∑ b : Fin 4, (∑ n : Fin 4096, f b n) * (1 / 4096)) * (1 / 4) : ℝ) : EReal) := by
  have h1 : ∀ b : Fin 4, Ideal.div (∑ n : Fin 4096, g b n) n4096
      = (((∑ n : Fin 4096, f b n) * (1 / 4096) : ℝ) : EReal) := by
    intro b
    rw [n4096_eq, Ideal.div_coe (by norm_num : (4096 : ℝ) ≠ 0), EReal.coe_mul, coe_sum,
      Finset.sum_congr rfl fun n _ => h b n]
  rw [n4_eq, Ideal.div_coe (by norm_num : (4 : ℝ) ≠ 0), EReal.coe_mul, coe_sum]
  congr 1
  exact Finset.sum_congr rfl fun b _ => h1 b

end Cert.Chamfer

end
-- ==== Proof.Law.lean ====
/-
  The chamfer loss: the kernel's accumulated loss is the reference's loss when all coordinates are real. The kernel's
  tile terms and row terms are sums of real clamped nearest distances scaled by 2^-14; the reference's two means divide
  the same sums by 4096 and then by 4. Over the reals the two agree, since 2^-14 = (1/4096)·(1/4).
-/
import Mathlib
import proofs.«114504_g48593259987365_cont_8to1c4_620_3_alg».proof.Proof.Spec
import proofs.«114504_g48593259987365_cont_8to1c4_620_3_alg».proof.Proof.LibFinite
import proofs.«114504_g48593259987365_cont_8to1c4_620_3_alg».proof.Proof.Law1
import proofs.«114504_g48593259987365_cont_8to1c4_620_3_alg».proof.Proof.Law2
import proofs.«114504_g48593259987365_cont_8to1c4_620_3_alg».proof.Proof.Law3

noncomputable section

namespace Cert.Chamfer

open Idealize.ShloMosaic Idealize.ShloMosaic.ValueIdx LibFinite

/-! ## The kernel's loss is the reference's -/

theorem kernelLoss_eq_loss (x y : Pts) (hx : ∀ i, ∃ r : ℝ, x i = (r : EReal)) (hy : ∀ i, ∃ r : ℝ, y i = (r : EReal)) :
    kernelLoss x y = loss x y := by
  have rX : ∀ (b : Fin 4) (n : Fin 4096), ∃ r : ℝ, nearX x y b n = (r : EReal) :=
    fun b n => (nearX_real x y hx hy b n).exists
  have rY : ∀ (b : Fin 4) (k : Fin 4096), ∃ r : ℝ, nearY x y b k = (r : EReal) :=
    fun b k => (nearY_real x y hx hy b k).exists
  choose nX hnX using rX
  choose nY hnY using rY
  -- a tile's term, and a cloud's tile terms together
  have hT1 : ∀ (b : Fin 4) (j : Fin 8),
      tileTerm x y b j = (((∑ q : Fin 512, nY b (col j q)) * (1 / 16384) : ℝ) : EReal) := by
    intro b j
    rw [tileTerm, scale_eq, EReal.coe_mul, coe_sum]
    congr 1
    refine Finset.sum_congr rfl fun q _ => ?_
    rw [← nearY_eq, hnY]
  have hT : ∀ b : Fin 4, ∑ j : Fin 8, tileTerm x y b j = (((∑ k : Fin 4096, nY b k) * (1 / 16384) : ℝ) : EReal) := by
    intro b
    rw [Finset.sum_congr rfl fun j _ => hT1 b j, ← coe_sum, ← Finset.sum_mul, sum_col fun k => nY b k]
  -- a cloud's row term
  have hR : ∀ b : Fin 4, RS x y b.val = (((∑ n : Fin 4096, nX b n) * (1 / 16384) : ℝ) : EReal) := by
    intro b
    rw [RS_eq, scale_eq, EReal.coe_mul, coe_sum, Finset.sum_congr rfl fun n _ => hnX b n]
  -- the kernel's loss as one real number
  have hK : kernelLoss x y
      = ((∑ b : Fin 4, (∑ k : Fin 4096, nY b k) * (1 / 16384) + ∑ b : Fin 4, (∑ n : Fin 4096, nX b n) * (1 / 16384) : ℝ) : EReal) := by
    rw [kernelLoss_closed, sum_TT, Finset.sum_range fun c => RS x y c, EReal.coe_add, coe_sum, coe_sum]
    congr 1
    · exact Finset.sum_congr rfl fun b _ => hT b
    · exact Finset.sum_congr rfl fun b _ => hR b
  rw [hK, loss, mean_mean (nearX x y) nX hnX, mean_mean (nearY x y) nY hnY, ← EReal.coe_add]
  congr 1
  simp only [Fin.sum_univ_four]
  ring

end Cert.Chamfer

end
-- ==== Proof.Finite.lean ====
/-
  From the stated precondition to real inputs. The precondition says that, of both argument arrays, every entry's
  absolute value lies strictly below +∞; an extended real with that property is neither +∞ nor −∞, so it is a real.
-/
import proofs.«114504_g48593259987365_cont_8to1c4_620_3_alg».proof.Defs
import Idealize.ShloMosaic.Lib.ReduceAll
import Idealize.ShloMosaic.Lib.ValueIdx

namespace Cert.Finite

open Idealize.ShloMosaic Idealize.SL.Sem

/-- The shape of a scalar has one index. -/
instance subsingleton_scalar_idx : Subsingleton Cert.Pre_finite_inputs.S_.Idx := ⟨fun a b => funext fun d => d.elim0⟩

/-- The float word 0x7F800000 denotes +∞. -/
theorem ofBits_pinf : Ideal.ofBits .f32 0x7F800000#32 = (⊤ : EReal) := by
  simp [Ideal.ofBits, Ideal.ieee]

/-- An extended real whose absolute value max x (−x) lies strictly below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The comparison |x| < +∞ as an i1 word: when it is 1, x is a real. -/
theorem real_of_cmp (x : EReal) (h : Ideal.cmp .olt (max x (-x)) (Ideal.ofBits .f32 0x7F800000#32) = 1#1) :
    ∃ r : ℝ, x = (r : EReal) := by
  apply real_of_abs_lt_top
  rw [ofBits_pinf] at h
  by_contra hn
  simp [Ideal.cmp, hn] at h

theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h0 := congrFun (h c) ValueIdx.ix0
  dsimp only [Cert.Pre_finite_inputs.fn] at h0
  obtain ⟨ha, hb⟩ := IntOp.andi_eq_one.1 h0
  exact ⟨fun i => real_of_cmp _ (Host.reduce_andi_all _ _ _ _ _ ha i),
    fun i => real_of_cmp _ (Host.reduce_andi_all _ _ _ _ _ hb i)⟩

end Cert.Finite
-- ==== Proof.lean ====
/-
  The chamfer loss of two batches of point clouds, fused and tiled on the accelerator, against the plain reference.

  The kernel walks a 4 × 8 grid: point (b, j) holds cloud b of x whole and tile j (512 points) of cloud b of y, both
  padded from three to eight coordinates with zeros. It forms the tile of squared distances |x|² + |y|² − 2 x·y with
  one matrix product, takes the minimum along both axes, and keeps two running values across points: the rows'
  minima (restarted at a cloud's first tile, lowered by the later ones) and the loss (restarted at the first point;
  each tile adds its columns' clamped minima, summed and scaled by 2^-14; a cloud's last tile adds the rows' clamped
  minima likewise). The reference clamps every squared distance at zero, takes the nearest neighbour in both
  directions and averages: over 4096 points, then over 4 clouds.

  At the ideal instance the two agree on finite inputs: clamping at zero commutes with a minimum; the minimum over a
  cloud's eight tiles is the minimum over its 4096 points; the zero lanes add nothing to a sum of products; and,
  every term being a real number, the thirty-six scaled partial sums regroup into the two means, 2^-14 being
  1 / (4096 · 4). The frames: both printed kernels run to the end at every point in one of four cases of their
  branches, and the reference is a straight line of host operations.
-/
import proofs.«114504_g48593259987365_cont_8to1c4_620_3_alg».proof.Defs
import proofs.«114504_g48593259987365_cont_8to1c4_620_3_alg».proof.Proof.Gen.Kernel
import proofs.«114504_g48593259987365_cont_8to1c4_620_3_alg».proof.Proof.Gen.KernelIdeal
import proofs.«114504_g48593259987365_cont_8to1c4_620_3_alg».proof.Proof.Gen.ReferenceIdeal
import proofs.«114504_g48593259987365_cont_8to1c4_620_3_alg».proof.Proof.Gen.Pre_finite_inputs
import proofs.«114504_g48593259987365_cont_8to1c4_620_3_alg».proof.Proof.Gen.ReferenceIdeal.Run
import proofs.«114504_g48593259987365_cont_8to1c4_620_3_alg».proof.Proof.Gen.ReferenceIdeal.Read
import proofs.«114504_g48593259987365_cont_8to1c4_620_3_alg».proof.Proof.FrameK.Frame
import proofs.«114504_g48593259987365_cont_8to1c4_620_3_alg».proof.Proof.FrameI.Frame
import proofs.«114504_g48593259987365_cont_8to1c4_620_3_alg».proof.Proof.KernelRun
import proofs.«114504_g48593259987365_cont_8to1c4_620_3_alg».proof.Proof.RefSide
import proofs.«114504_g48593259987365_cont_8to1c4_620_3_alg».proof.Proof.Law
import proofs.«114504_g48593259987365_cont_8to1c4_620_3_alg».proof.Proof.Finite
import Idealize.ShloMosaic.Adequacy
import Idealize.ShloMosaic.Init

noncomputable section

namespace Cert.Proof

open Idealize.ShloMosaic Idealize.ShloMosaic.TcCoe Idealize.SL.Sem

/-- The printed kernel runs to the end and leaves its two arguments as it found them. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs both programs end at the chamfer loss of the two clouds. -/
theorem algebraic : Cert.algebraic_KernelIdeal_ReferenceIdeal := by
  intro m ρ m' ρ' hpre hagree
  refine ⟨fun c => fun _ => Cert.Chamfer.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.KValue.run m ρ)
    obtain ⟨hx, hy⟩ := Cert.Finite.real_of_pre m hpre c
    exact funext fun _ => Cert.Chamfer.kernelLoss_eq_loss _ _ hx hy
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.RefValue.run_term_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
